-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S8x64x64 : Shape := ⟨3, ![8, 64, 64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S256x64 .f32) (main_arg3 : FVec F S64 .f32) (main_arg4 : FVec F S8x64x64 .f32) (main_arg5 : FVec F S64x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64x64 .f32 := Host.absf main_arg4
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S8x64x64 : Shape := ⟨3, ![8, 64, 64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64x64 : Shape := ⟨3, ![1, 64, 64]⟩

abbrev nBuf : Space → Nat
  | .hbm => 206
  | .vmem => 68
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S8x64x64, .f32⟩
  | 5 => ⟨S64x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64x64, .f32⟩
  | 69 => ⟨S64x64, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64x64, .f32⟩
  | 88 => ⟨S64x64, .f32⟩
  | 89 => ⟨S100000x64, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x1, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64x64, .f32⟩
  | 107 => ⟨S64x64, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64x64, .f32⟩
  | 126 => ⟨S64x64, .f32⟩
  | 127 => ⟨S100000x64, .f32⟩
  | _ => ⟨S100000x256, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x1, .f32⟩
  | 10 => ⟨S1700000x64, .f32⟩
  | 11 => ⟨S1700000x64, .f32⟩
  | 12 => ⟨S_, .f32⟩
  | 13 => ⟨S100000x64, .f32⟩
  | 14 => ⟨S1700000x1, .i32⟩
  | 15 => ⟨S100000x64, .f32⟩
  | 16 => ⟨S1x64x64, .f32⟩
  | 17 => ⟨S64x64, .f32⟩
  | 18 => ⟨S100000x64, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x64, .f32⟩
  | 28 => ⟨S1700000x1, .f32⟩
  | 29 => ⟨S1700000x64, .f32⟩
  | 30 => ⟨S1700000x64, .f32⟩
  | 31 => ⟨S_, .f32⟩
  | 32 => ⟨S100000x64, .f32⟩
  | 33 => ⟨S1700000x1, .i32⟩
  | 34 => ⟨S100000x64, .f32⟩
  | 35 => ⟨S1x64x64, .f32⟩
  | 36 => ⟨S64x64, .f32⟩
  | 37 => ⟨S100000x64, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x64, .f32⟩
  | 47 => ⟨S1700000x1, .f32⟩
  | 48 => ⟨S1700000x64, .f32⟩
  | 49 => ⟨S1700000x64, .f32⟩
  | 50 => ⟨S_, .f32⟩
  | 51 => ⟨S100000x64, .f32⟩
  | 52 => ⟨S1700000x1, .i32⟩
  | 53 => ⟨S100000x64, .f32⟩
  | 54 => ⟨S1x64x64, .f32⟩
  | 55 => ⟨S64x64, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_c_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_19 : Ref sig .tc := ⟨.hbm, 128, rfl⟩
abbrev main_v98 : Ref sig .tc := ⟨.hbm, 129, rfl⟩
abbrev main_v99 : Ref sig .tc := ⟨.hbm, 130, rfl⟩
abbrev main_c_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_22 : Ref sig .tc := ⟨.hbm, 147, rfl⟩
abbrev main_v114 : Ref sig .tc := ⟨.hbm, 148, rfl⟩
abbrev main_v115 : Ref sig .tc := ⟨.hbm, 149, rfl⟩
abbrev main_c_23 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_24 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_25 : Ref sig .tc := ⟨.hbm, 166, rfl⟩
abbrev main_v130 : Ref sig .tc := ⟨.hbm, 167, rfl⟩
abbrev main_v131 : Ref sig .tc := ⟨.hbm, 168, rfl⟩
abbrev main_c_26 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_27 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_c_28 : Ref sig .tc := ⟨.hbm, 185, rfl⟩
abbrev main_v146 : Ref sig .tc := ⟨.hbm, 186, rfl⟩
abbrev main_v147 : Ref sig .tc := ⟨.hbm, 187, rfl⟩
abbrev main_c_29 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_30 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem3_1 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S8x64x64_S1x64x64_0_0_0 : S8x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S100000x64.size a
  hwx8_3 : ∀ i : grid8.Coords, EltTy.bits .f32 = 32 ∨ (Rect.block (s := S100000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v94) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v110) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v126) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v142) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v33) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v144) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v145) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v158) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v33) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v160) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v161) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v161) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg5) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v162) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v163) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S8x64x64 : Shape := ⟨3, ![8, 64, 64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S1x64x64 : Shape := ⟨3, ![1, 64, 64]⟩

abbrev nBuf : Space → Nat
  | .hbm => 465
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S8x64x64, .f32⟩
  | 5 => ⟨S64x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .i1⟩
  | 57 => ⟨S_, .f32⟩
  | 58 => ⟨S100000x64, .f32⟩
  | 59 => ⟨S100000x64, .i1⟩
  | 60 => ⟨S_, .f32⟩
  | 61 => ⟨S_, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S1700000x1, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x64, .f32⟩
  | 80 => ⟨S1700000x64, .f32⟩
  | 81 => ⟨S_, .f32⟩
  | 82 => ⟨S100000x64, .f32⟩
  | 83 => ⟨S1700000x1, .i32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .i1⟩
  | 108 => ⟨S_, .f32⟩
  | 109 => ⟨S_, .f32⟩
  | 110 => ⟨S100000x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S100000x64, .f32⟩
  | 118 => ⟨S1700000x1, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x64, .f32⟩
  | _ => ⟨S100000x256, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .i1⟩
  | 26 => ⟨S_, .f32⟩
  | 27 => ⟨S100000x64, .f32⟩
  | 28 => ⟨S100000x64, .i1⟩
  | 29 => ⟨S_, .f32⟩
  | 30 => ⟨S_, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S1700000x1, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x64, .f32⟩
  | 49 => ⟨S1700000x64, .f32⟩
  | 50 => ⟨S1700000x64, .f32⟩
  | 51 => ⟨S_, .f32⟩
  | 52 => ⟨S100000x64, .f32⟩
  | 53 => ⟨S1700000x1, .i32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .i1⟩
  | 75 => ⟨S_, .f32⟩
  | 76 => ⟨S100000x64, .f32⟩
  | 77 => ⟨S100000x64, .i1⟩
  | 78 => ⟨S_, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000x64, .f32⟩
  | 88 => ⟨S1700000x1, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S1x64x64, .f32⟩
  | 115 => ⟨S64x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S100000x64, .i1⟩
  | 124 => ⟨S_, .f32⟩
  | 125 => ⟨S100000x64, .f32⟩
  | 126 => ⟨S100000x64, .i1⟩
  | 127 => ⟨S_, .f32⟩
  | _ => ⟨S100000x256, .f32⟩

abbrev hbmTy0_2 (i : Nat) : BufTy := match i % 128 with
  | 0 => ⟨S_, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S100000x64, .f32⟩
  | 9 => ⟨S1700000x1, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x64, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S_, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S_, .f32⟩
  | 43 => ⟨S100000x64, .f32⟩
  | 44 => ⟨S100000x64, .i1⟩
  | 45 => ⟨S_, .f32⟩
  | 46 => ⟨S100000x64, .f32⟩
  | 47 => ⟨S100000x64, .i1⟩
  | 48 => ⟨S_, .f32⟩
  | 49 => ⟨S_, .f32⟩
  | 50 => ⟨S100000x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S100000x64, .f32⟩
  | 57 => ⟨S100000x64, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .i1⟩
  | 97 => ⟨S_, .f32⟩
  | 98 => ⟨S_, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S100000x64, .f32⟩
  | 107 => ⟨S1700000x1, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S100000x64, .f32⟩
  | _ => ⟨S100000x256, .f32⟩

abbrev hbmTy0_3 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S1x64x64, .f32⟩
  | 6 => ⟨S64x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .i1⟩
  | 15 => ⟨S_, .f32⟩
  | 16 => ⟨S100000x64, .f32⟩
  | 17 => ⟨S100000x64, .i1⟩
  | 18 => ⟨S_, .f32⟩
  | 19 => ⟨S_, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S100000x64, .f32⟩
  | 28 => ⟨S1700000x1, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x64, .f32⟩
  | 39 => ⟨S1700000x64, .f32⟩
  | 40 => ⟨S_, .f32⟩
  | 41 => ⟨S100000x64, .f32⟩
  | 42 => ⟨S1700000x1, .i32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S1x64x64, .f32⟩
  | 55 => ⟨S64x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .i1⟩
  | 64 => ⟨S_, .f32⟩
  | 65 => ⟨S100000x64, .f32⟩
  | 66 => ⟨S100000x64, .i1⟩
  | 67 => ⟨S_, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_cst_1 : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_v4 : Ref sig .tc := ⟨.hbm, 63, rfl⟩
abbrev main_call1_v5 : Ref sig .tc := ⟨.hbm, 64, rfl⟩
abbrev main_call1_cst_2 : Ref sig .tc := ⟨.hbm, 65, rfl⟩
abbrev main_call1_v6 : Ref sig .tc := ⟨.hbm, 66, rfl⟩
abbrev main_call1_v7 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_v39 : Ref sig .tc := ⟨.hbm, 72, rfl⟩
abbrev main_c_8 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_13 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_cst_1 : Ref sig .tc := ⟨.hbm, 108, rfl⟩
abbrev main_call2_call0_v0 : Ref sig .tc := ⟨.hbm, 109, rfl⟩
abbrev main_call2_call0_v1 : Ref sig .tc := ⟨.hbm, 110, rfl⟩
abbrev main_call2_v4 : Ref sig .tc := ⟨.hbm, 111, rfl⟩
abbrev main_call2_v5 : Ref sig .tc := ⟨.hbm, 112, rfl⟩
abbrev main_call2_cst_2 : Ref sig .tc := ⟨.hbm, 113, rfl⟩
abbrev main_call2_v6 : Ref sig .tc := ⟨.hbm, 114, rfl⟩
abbrev main_call2_v7 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_14 : Ref sig .tc := ⟨.hbm, 119, rfl⟩
abbrev main_v66 : Ref sig .tc := ⟨.hbm, 120, rfl⟩
abbrev main_v67 : Ref sig .tc := ⟨.hbm, 121, rfl⟩
abbrev main_c_15 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_16 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_17 : Ref sig .tc := ⟨.hbm, 134, rfl⟩
abbrev main_v78 : Ref sig .tc := ⟨.hbm, 135, rfl⟩
abbrev main_v79 : Ref sig .tc := ⟨.hbm, 136, rfl⟩
abbrev main_cst_18 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_19 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_20 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_cst_1 : Ref sig .tc := ⟨.hbm, 157, rfl⟩
abbrev main_call3_call0_v0 : Ref sig .tc := ⟨.hbm, 158, rfl⟩
abbrev main_call3_call0_v1 : Ref sig .tc := ⟨.hbm, 159, rfl⟩
abbrev main_call3_v4 : Ref sig .tc := ⟨.hbm, 160, rfl⟩
abbrev main_call3_v5 : Ref sig .tc := ⟨.hbm, 161, rfl⟩
abbrev main_call3_cst_2 : Ref sig .tc := ⟨.hbm, 162, rfl⟩
abbrev main_call3_v6 : Ref sig .tc := ⟨.hbm, 163, rfl⟩
abbrev main_call3_v7 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_c_21 : Ref sig .tc := ⟨.hbm, 168, rfl⟩
abbrev main_v94 : Ref sig .tc := ⟨.hbm, 169, rfl⟩
abbrev main_v95 : Ref sig .tc := ⟨.hbm, 170, rfl⟩
abbrev main_c_22 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_cst_23 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_24 : Ref sig .tc := ⟨.hbm, 183, rfl⟩
abbrev main_v106 : Ref sig .tc := ⟨.hbm, 184, rfl⟩
abbrev main_v107 : Ref sig .tc := ⟨.hbm, 185, rfl⟩
abbrev main_cst_25 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_26 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_cst_27 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_call4_cst : Ref sig .tc := ⟨.hbm, 200, rfl⟩
abbrev main_call4_v0 : Ref sig .tc := ⟨.hbm, 201, rfl⟩
abbrev main_call4_v1 : Ref sig .tc := ⟨.hbm, 202, rfl⟩
abbrev main_call4_cst_0 : Ref sig .tc := ⟨.hbm, 203, rfl⟩
abbrev main_call4_v2 : Ref sig .tc := ⟨.hbm, 204, rfl⟩
abbrev main_call4_v3 : Ref sig .tc := ⟨.hbm, 205, rfl⟩
abbrev main_call4_cst_1 : Ref sig .tc := ⟨.hbm, 206, rfl⟩
abbrev main_call4_call0_v0 : Ref sig .tc := ⟨.hbm, 207, rfl⟩
abbrev main_call4_call0_v1 : Ref sig .tc := ⟨.hbm, 208, rfl⟩
abbrev main_call4_v4 : Ref sig .tc := ⟨.hbm, 209, rfl⟩
abbrev main_call4_v5 : Ref sig .tc := ⟨.hbm, 210, rfl⟩
abbrev main_call4_cst_2 : Ref sig .tc := ⟨.hbm, 211, rfl⟩
abbrev main_call4_v6 : Ref sig .tc := ⟨.hbm, 212, rfl⟩
abbrev main_call4_v7 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_c_28 : Ref sig .tc := ⟨.hbm, 217, rfl⟩
abbrev main_v122 : Ref sig .tc := ⟨.hbm, 218, rfl⟩
abbrev main_v123 : Ref sig .tc := ⟨.hbm, 219, rfl⟩
abbrev main_c_29 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_30 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_cst_31 : Ref sig .tc := ⟨.hbm, 232, rfl⟩
abbrev main_v134 : Ref sig .tc := ⟨.hbm, 233, rfl⟩
abbrev main_v135 : Ref sig .tc := ⟨.hbm, 234, rfl⟩
abbrev main_cst_32 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_33 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_cst_34 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_call5_cst : Ref sig .tc := ⟨.hbm, 249, rfl⟩
abbrev main_call5_v0 : Ref sig .tc := ⟨.hbm, 250, rfl⟩
abbrev main_call5_v1 : Ref sig .tc := ⟨.hbm, 251, rfl⟩
abbrev main_call5_cst_0 : Ref sig .tc := ⟨.hbm, 252, rfl⟩
abbrev main_call5_v2 : Ref sig .tc := ⟨.hbm, 253, rfl⟩
abbrev main_call5_v3 : Ref sig .tc := ⟨.hbm, 254, rfl⟩
abbrev main_call5_cst_1 : Ref sig .tc := ⟨.hbm, 255, rfl⟩
abbrev main_call5_call0_v0 : Ref sig .tc := ⟨.hbm, 256, rfl⟩
abbrev main_call5_call0_v1 : Ref sig .tc := ⟨.hbm, 257, rfl⟩
abbrev main_call5_v4 : Ref sig .tc := ⟨.hbm, 258, rfl⟩
abbrev main_call5_v5 : Ref sig .tc := ⟨.hbm, 259, rfl⟩
abbrev main_call5_cst_2 : Ref sig .tc := ⟨.hbm, 260, rfl⟩
abbrev main_call5_v6 : Ref sig .tc := ⟨.hbm, 261, rfl⟩
abbrev main_call5_v7 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_c_35 : Ref sig .tc := ⟨.hbm, 266, rfl⟩
abbrev main_v150 : Ref sig .tc := ⟨.hbm, 267, rfl⟩
abbrev main_v151 : Ref sig .tc := ⟨.hbm, 268, rfl⟩
abbrev main_c_36 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_cst_37 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_cst_38 : Ref sig .tc := ⟨.hbm, 281, rfl⟩
abbrev main_v162 : Ref sig .tc := ⟨.hbm, 282, rfl⟩
abbrev main_v163 : Ref sig .tc := ⟨.hbm, 283, rfl⟩
abbrev main_cst_39 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_cst_40 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_cst_41 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_call6_cst : Ref sig .tc := ⟨.hbm, 298, rfl⟩
abbrev main_call6_v0 : Ref sig .tc := ⟨.hbm, 299, rfl⟩
abbrev main_call6_v1 : Ref sig .tc := ⟨.hbm, 300, rfl⟩
abbrev main_call6_cst_0 : Ref sig .tc := ⟨.hbm, 301, rfl⟩
abbrev main_call6_v2 : Ref sig .tc := ⟨.hbm, 302, rfl⟩
abbrev main_call6_v3 : Ref sig .tc := ⟨.hbm, 303, rfl⟩
abbrev main_call6_cst_1 : Ref sig .tc := ⟨.hbm, 304, rfl⟩
abbrev main_call6_call0_v0 : Ref sig .tc := ⟨.hbm, 305, rfl⟩
abbrev main_call6_call0_v1 : Ref sig .tc := ⟨.hbm, 306, rfl⟩
abbrev main_call6_v4 : Ref sig .tc := ⟨.hbm, 307, rfl⟩
abbrev main_call6_v5 : Ref sig .tc := ⟨.hbm, 308, rfl⟩
abbrev main_call6_cst_2 : Ref sig .tc := ⟨.hbm, 309, rfl⟩
abbrev main_call6_v6 : Ref sig .tc := ⟨.hbm, 310, rfl⟩
abbrev main_call6_v7 : Ref sig .tc := ⟨.hbm, 311, rfl⟩
abbrev main_v175 : Ref sig .tc := ⟨.hbm, 312, rfl⟩
abbrev main_v176 : Ref sig .tc := ⟨.hbm, 313, rfl⟩
abbrev main_v177 : Ref sig .tc := ⟨.hbm, 314, rfl⟩
abbrev main_c_42 : Ref sig .tc := ⟨.hbm, 315, rfl⟩
abbrev main_v178 : Ref sig .tc := ⟨.hbm, 316, rfl⟩
abbrev main_v179 : Ref sig .tc := ⟨.hbm, 317, rfl⟩
abbrev main_c_43 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_cst_44 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_cst_45 : Ref sig .tc := ⟨.hbm, 330, rfl⟩
abbrev main_v190 : Ref sig .tc := ⟨.hbm, 331, rfl⟩
abbrev main_v191 : Ref sig .tc := ⟨.hbm, 332, rfl⟩
abbrev main_cst_46 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_cst_47 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_cst_48 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_call7_cst : Ref sig .tc := ⟨.hbm, 347, rfl⟩
abbrev main_call7_v0 : Ref sig .tc := ⟨.hbm, 348, rfl⟩
abbrev main_call7_v1 : Ref sig .tc := ⟨.hbm, 349, rfl⟩
abbrev main_call7_cst_0 : Ref sig .tc := ⟨.hbm, 350, rfl⟩
abbrev main_call7_v2 : Ref sig .tc := ⟨.hbm, 351, rfl⟩
abbrev main_call7_v3 : Ref sig .tc := ⟨.hbm, 352, rfl⟩
abbrev main_call7_cst_1 : Ref sig .tc := ⟨.hbm, 353, rfl⟩
abbrev main_call7_call0_v0 : Ref sig .tc := ⟨.hbm, 354, rfl⟩
abbrev main_call7_call0_v1 : Ref sig .tc := ⟨.hbm, 355, rfl⟩
abbrev main_call7_v4 : Ref sig .tc := ⟨.hbm, 356, rfl⟩
abbrev main_call7_v5 : Ref sig .tc := ⟨.hbm, 357, rfl⟩
abbrev main_call7_cst_2 : Ref sig .tc := ⟨.hbm, 358, rfl⟩
abbrev main_call7_v6 : Ref sig .tc := ⟨.hbm, 359, rfl⟩
abbrev main_call7_v7 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_c_49 : Ref sig .tc := ⟨.hbm, 364, rfl⟩
abbrev main_v206 : Ref sig .tc := ⟨.hbm, 365, rfl⟩
abbrev main_v207 : Ref sig .tc := ⟨.hbm, 366, rfl⟩
abbrev main_c_50 : Ref sig .tc := ⟨.hbm, 367, rfl⟩
abbrev main_v208 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_v214 : Ref sig .tc := ⟨.hbm, 374, rfl⟩
abbrev main_cst_51 : Ref sig .tc := ⟨.hbm, 375, rfl⟩
abbrev main_v215 : Ref sig .tc := ⟨.hbm, 376, rfl⟩
abbrev main_v216 : Ref sig .tc := ⟨.hbm, 377, rfl⟩
abbrev main_v217 : Ref sig .tc := ⟨.hbm, 378, rfl⟩
abbrev main_cst_52 : Ref sig .tc := ⟨.hbm, 379, rfl⟩
abbrev main_v218 : Ref sig .tc := ⟨.hbm, 380, rfl⟩
abbrev main_v219 : Ref sig .tc := ⟨.hbm, 381, rfl⟩
abbrev main_cst_53 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_cst_54 : Ref sig .tc := ⟨.hbm, 386, rfl⟩
abbrev main_v223 : Ref sig .tc := ⟨.hbm, 387, rfl⟩
abbrev main_v224 : Ref sig .tc := ⟨.hbm, 388, rfl⟩
abbrev main_v225 : Ref sig .tc := ⟨.hbm, 389, rfl⟩
abbrev main_v226 : Ref sig .tc := ⟨.hbm, 390, rfl⟩
abbrev main_v227 : Ref sig .tc := ⟨.hbm, 391, rfl⟩
abbrev main_cst_55 : Ref sig .tc := ⟨.hbm, 392, rfl⟩
abbrev main_v228 : Ref sig .tc := ⟨.hbm, 393, rfl⟩
abbrev main_v229 : Ref sig .tc := ⟨.hbm, 394, rfl⟩
abbrev main_v230 : Ref sig .tc := ⟨.hbm, 395, rfl⟩
abbrev main_call8_cst : Ref sig .tc := ⟨.hbm, 396, rfl⟩
abbrev main_call8_v0 : Ref sig .tc := ⟨.hbm, 397, rfl⟩
abbrev main_call8_v1 : Ref sig .tc := ⟨.hbm, 398, rfl⟩
abbrev main_call8_cst_0 : Ref sig .tc := ⟨.hbm, 399, rfl⟩
abbrev main_call8_v2 : Ref sig .tc := ⟨.hbm, 400, rfl⟩
abbrev main_call8_v3 : Ref sig .tc := ⟨.hbm, 401, rfl⟩
abbrev main_call8_cst_1 : Ref sig .tc := ⟨.hbm, 402, rfl⟩
abbrev main_call8_call0_v0 : Ref sig .tc := ⟨.hbm, 403, rfl⟩
abbrev main_call8_call0_v1 : Ref sig .tc := ⟨.hbm, 404, rfl⟩
abbrev main_call8_v4 : Ref sig .tc := ⟨.hbm, 405, rfl⟩
abbrev main_call8_v5 : Ref sig .tc := ⟨.hbm, 406, rfl⟩
abbrev main_call8_cst_2 : Ref sig .tc := ⟨.hbm, 407, rfl⟩
abbrev main_call8_v6 : Ref sig .tc := ⟨.hbm, 408, rfl⟩
abbrev main_call8_v7 : Ref sig .tc := ⟨.hbm, 409, rfl⟩
abbrev main_v231 : Ref sig .tc := ⟨.hbm, 410, rfl⟩
abbrev main_v232 : Ref sig .tc := ⟨.hbm, 411, rfl⟩
abbrev main_v233 : Ref sig .tc := ⟨.hbm, 412, rfl⟩
abbrev main_c_56 : Ref sig .tc := ⟨.hbm, 413, rfl⟩
abbrev main_v234 : Ref sig .tc := ⟨.hbm, 414, rfl⟩
abbrev main_v235 : Ref sig .tc := ⟨.hbm, 415, rfl⟩
abbrev main_c_57 : Ref sig .tc := ⟨.hbm, 416, rfl⟩
abbrev main_v236 : Ref sig .tc := ⟨.hbm, 417, rfl⟩
abbrev main_v237 : Ref sig .tc := ⟨.hbm, 418, rfl⟩
abbrev main_v238 : Ref sig .tc := ⟨.hbm, 419, rfl⟩
abbrev main_v239 : Ref sig .tc := ⟨.hbm, 420, rfl⟩
abbrev main_v240 : Ref sig .tc := ⟨.hbm, 421, rfl⟩
abbrev main_v241 : Ref sig .tc := ⟨.hbm, 422, rfl⟩
abbrev main_v242 : Ref sig .tc := ⟨.hbm, 423, rfl⟩
abbrev main_cst_58 : Ref sig .tc := ⟨.hbm, 424, rfl⟩
abbrev main_v243 : Ref sig .tc := ⟨.hbm, 425, rfl⟩
abbrev main_v244 : Ref sig .tc := ⟨.hbm, 426, rfl⟩
abbrev main_v245 : Ref sig .tc := ⟨.hbm, 427, rfl⟩
abbrev main_cst_59 : Ref sig .tc := ⟨.hbm, 428, rfl⟩
abbrev main_v246 : Ref sig .tc := ⟨.hbm, 429, rfl⟩
abbrev main_v247 : Ref sig .tc := ⟨.hbm, 430, rfl⟩
abbrev main_cst_60 : Ref sig .tc := ⟨.hbm, 431, rfl⟩
abbrev main_v248 : Ref sig .tc := ⟨.hbm, 432, rfl⟩
abbrev main_v249 : Ref sig .tc := ⟨.hbm, 433, rfl⟩
abbrev main_v250 : Ref sig .tc := ⟨.hbm, 434, rfl⟩
abbrev main_cst_61 : Ref sig .tc := ⟨.hbm, 435, rfl⟩
abbrev main_v251 : Ref sig .tc := ⟨.hbm, 436, rfl⟩
abbrev main_v252 : Ref sig .tc := ⟨.hbm, 437, rfl⟩
abbrev main_v253 : Ref sig .tc := ⟨.hbm, 438, rfl⟩
abbrev main_v254 : Ref sig .tc := ⟨.hbm, 439, rfl⟩
abbrev main_v255 : Ref sig .tc := ⟨.hbm, 440, rfl⟩
abbrev main_cst_62 : Ref sig .tc := ⟨.hbm, 441, rfl⟩
abbrev main_v256 : Ref sig .tc := ⟨.hbm, 442, rfl⟩
abbrev main_v257 : Ref sig .tc := ⟨.hbm, 443, rfl⟩
abbrev main_v258 : Ref sig .tc := ⟨.hbm, 444, rfl⟩
abbrev main_call9_cst : Ref sig .tc := ⟨.hbm, 445, rfl⟩
abbrev main_call9_v0 : Ref sig .tc := ⟨.hbm, 446, rfl⟩
abbrev main_call9_v1 : Ref sig .tc := ⟨.hbm, 447, rfl⟩
abbrev main_call9_cst_0 : Ref sig .tc := ⟨.hbm, 448, rfl⟩
abbrev main_call9_v2 : Ref sig .tc := ⟨.hbm, 449, rfl⟩
abbrev main_call9_v3 : Ref sig .tc := ⟨.hbm, 450, rfl⟩
abbrev main_call9_cst_1 : Ref sig .tc := ⟨.hbm, 451, rfl⟩
abbrev main_call9_call0_v0 : Ref sig .tc := ⟨.hbm, 452, rfl⟩
abbrev main_call9_call0_v1 : Ref sig .tc := ⟨.hbm, 453, rfl⟩
abbrev main_call9_v4 : Ref sig .tc := ⟨.hbm, 454, rfl⟩
abbrev main_call9_v5 : Ref sig .tc := ⟨.hbm, 455, rfl⟩
abbrev main_call9_cst_2 : Ref sig .tc := ⟨.hbm, 456, rfl⟩
abbrev main_call9_v6 : Ref sig .tc := ⟨.hbm, 457, rfl⟩
abbrev main_call9_v7 : Ref sig .tc := ⟨.hbm, 458, rfl⟩
abbrev main_v259 : Ref sig .tc := ⟨.hbm, 459, rfl⟩
abbrev main_v260 : Ref sig .tc := ⟨.hbm, 460, rfl⟩
abbrev main_v261 : Ref sig .tc := ⟨.hbm, 461, rfl⟩
abbrev main_v262 : Ref sig .tc := ⟨.hbm, 462, rfl⟩
abbrev main_v263 : Ref sig .tc := ⟨.hbm, 463, rfl⟩
abbrev main_v264 : Ref sig .tc := ⟨.hbm, 464, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run with its result named: every weakly fair execution from any launch memory ends,
  faults nowhere, leaves the seven argument arrays as launched, and leaves in the result buffer the contents that the
  chain of host stretches and kernel regions folds from the launch memory (the last region's output array after its
  twenty write-backs).  The frame run is taken again from the launch over the program's segments, this time keeping
  what the final thread state says about the result buffer.
-/
import proofs.«141911_j13975823581435_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the arguments as launched. -/
theorem run_value : θ_run defs (onTc (τ := τ) (main (F := F))) ⟨m, fun _ => 0, ρ⟩ (fun r => ∀ c : Dev nD,
      r.2.mem ((c.tc : Thread nD τ).loc main_v163) = W22 m ρ c (Proc.devRef .tc main_v163)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v163 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c)⟩)

end Cert.KernelIdeal.KRun

end
-- ==== Proof.KStages.lean ====
/-
  The kernel program's host stretches as functions of arrays, in its own host operations: the edge rows with the self
  loops appended, numpy's negative-index wrap, deg^(−1/2) (0 at an isolated node), the edge weights, the neighbour
  aggregation (each edge's source row times the edge's weight, summed into the destination row), one layer's weights out
  of the stack of eight, and a length-64 bias laid out as a [1, 64] row.
-/
import proofs.«141911_j13975823581435_1_alg».proof.KernelIdeal
import proofs.«141911_j13975823581435_1_alg».proof.Proof.Gen.KernelIdeal

noncomputable section

namespace Cert.KernelIdeal.KStages

open Cert.KernelIdeal Cert.KernelIdeal.Gen Idealize.ShloMosaic

/-- The contents type of an f32 buffer of shape `s`. -/
abbrev FA (F : FTy → Type) (s : Shape) : Type := (⟨s, .f32⟩ : BufTy).Contents (Elt F)
/-- The contents type of an i32 buffer of shape `s`. -/
abbrev IA (F : FTy → Type) (s : Shape) : Type := (⟨s, .i32⟩ : BufTy).Contents (Elt F)

variable {F : FTy → Type} [FloatOps F]

/-- Row `r` of the edge list followed by the self loops 0 … 99999. -/
def edgeRow (off : Fin 2 → Nat) (h : S2x1600000.Slices off S1x1600000) (e : IA F S2x1600000) : IA F S1700000 :=
  concatenate S1700000 0
    [⟨S1600000, shapeCast S1600000 (extractStridedSlice S1x1600000 off e h) shapeCasts_S1x1600000_S1600000⟩,
     ⟨S100000, iotaInDim S100000 32 0⟩] concatenates_S1600000_S100000_S1700000_d0

/-- The source index of every edge. -/
def srcK (e : IA F S2x1600000) : IA F S1700000 := edgeRow ![0, 0] slices_S2x1600000_S1x1600000_0_0 e
/-- The destination index of every edge. -/
def dstK (e : IA F S2x1600000) : IA F S1700000 := edgeRow ![1, 0] slices_S2x1600000_S1x1600000_1_0 e

/-- An index vector as a one-column matrix of positions. -/
def colIdx {E : EltTy} (s : (⟨S1700000, E⟩ : BufTy).Contents (Elt F)) : (⟨S1700000x1, E⟩ : BufTy).Contents (Elt F) :=
  broadcastInDim S1700000x1 ![0] bcast_S1700000_S1700000x1_0 s

/-- numpy's negative-index wrap: an index below 0 has 100000 added. -/
def wrapIdx (s : IA F S1700000) : IA F S1700000 :=
  select (cmpi .slt s (broadcastInDim S1700000 ![] bcast_S_S1700000 (constantI S_ 32 0#32)))
    (addi s (broadcastInDim S1700000 ![] bcast_S_S1700000 (constantI S_ 32 100000#32))) s

/-- deg^(−1/2) per node, 0 where the node has no incoming edge. -/
def dinvK (dst : IA F S1700000) : FA F S100000 :=
  select
    (cmpf .ogt
      (Host.scatterAdd scatter_S100000_S1700000x1_S1700000_n_0_0_1
        (broadcastInDim S100000 ![] bcast_S_S100000 (constant (F := F) S_ .f32 0x00000000#32)) (colIdx dst)
        (broadcastInDim S1700000 ![] bcast_S_S1700000 (constant (F := F) S_ .f32 0x3F800000#32)))
      (broadcastInDim S100000 ![] bcast_S_S100000 (constant (F := F) S_ .f32 0x00000000#32)))
    (Host.rsqrt
      (maximumf
        (Host.scatterAdd scatter_S100000_S1700000x1_S1700000_n_0_0_1
          (broadcastInDim S100000 ![] bcast_S_S100000 (constant (F := F) S_ .f32 0x00000000#32)) (colIdx dst)
          (broadcastInDim S1700000 ![] bcast_S_S1700000 (constant (F := F) S_ .f32 0x3F800000#32)))
        (broadcastInDim S100000 ![] bcast_S_S100000 (constant (F := F) S_ .f32 0x2B8CBCCC#32))))
    (broadcastInDim S100000 ![] bcast_S_S100000 (id (constant (F := F) S_ .f32 0x00000000#32)))

/-- The edge weights: deg^(−1/2) at the source times deg^(−1/2) at the destination. -/
def normK (src dst : IA F S1700000) : FA F S1700000 :=
  mulf (Host.gather gather_S100000_S1700000x1_S1700000_n_0_n_n_0_1_1 (dinvK dst) (colIdx (wrapIdx src)))
    (Host.gather gather_S100000_S1700000x1_S1700000_n_0_n_n_0_1_1 (dinvK dst) (colIdx (wrapIdx dst)))

/-- The neighbour aggregation: the source node's row times each edge's weight, summed into the destination node's row. -/
def aggK (nrm : FA F S1700000) (src dst : IA F S1700000) (h : FA F S100000x64) : FA F S100000x64 :=
  Host.scatterAdd scatter_S100000x64_S1700000x1_S1700000x64_1_0_0_1
    (broadcastInDim S100000x64 ![] bcast_S_S100000x64 (constant (F := F) S_ .f32 0x00000000#32)) (colIdx dst)
    (mulf (Host.gather gather_S100000x64_S1700000x1_S1700000x64_1_0_n_n_0_1_164 h (colIdx (wrapIdx src)))
      (broadcastInDim S1700000x64 ![0, 1] bcast_S1700000x1_S1700000x64_0_1 (colIdx nrm)))

/-- One layer's 64 × 64 weights out of the stack of eight. -/
def wselK (off : Fin 3 → Nat) (h : S8x64x64.Slices off S1x64x64) (w4 : FA F S8x64x64) : FA F S64x64 :=
  shapeCast S64x64 (extractStridedSlice S1x64x64 off w4 h) shapeCasts_S1x64x64_S64x64

/-- A length-64 vector as a [1, 64] row. -/
def rowK (b : FA F S64) : FA F S1x64 := shapeCast S1x64 b shapeCasts_S64_S1x64

end Cert.KernelIdeal.KStages

end
-- ==== Proof.GcnSpec.lean ====
/-
  The function both programs compute, layer by layer, index by index, on the extended reals.

  A graph network over 100000 nodes with 64 hidden features.  Three dense per-node stages appear between the
  neighbour aggregations (which both programs spell with the same host operations and which are carried as opaque
  arrays here):
    * the input stage   h0(p, q)  = elu (Σ_k x(p, k) · w(k, q) + b(q))                      (k < 256);
    * a layer           h'(p, q)  = elu (o(p, q)) + o(p, q),  o = c1 · s + c2 · (s · W)(p, q),
                        s(p, q)   = 1/2 · agg(p, q) + 1/2 · h0(p, q)                        (k < 64);
    * the output stage  out(p, q) = Σ_k h(p, k) · w(k, q) + b(q)                            (k < 64).
  elu(y) is y where y > 0 and e^y − 1 elsewhere (so −1 at −∞).  The constants c1, c2 and 1/2 stay the f32 words the
  programs spell; the same word is on both sides and is never evaluated.
-/
import Idealize.ShloMosaic.PureOps.Ideal
import Idealize.ShloMosaic.PureOps.Ideal.Laws
import Idealize.ShloMosaic.Lib.ValueIdx

noncomputable section

open scoped BigOperators

namespace Cert.GCN

open Idealize.ShloMosaic Idealize.ShloMosaic.ValueIdx

/-- elu on the extended reals: y where 0 < y, otherwise e^y − 1 (the 0 and the 1 as the f32 words both programs
    spell). -/
def eluE (y : EReal) : EReal :=
  Scalar.select (Ideal.cmp .ogt y (Ideal.ofBits .f32 0x00000000#32)) y (Ideal.exp y - Ideal.ofBits .f32 0x3F800000#32)

/-- Row p of x against column q of w. -/
def rowdot {A K B : Nat} (x : (⟨2, ![A, K]⟩ : Shape).Idx → EReal) (w : (⟨2, ![K, B]⟩ : Shape).Idx → EReal)
    (p : Fin A) (q : Fin B) : EReal :=
  ∑ k : Fin K, x (ix2 p k) * w (ix2 k q)

/-- The input stage: elu (x · w + b). -/
def dense0 (x : (⟨2, ![100000, 256]⟩ : Shape).Idx → EReal) (w : (⟨2, ![256, 64]⟩ : Shape).Idx → EReal)
    (b : (⟨1, ![64]⟩ : Shape).Idx → EReal) : (⟨2, ![100000, 64]⟩ : Shape).Idx → EReal :=
  fun i => eluE (rowdot x w (i 0) (i 1) + b (ix1 (i 1)))

/-- The initial-residual mix: half the aggregate plus half the input stage's result. -/
def mix (agg x0 : (⟨2, ![100000, 64]⟩ : Shape).Idx → EReal) : (⟨2, ![100000, 64]⟩ : Shape).Idx → EReal :=
  fun i => Ideal.ofBits .f32 0x3F000000#32 * agg i + Ideal.ofBits .f32 0x3F000000#32 * x0 i

/-- A layer with identity-mapping weights c1 = 1 − β, c2 = β (given as their f32 words): with s the mix and
    o = c1 · s + c2 · (s · W), the result is elu o + o. -/
def layer (c1 c2 : BitVec 32) (agg x0 : (⟨2, ![100000, 64]⟩ : Shape).Idx → EReal)
    (w : (⟨2, ![64, 64]⟩ : Shape).Idx → EReal) : (⟨2, ![100000, 64]⟩ : Shape).Idx → EReal :=
  fun i =>
    eluE (Ideal.ofBits .f32 c1 * mix agg x0 i + Ideal.ofBits .f32 c2 * rowdot (mix agg x0) w (i 0) (i 1))
      + (Ideal.ofBits .f32 c1 * mix agg x0 i + Ideal.ofBits .f32 c2 * rowdot (mix agg x0) w (i 0) (i 1))

/-- The output stage: h · w + b. -/
def proj (h : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun i => rowdot h w (i 0) (i 1) + b (ix1 (i 1))

theorem dense0_apply (x w b) (p : Fin 100000) (q : Fin 64) :
    dense0 x w b (ix2 p q) = eluE (rowdot x w p q + b (ix1 q)) := rfl

theorem mix_apply (agg x0) (i : (⟨2, ![100000, 64]⟩ : Shape).Idx) :
    mix agg x0 i = Ideal.ofBits .f32 0x3F000000#32 * agg i + Ideal.ofBits .f32 0x3F000000#32 * x0 i := rfl

theorem layer_apply (c1 c2 : BitVec 32) (agg x0 w) (p : Fin 100000) (q : Fin 64) :
    layer c1 c2 agg x0 w (ix2 p q)
      = eluE (Ideal.ofBits .f32 c1 * mix agg x0 (ix2 p q) + Ideal.ofBits .f32 c2 * rowdot (mix agg x0) w p q)
        + (Ideal.ofBits .f32 c1 * mix agg x0 (ix2 p q) + Ideal.ofBits .f32 c2 * rowdot (mix agg x0) w p q) := rfl

theorem proj_apply (h w b) (p : Fin 100000) (q : Fin 64) :
    proj h w b (ix2 p q) = rowdot h w p q + b (ix1 q) := rfl

/-- The f32 word of 1.0 denotes 1. -/
theorem ofBits_one : Ideal.ofBits .f32 0x3F800000#32 = 1 := by
  simp [Ideal.ofBits, Ideal.ieee, -EReal.coe_mul]; norm_num

/-- elu spelled with a guarded e^y − 1 scaled by one (select y>0 of y and 1 · (e^{select y>0 of 0 and y} − 1)) is
    elu: where y > 0 both give y; elsewhere the inner select is y and 1 · z = z. -/
theorem elu_guarded (y : EReal) :
    Scalar.select (Ideal.cmp .ogt y (Ideal.ofBits .f32 0x00000000#32)) y
        (Ideal.ofBits .f32 0x3F800000#32
          * (Ideal.exp (Scalar.select (Ideal.cmp .ogt y (Ideal.ofBits .f32 0x00000000#32)) (Ideal.ofBits .f32 0x00000000#32) y) - 1))
      = eluE y := by
  unfold eluE
  rcases BitVec.eq_zero_or_eq_one (Ideal.cmp .ogt y (Ideal.ofBits .f32 0x00000000#32)) with h | h
  · rw [h, select_zero, select_zero, select_zero, ofBits_one, one_mul]
  · rw [h, select_one, select_one]

end Cert.GCN

end
-- ==== Proof.KOut.lean ====
/-
  The kernel program's result as one function of its seven argument arrays: the input stage, then eight layers — each the
  neighbour aggregation of the previous layer's result (host operations, carried as they are spelled) followed by the
  layer's dense part with that layer's weights —, then the output stage.
-/
import proofs.«141911_j13975823581435_1_alg».proof.Proof.KStages
import proofs.«141911_j13975823581435_1_alg».proof.Proof.GcnSpec

noncomputable section

namespace Cert.KernelIdeal.KOut

open Cert.KernelIdeal Cert.KernelIdeal.Gen Cert.KernelIdeal.KStages Idealize.ShloMosaic

/-- One whole layer: aggregate the previous result over the edges, then the dense part with the chosen weights. -/
def stepK (c1 c2 : BitVec 32) (off : Fin 3 → Nat) (hoff : S8x64x64.Slices off S1x64x64)
    (nrm : FA Ideal S1700000) (src dst : IA Ideal S1700000) (x0 : FA Ideal S100000x64) (w4 : FA Ideal S8x64x64)
    (h : FA Ideal S100000x64) : FA Ideal S100000x64 :=
  Cert.GCN.layer c1 c2 (aggK nrm src dst h) x0 (wselK off hoff w4)

/-- The eight layers in order, from the input stage's result. -/
def layersK (nrm : FA Ideal S1700000) (src dst : IA Ideal S1700000) (x0 : FA Ideal S100000x64) (w4 : FA Ideal S8x64x64) :
    FA Ideal S100000x64 :=
  stepK 0x3F61D8F9#32 0x3DF1383B#32 ![7, 0, 0] slices_S8x64x64_S1x64x64_7_0_0 nrm src dst x0 w4
  (stepK 0x3F5DD0E3#32 0x3E08BC74#32 ![6, 0, 0] slices_S8x64x64_S1x64x64_6_0_0 nrm src dst x0 w4
  (stepK 0x3F588995#32 0x3E1DD9AD#32 ![5, 0, 0] slices_S8x64x64_S1x64x64_5_0_0 nrm src dst x0 w4
  (stepK 0x3F515360#32 0x3E3AB281#32 ![4, 0, 0] slices_S8x64x64_S1x64x64_4_0_0 nrm src dst x0 w4
  (stepK 0x3F46E010#32 0x3E647FBE#32 ![3, 0, 0] slices_S8x64x64_S1x64x64_3_0_0 nrm src dst x0 w4
  (stepK 0x3F365A78#32 0x3E934B11#32 ![2, 0, 0] slices_S8x64x64_S1x64x64_2_0_0 nrm src dst x0 w4
  (stepK 0x3F183370#32 0x3ECF991F#32 ![1, 0, 0] slices_S8x64x64_S1x64x64_1_0_0 nrm src dst x0 w4
  (stepK 0x3E9D1BD0#32 0x3F317218#32 ![0, 0, 0] slices_S8x64x64_S1x64x64_0_0_0 nrm src dst x0 w4 x0)))))))

/-- The kernel program's result. -/
def outK (x : FA Ideal S100000x256) (e : IA Ideal S2x1600000) (w : FA Ideal S256x64) (b : FA Ideal S64)
    (w4 : FA Ideal S8x64x64) (wo : FA Ideal S64x64) (bo : FA Ideal S64) : FA Ideal S100000x64 :=
  Cert.GCN.proj (layersK (normK (srcK e) (dstK e)) (srcK e) (dstK e) (Cert.GCN.dense0 x w b) w4) wo bo

end Cert.KernelIdeal.KOut

end
-- ==== Proof.RefOpsP.lean ====
/- The reference's operations of the prelude: the edge rows with the self loops, the degree and its inverse square root, the edge weights, and the input stage: 62 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the prelude, in order. -/
abbrev opsP : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v12) (.of main_v15) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v32 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg3 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v35) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v35) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v35) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v35) main_call1.v7 main_call1.call1.v0 select ]

/-- The buffers those operations write, in order. -/
abbrev opsP_W : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_v32, main_v33, main_v34, main_v35, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v36]

set_option maxRecDepth 8192 in
theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

end Cert.ReferenceIdeal.RefRun

end
-- ==== Proof.RefOpsL1.lean ====
/- The reference's operations of layer 1: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 1, in order. -/
abbrev opsL1 : List (HloOp τ sig (Elt F)) :=
  [ StableHlo.unary main_v31 main_v37 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v36 main_v43 main_v44 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v37 main_v45 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v45 main_v44 main_v46 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v47 (broadcastInDim S100000x64 ![] bcast_S_S100000x64 : (⟨S_, .f32⟩ : BufTy).Contents (Elt F) → (⟨S100000x64, .f32⟩ : BufTy).Contents (Elt F)),
    StableHlo.unary main_v6 main_v48 (broadcastInDim S1700000x1 ![0] bcast_S1700000_S1700000x1_0 : (⟨S1700000, .i32⟩ : BufTy).Contents (Elt F) → (⟨S1700000x1, .i32⟩ : BufTy).Contents (Elt F)),
    StableHlo.ternary main_v47 main_v48 main_v46 main_v49 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_10 (constant S_ .f32 0x3F000000#32),
    StableHlo.unary main_cst_10 main_v50 (broadcastInDim S100000x64 ![] bcast_S_S100000x64 : (⟨S_, .f32⟩ : BufTy).Contents (Elt F) → (⟨S100000x64, .f32⟩ : BufTy).Contents (Elt F)),
    StableHlo.binary main_v50 main_v49 main_v51 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3F000000#32),
    StableHlo.unary main_cst_11 main_v52 (broadcastInDim S100000x64 ![] bcast_S_S100000x64 : (⟨S_, .f32⟩ : BufTy).Contents (Elt F) → (⟨S100000x64, .f32⟩ : BufTy).Contents (Elt F)),
    StableHlo.binary main_v52 main_v36 main_v53 (mulf : (⟨S100000x64, .f32⟩ : BufTy).Contents (Elt F) → (⟨S100000x64, .f32⟩ : BufTy).Contents (Elt F) → (⟨S100000x64, .f32⟩ : BufTy).Contents (Elt F)),
    StableHlo.binary main_v51 main_v53 main_v54 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3E9D1BD0#32),
    StableHlo.unary main_cst_12 main_v55 (broadcastInDim S100000x64 ![] bcast_S_S100000x64 : (⟨S_, .f32⟩ : BufTy).Contents (Elt F) → (⟨S100000x64, .f32⟩ : BufTy).Contents (Elt F)),
    StableHlo.binary main_v55 main_v54 main_v56 (mulf : (⟨S100000x64, .f32⟩ : BufTy).Contents (Elt F) → (⟨S100000x64, .f32⟩ : BufTy).Contents (Elt F) → (⟨S100000x64, .f32⟩ : BufTy).Contents (Elt F)),
    StableHlo.unary main_arg4 main_v57 ((extractStridedSlice S1x64x64 ![0, 0, 0] · slices_S8x64x64_S1x64x64_0_0_0) : (⟨S8x64x64, .f32⟩ : BufTy).Contents (Elt F) → (⟨S1x64x64, .f32⟩ : BufTy).Contents (Elt F)),
    StableHlo.reshape main_v57 main_v58 rfl shapeCasts_S1x64x64_S64x64,
    StableHlo.binary main_v54 main_v58 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_13 (constant S_ .f32 0x3F317218#32),
    StableHlo.unary main_cst_13 main_v60 (broadcastInDim S100000x64 ![] bcast_S_S100000x64 : (⟨S_, .f32⟩ : BufTy).Contents (Elt F) → (⟨S100000x64, .f32⟩ : BufTy).Contents (Elt F)),
    StableHlo.binary main_v60 main_v59 main_v61 (mulf : (⟨S100000x64, .f32⟩ : BufTy).Contents (Elt F) → (⟨S100000x64, .f32⟩ : BufTy).Contents (Elt F) → (⟨S100000x64, .f32⟩ : BufTy).Contents (Elt F)),
    StableHlo.binary main_v56 main_v61 main_v62 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v62) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v62) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v62) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v62) main_call2.v7 main_call2.call1.v0 select,
    StableHlo.binary main_v63 main_v62 main_v64 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL1_W : List (Ref sig .tc) :=
  [main_v37, main_c_7, main_v38, main_v39, main_c_8, main_v40, main_v41, main_v42, main_v43, main_v44, main_v45, main_v46, main_cst_9, main_v47, main_v48, main_v49, main_cst_10, main_v50, main_v51, main_cst_11, main_v52, main_v53, main_v54, main_cst_12, main_v55, main_v56, main_v57, main_v58, main_v59, main_cst_13, main_v60, main_v61, main_v62, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v63, main_v64]

set_option maxRecDepth 8192 in
theorem opsL1_sub : (opsL1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL2.lean ====
/- The reference's operations of layer 2: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 2, in order. -/
abbrev opsL2 : List (HloOp τ sig (Elt F)) :=
  [ StableHlo.unary main_v31 main_v65 (broadcastInDim S1700000x1 ![0] bcast_S1700000_S1700000x1_0 : (⟨S1700000, .f32⟩ : BufTy).Contents (Elt F) → (⟨S1700000x1, .f32⟩ : BufTy).Contents (Elt F)),
    StableHlo.nullary main_c_14 (constantI S_ 32 0#32),
    StableHlo.unary main_c_14 main_v66 (broadcastInDim S1700000 ![] bcast_S_S1700000 : (⟨S_, .i32⟩ : BufTy).Contents (Elt F) → (⟨S1700000, .i32⟩ : BufTy).Contents (Elt F)),
    StableHlo.binary main_v3 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v68 (broadcastInDim S1700000 ![] bcast_S_S1700000 : (⟨S_, .i32⟩ : BufTy).Contents (Elt F) → (⟨S1700000, .i32⟩ : BufTy).Contents (Elt F)),
    StableHlo.binary main_v3 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v64 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v65 main_v73 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v73 main_v72 main_v74 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v75 (broadcastInDim S100000x64 ![] bcast_S_S100000x64 : (⟨S_, .f32⟩ : BufTy).Contents (Elt F) → (⟨S100000x64, .f32⟩ : BufTy).Contents (Elt F)),
    StableHlo.unary main_v6 main_v76 (broadcastInDim S1700000x1 ![0] bcast_S1700000_S1700000x1_0 : (⟨S1700000, .i32⟩ : BufTy).Contents (Elt F) → (⟨S1700000x1, .i32⟩ : BufTy).Contents (Elt F)),
    StableHlo.ternary main_v75 main_v76 main_v74 main_v77 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_17 (constant S_ .f32 0x3F000000#32),
    StableHlo.unary main_cst_17 main_v78 (broadcastInDim S100000x64 ![] bcast_S_S100000x64 : (⟨S_, .f32⟩ : BufTy).Contents (Elt F) → (⟨S100000x64, .f32⟩ : BufTy).Contents (Elt F)),
    StableHlo.binary main_v78 main_v77 main_v79 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3F000000#32),
    StableHlo.unary main_cst_18 main_v80 (broadcastInDim S100000x64 ![] bcast_S_S100000x64 : (⟨S_, .f32⟩ : BufTy).Contents (Elt F) → (⟨S100000x64, .f32⟩ : BufTy).Contents (Elt F)),
    StableHlo.binary main_v80 main_v36 main_v81 (mulf : (⟨S100000x64, .f32⟩ : BufTy).Contents (Elt F) → (⟨S100000x64, .f32⟩ : BufTy).Contents (Elt F) → (⟨S100000x64, .f32⟩ : BufTy).Contents (Elt F)),
    StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3F183370#32),
    StableHlo.unary main_cst_19 main_v83 (broadcastInDim S100000x64 ![] bcast_S_S100000x64 : (⟨S_, .f32⟩ : BufTy).Contents (Elt F) → (⟨S100000x64, .f32⟩ : BufTy).Contents (Elt F)),
    StableHlo.binary main_v83 main_v82 main_v84 (mulf : (⟨S100000x64, .f32⟩ : BufTy).Contents (Elt F) → (⟨S100000x64, .f32⟩ : BufTy).Contents (Elt F) → (⟨S100000x64, .f32⟩ : BufTy).Contents (Elt F)),
    StableHlo.unary main_arg4 main_v85 ((extractStridedSlice S1x64x64 ![1, 0, 0] · slices_S8x64x64_S1x64x64_1_0_0) : (⟨S8x64x64, .f32⟩ : BufTy).Contents (Elt F) → (⟨S1x64x64, .f32⟩ : BufTy).Contents (Elt F)),
    StableHlo.reshape main_v85 main_v86 rfl shapeCasts_S1x64x64_S64x64,
    StableHlo.binary main_v82 main_v86 main_v87 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_20 (constant S_ .f32 0x3ECF991F#32),
    StableHlo.unary main_cst_20 main_v88 (broadcastInDim S100000x64 ![] bcast_S_S100000x64 : (⟨S_, .f32⟩ : BufTy).Contents (Elt F) → (⟨S100000x64, .f32⟩ : BufTy).Contents (Elt F)),
    StableHlo.binary main_v88 main_v87 main_v89 (mulf : (⟨S100000x64, .f32⟩ : BufTy).Contents (Elt F) → (⟨S100000x64, .f32⟩ : BufTy).Contents (Elt F) → (⟨S100000x64, .f32⟩ : BufTy).Contents (Elt F)),
    StableHlo.binary main_v84 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v90) main_call3.v0 main_call3.v1 (cmpf .ogt),
    StableHlo.TRef.nullary main_call3.cst_0 (constant S_ .f32 0x00000000#32),
    StableHlo.TRef.unary main_call3.cst_0 main_call3.v2 (broadcastInDim S100000x64 ![] bcast_S_S100000x64),
    StableHlo.TRef.binary (.of main_v90) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x64 ![] bcast_S_S100000x64),
    StableHlo.TRef.ternary main_call3.v3 main_call3.call0.v1 (.of main_v90) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x64 ![] bcast_S_S100000x64),
    StableHlo.TRef.binary main_call3.v6 main_call3.v5 main_call3.v7 mulf,
    StableHlo.TRef.ternary main_call3.v1 (.of main_v90) main_call3.v7 main_call3.call1.v0 select,
    StableHlo.binary main_v91 main_v90 main_v92 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL2_W : List (Ref sig .tc) :=
  [main_v65, main_c_14, main_v66, main_v67, main_c_15, main_v68, main_v69, main_v70, main_v71, main_v72, main_v73, main_v74, main_cst_16, main_v75, main_v76, main_v77, main_cst_17, main_v78, main_v79, main_cst_18, main_v80, main_v81, main_v82, main_cst_19, main_v83, main_v84, main_v85, main_v86, main_v87, main_cst_20, main_v88, main_v89, main_v90, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v91, main_v92]

set_option maxRecDepth 8192 in
theorem opsL2_sub : (opsL2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL3.lean ====
/- The reference's operations of layer 3: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 3, in order. -/
abbrev opsL3 : List (HloOp τ sig (Elt F)) :=
  [ StableHlo.unary main_v31 main_v93 (broadcastInDim S1700000x1 ![0] bcast_S1700000_S1700000x1_0 : (⟨S1700000, .f32⟩ : BufTy).Contents (Elt F) → (⟨S1700000x1, .f32⟩ : BufTy).Contents (Elt F)),
    StableHlo.nullary main_c_21 (constantI S_ 32 0#32),
    StableHlo.unary main_c_21 main_v94 (broadcastInDim S1700000 ![] bcast_S_S1700000 : (⟨S_, .i32⟩ : BufTy).Contents (Elt F) → (⟨S1700000, .i32⟩ : BufTy).Contents (Elt F)),
    StableHlo.binary main_v3 main_v94 main_v95 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v96 (broadcastInDim S1700000 ![] bcast_S_S1700000 : (⟨S_, .i32⟩ : BufTy).Contents (Elt F) → (⟨S1700000, .i32⟩ : BufTy).Contents (Elt F)),
    StableHlo.binary main_v3 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v3 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v92 main_v99 main_v100 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v93 main_v101 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v101 main_v100 main_v102 (mulf : (⟨S1700000x64, .f32⟩ : BufTy).Contents (Elt F) → (⟨S1700000x64, .f32⟩ : BufTy).Contents (Elt F) → (⟨S1700000x64, .f32⟩ : BufTy).Contents (Elt F)),
    StableHlo.nullary main_cst_23 (constant S_ .f32 0x00000000#32),
    StableHlo.unary main_cst_23 main_v103 (broadcastInDim S100000x64 ![] bcast_S_S100000x64 : (⟨S_, .f32⟩ : BufTy).Contents (Elt F) → (⟨S100000x64, .f32⟩ : BufTy).Contents (Elt F)),
    StableHlo.unary main_v6 main_v104 (broadcastInDim S1700000x1 ![0] bcast_S1700000_S1700000x1_0 : (⟨S1700000, .i32⟩ : BufTy).Contents (Elt F) → (⟨S1700000x1, .i32⟩ : BufTy).Contents (Elt F)),
    StableHlo.ternary main_v103 main_v104 main_v102 main_v105 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_24 (constant S_ .f32 0x3F000000#32),
    StableHlo.unary main_cst_24 main_v106 (broadcastInDim S100000x64 ![] bcast_S_S100000x64 : (⟨S_, .f32⟩ : BufTy).Contents (Elt F) → (⟨S100000x64, .f32⟩ : BufTy).Contents (Elt F)),
    StableHlo.binary main_v106 main_v105 main_v107 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3F000000#32),
    StableHlo.unary main_cst_25 main_v108 (broadcastInDim S100000x64 ![] bcast_S_S100000x64 : (⟨S_, .f32⟩ : BufTy).Contents (Elt F) → (⟨S100000x64, .f32⟩ : BufTy).Contents (Elt F)),
    StableHlo.binary main_v108 main_v36 main_v109 (mulf : (⟨S100000x64, .f32⟩ : BufTy).Contents (Elt F) → (⟨S100000x64, .f32⟩ : BufTy).Contents (Elt F) → (⟨S100000x64, .f32⟩ : BufTy).Contents (Elt F)),
    StableHlo.binary main_v107 main_v109 main_v110 (addf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3F365A78#32),
    StableHlo.unary main_cst_26 main_v111 (broadcastInDim S100000x64 ![] bcast_S_S100000x64 : (⟨S_, .f32⟩ : BufTy).Contents (Elt F) → (⟨S100000x64, .f32⟩ : BufTy).Contents (Elt F)),
    StableHlo.binary main_v111 main_v110 main_v112 (mulf : (⟨S100000x64, .f32⟩ : BufTy).Contents (Elt F) → (⟨S100000x64, .f32⟩ : BufTy).Contents (Elt F) → (⟨S100000x64, .f32⟩ : BufTy).Contents (Elt F)),
    StableHlo.unary main_arg4 main_v113 ((extractStridedSlice S1x64x64 ![2, 0, 0] · slices_S8x64x64_S1x64x64_2_0_0) : (⟨S8x64x64, .f32⟩ : BufTy).Contents (Elt F) → (⟨S1x64x64, .f32⟩ : BufTy).Contents (Elt F)),
    StableHlo.reshape main_v113 main_v114 rfl shapeCasts_S1x64x64_S64x64,
    StableHlo.binary main_v110 main_v114 main_v115 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_27 (constant S_ .f32 0x3E934B11#32),
    StableHlo.unary main_cst_27 main_v116 (broadcastInDim S100000x64 ![] bcast_S_S100000x64 : (⟨S_, .f32⟩ : BufTy).Contents (Elt F) → (⟨S100000x64, .f32⟩ : BufTy).Contents (Elt F)),
    StableHlo.binary main_v116 main_v115 main_v117 (mulf : (⟨S100000x64, .f32⟩ : BufTy).Contents (Elt F) → (⟨S100000x64, .f32⟩ : BufTy).Contents (Elt F) → (⟨S100000x64, .f32⟩ : BufTy).Contents (Elt F)),
    StableHlo.binary main_v112 main_v117 main_v118 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v118) main_call4.v0 main_call4.v1 (cmpf .ogt),
    StableHlo.TRef.nullary main_call4.cst_0 (constant S_ .f32 0x00000000#32),
    StableHlo.TRef.unary main_call4.cst_0 main_call4.v2 (broadcastInDim S100000x64 ![] bcast_S_S100000x64),
    StableHlo.TRef.binary (.of main_v118) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x64 ![] bcast_S_S100000x64),
    StableHlo.TRef.ternary main_call4.v3 main_call4.call0.v1 (.of main_v118) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x64 ![] bcast_S_S100000x64),
    StableHlo.TRef.binary main_call4.v6 main_call4.v5 main_call4.v7 mulf,
    StableHlo.TRef.ternary main_call4.v1 (.of main_v118) main_call4.v7 main_call4.call1.v0 select,
    StableHlo.binary main_v119 main_v118 main_v120 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL3_W : List (Ref sig .tc) :=
  [main_v93, main_c_21, main_v94, main_v95, main_c_22, main_v96, main_v97, main_v98, main_v99, main_v100, main_v101, main_v102, main_cst_23, main_v103, main_v104, main_v105, main_cst_24, main_v106, main_v107, main_cst_25, main_v108, main_v109, main_v110, main_cst_26, main_v111, main_v112, main_v113, main_v114, main_v115, main_cst_27, main_v116, main_v117, main_v118, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v119, main_v120]

set_option maxRecDepth 8192 in
theorem opsL3_sub : (opsL3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL4.lean ====
/- The reference's operations of layer 4: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 4, in order. -/
abbrev opsL4 : List (HloOp τ sig (Elt F)) :=
  [ StableHlo.unary main_v31 main_v121 (broadcastInDim S1700000x1 ![0] bcast_S1700000_S1700000x1_0 : (⟨S1700000, .f32⟩ : BufTy).Contents (Elt F) → (⟨S1700000x1, .f32⟩ : BufTy).Contents (Elt F)),
    StableHlo.nullary main_c_28 (constantI S_ 32 0#32),
    StableHlo.unary main_c_28 main_v122 (broadcastInDim S1700000 ![] bcast_S_S1700000 : (⟨S_, .i32⟩ : BufTy).Contents (Elt F) → (⟨S1700000, .i32⟩ : BufTy).Contents (Elt F)),
    StableHlo.binary main_v3 main_v122 main_v123 (cmpi .slt : (⟨S1700000, .i32⟩ : BufTy).Contents (Elt F) → (⟨S1700000, .i32⟩ : BufTy).Contents (Elt F) → (⟨S1700000, .i1⟩ : BufTy).Contents (Elt F)),
    StableHlo.nullary main_c_29 (constantI S_ 32 100000#32),
    StableHlo.unary main_c_29 main_v124 (broadcastInDim S1700000 ![] bcast_S_S1700000 : (⟨S_, .i32⟩ : BufTy).Contents (Elt F) → (⟨S1700000, .i32⟩ : BufTy).Contents (Elt F)),
    StableHlo.binary main_v3 main_v124 main_v125 (addi : (⟨S1700000, .i32⟩ : BufTy).Contents (Elt F) → (⟨S1700000, .i32⟩ : BufTy).Contents (Elt F) → (⟨S1700000, .i32⟩ : BufTy).Contents (Elt F)),
    StableHlo.ternary main_v123 main_v125 main_v3 main_v126 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v126 main_v127 (broadcastInDim S1700000x1 ![0] bcast_S1700000_S1700000x1_0 : (⟨S1700000, .i32⟩ : BufTy).Contents (Elt F) → (⟨S1700000x1, .i32⟩ : BufTy).Contents (Elt F)),
    StableHlo.binary main_v120 main_v127 main_v128 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v121 main_v129 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v129 main_v128 main_v130 (mulf : (⟨S1700000x64, .f32⟩ : BufTy).Contents (Elt F) → (⟨S1700000x64, .f32⟩ : BufTy).Contents (Elt F) → (⟨S1700000x64, .f32⟩ : BufTy).Contents (Elt F)),
    StableHlo.nullary main_cst_30 (constant S_ .f32 0x00000000#32),
    StableHlo.unary main_cst_30 main_v131 (broadcastInDim S100000x64 ![] bcast_S_S100000x64 : (⟨S_, .f32⟩ : BufTy).Contents (Elt F) → (⟨S100000x64, .f32⟩ : BufTy).Contents (Elt F)),
    StableHlo.unary main_v6 main_v132 (broadcastInDim S1700000x1 ![0] bcast_S1700000_S1700000x1_0 : (⟨S1700000, .i32⟩ : BufTy).Contents (Elt F) → (⟨S1700000x1, .i32⟩ : BufTy).Contents (Elt F)),
    StableHlo.ternary main_v131 main_v132 main_v130 main_v133 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_31 (constant S_ .f32 0x3F000000#32),
    StableHlo.unary main_cst_31 main_v134 (broadcastInDim S100000x64 ![] bcast_S_S100000x64 : (⟨S_, .f32⟩ : BufTy).Contents (Elt F) → (⟨S100000x64, .f32⟩ : BufTy).Contents (Elt F)),
    StableHlo.binary main_v134 main_v133 main_v135 (mulf : (⟨S100000x64, .f32⟩ : BufTy).Contents (Elt F) → (⟨S100000x64, .f32⟩ : BufTy).Contents (Elt F) → (⟨S100000x64, .f32⟩ : BufTy).Contents (Elt F)),
    StableHlo.nullary main_cst_32 (constant S_ .f32 0x3F000000#32),
    StableHlo.unary main_cst_32 main_v136 (broadcastInDim S100000x64 ![] bcast_S_S100000x64 : (⟨S_, .f32⟩ : BufTy).Contents (Elt F) → (⟨S100000x64, .f32⟩ : BufTy).Contents (Elt F)),
    StableHlo.binary main_v136 main_v36 main_v137 (mulf : (⟨S100000x64, .f32⟩ : BufTy).Contents (Elt F) → (⟨S100000x64, .f32⟩ : BufTy).Contents (Elt F) → (⟨S100000x64, .f32⟩ : BufTy).Contents (Elt F)),
    StableHlo.binary main_v135 main_v137 main_v138 (addf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3F46E010#32),
    StableHlo.unary main_cst_33 main_v139 (broadcastInDim S100000x64 ![] bcast_S_S100000x64 : (⟨S_, .f32⟩ : BufTy).Contents (Elt F) → (⟨S100000x64, .f32⟩ : BufTy).Contents (Elt F)),
    StableHlo.binary main_v139 main_v138 main_v140 (mulf : (⟨S100000x64, .f32⟩ : BufTy).Contents (Elt F) → (⟨S100000x64, .f32⟩ : BufTy).Contents (Elt F) → (⟨S100000x64, .f32⟩ : BufTy).Contents (Elt F)),
    StableHlo.unary main_arg4 main_v141 ((extractStridedSlice S1x64x64 ![3, 0, 0] · slices_S8x64x64_S1x64x64_3_0_0) : (⟨S8x64x64, .f32⟩ : BufTy).Contents (Elt F) → (⟨S1x64x64, .f32⟩ : BufTy).Contents (Elt F)),
    StableHlo.reshape main_v141 main_v142 rfl shapeCasts_S1x64x64_S64x64,
    StableHlo.binary main_v138 main_v142 main_v143 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_34 (constant S_ .f32 0x3E647FBE#32),
    StableHlo.unary main_cst_34 main_v144 (broadcastInDim S100000x64 ![] bcast_S_S100000x64 : (⟨S_, .f32⟩ : BufTy).Contents (Elt F) → (⟨S100000x64, .f32⟩ : BufTy).Contents (Elt F)),
    StableHlo.binary main_v144 main_v143 main_v145 (mulf : (⟨S100000x64, .f32⟩ : BufTy).Contents (Elt F) → (⟨S100000x64, .f32⟩ : BufTy).Contents (Elt F) → (⟨S100000x64, .f32⟩ : BufTy).Contents (Elt F)),
    StableHlo.binary main_v140 main_v145 main_v146 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v146) main_call5.v0 main_call5.v1 (cmpf .ogt),
    StableHlo.TRef.nullary main_call5.cst_0 (constant S_ .f32 0x00000000#32),
    StableHlo.TRef.unary main_call5.cst_0 main_call5.v2 (broadcastInDim S100000x64 ![] bcast_S_S100000x64),
    StableHlo.TRef.binary (.of main_v146) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x64 ![] bcast_S_S100000x64),
    StableHlo.TRef.ternary main_call5.v3 main_call5.call0.v1 (.of main_v146) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x64 ![] bcast_S_S100000x64),
    StableHlo.TRef.binary main_call5.v6 main_call5.v5 main_call5.v7 mulf,
    StableHlo.TRef.ternary main_call5.v1 (.of main_v146) main_call5.v7 main_call5.call1.v0 select,
    StableHlo.binary main_v147 main_v146 main_v148 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL4_W : List (Ref sig .tc) :=
  [main_v121, main_c_28, main_v122, main_v123, main_c_29, main_v124, main_v125, main_v126, main_v127, main_v128, main_v129, main_v130, main_cst_30, main_v131, main_v132, main_v133, main_cst_31, main_v134, main_v135, main_cst_32, main_v136, main_v137, main_v138, main_cst_33, main_v139, main_v140, main_v141, main_v142, main_v143, main_cst_34, main_v144, main_v145, main_v146, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v147, main_v148]

set_option maxRecDepth 8192 in
theorem opsL4_sub : (opsL4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL5.lean ====
/- The reference's operations of layer 5: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 5, in order. -/
abbrev opsL5 : List (HloOp τ sig (Elt F)) :=
  [ StableHlo.unary main_v31 main_v149 (broadcastInDim S1700000x1 ![0] bcast_S1700000_S1700000x1_0 : (⟨S1700000, .f32⟩ : BufTy).Contents (Elt F) → (⟨S1700000x1, .f32⟩ : BufTy).Contents (Elt F)),
    StableHlo.nullary main_c_35 (constantI S_ 32 0#32),
    StableHlo.unary main_c_35 main_v150 (broadcastInDim S1700000 ![] bcast_S_S1700000 : (⟨S_, .i32⟩ : BufTy).Contents (Elt F) → (⟨S1700000, .i32⟩ : BufTy).Contents (Elt F)),
    StableHlo.binary main_v3 main_v150 main_v151 (cmpi .slt : (⟨S1700000, .i32⟩ : BufTy).Contents (Elt F) → (⟨S1700000, .i32⟩ : BufTy).Contents (Elt F) → (⟨S1700000, .i1⟩ : BufTy).Contents (Elt F)),
    StableHlo.nullary main_c_36 (constantI S_ 32 100000#32),
    StableHlo.unary main_c_36 main_v152 (broadcastInDim S1700000 ![] bcast_S_S1700000 : (⟨S_, .i32⟩ : BufTy).Contents (Elt F) → (⟨S1700000, .i32⟩ : BufTy).Contents (Elt F)),
    StableHlo.binary main_v3 main_v152 main_v153 (addi : (⟨S1700000, .i32⟩ : BufTy).Contents (Elt F) → (⟨S1700000, .i32⟩ : BufTy).Contents (Elt F) → (⟨S1700000, .i32⟩ : BufTy).Contents (Elt F)),
    StableHlo.ternary main_v151 main_v153 main_v3 main_v154 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v154 main_v155 (broadcastInDim S1700000x1 ![0] bcast_S1700000_S1700000x1_0 : (⟨S1700000, .i32⟩ : BufTy).Contents (Elt F) → (⟨S1700000x1, .i32⟩ : BufTy).Contents (Elt F)),
    StableHlo.binary main_v148 main_v155 main_v156 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v149 main_v157 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v157 main_v156 main_v158 (mulf : (⟨S1700000x64, .f32⟩ : BufTy).Contents (Elt F) → (⟨S1700000x64, .f32⟩ : BufTy).Contents (Elt F) → (⟨S1700000x64, .f32⟩ : BufTy).Contents (Elt F)),
    StableHlo.nullary main_cst_37 (constant S_ .f32 0x00000000#32),
    StableHlo.unary main_cst_37 main_v159 (broadcastInDim S100000x64 ![] bcast_S_S100000x64 : (⟨S_, .f32⟩ : BufTy).Contents (Elt F) → (⟨S100000x64, .f32⟩ : BufTy).Contents (Elt F)),
    StableHlo.unary main_v6 main_v160 (broadcastInDim S1700000x1 ![0] bcast_S1700000_S1700000x1_0 : (⟨S1700000, .i32⟩ : BufTy).Contents (Elt F) → (⟨S1700000x1, .i32⟩ : BufTy).Contents (Elt F)),
    StableHlo.ternary main_v159 main_v160 main_v158 main_v161 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_38 (constant S_ .f32 0x3F000000#32),
    StableHlo.unary main_cst_38 main_v162 (broadcastInDim S100000x64 ![] bcast_S_S100000x64 : (⟨S_, .f32⟩ : BufTy).Contents (Elt F) → (⟨S100000x64, .f32⟩ : BufTy).Contents (Elt F)),
    StableHlo.binary main_v162 main_v161 main_v163 (mulf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x3F000000#32),
    StableHlo.unary main_cst_39 main_v164 (broadcastInDim S100000x64 ![] bcast_S_S100000x64 : (⟨S_, .f32⟩ : BufTy).Contents (Elt F) → (⟨S100000x64, .f32⟩ : BufTy).Contents (Elt F)),
    StableHlo.binary main_v164 main_v36 main_v165 (mulf : (⟨S100000x64, .f32⟩ : BufTy).Contents (Elt F) → (⟨S100000x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x3F515360#32),
    StableHlo.unary main_cst_40 main_v167 (broadcastInDim S100000x64 ![] bcast_S_S100000x64 : (⟨S_, .f32⟩ : BufTy).Contents (Elt F) → (⟨S100000x64, .f32⟩ : BufTy).Contents (Elt F)),
    StableHlo.binary main_v167 main_v166 main_v168 (mulf : (⟨S100000x64, .f32⟩ : BufTy).Contents (Elt F) → (⟨S100000x64, .f32⟩ : BufTy).Contents (Elt F) → (⟨S100000x64, .f32⟩ : BufTy).Contents (Elt F)),
    StableHlo.unary main_arg4 main_v169 ((extractStridedSlice S1x64x64 ![4, 0, 0] · slices_S8x64x64_S1x64x64_4_0_0) : (⟨S8x64x64, .f32⟩ : BufTy).Contents (Elt F) → (⟨S1x64x64, .f32⟩ : BufTy).Contents (Elt F)),
    StableHlo.reshape main_v169 main_v170 rfl shapeCasts_S1x64x64_S64x64,
    StableHlo.binary main_v166 main_v170 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_41 (constant S_ .f32 0x3E3AB281#32),
    StableHlo.unary main_cst_41 main_v172 (broadcastInDim S100000x64 ![] bcast_S_S100000x64 : (⟨S_, .f32⟩ : BufTy).Contents (Elt F) → (⟨S100000x64, .f32⟩ : BufTy).Contents (Elt F)),
    StableHlo.binary main_v172 main_v171 main_v173 (mulf : (⟨S100000x64, .f32⟩ : BufTy).Contents (Elt F) → (⟨S100000x64, .f32⟩ : BufTy).Contents (Elt F) → (⟨S100000x64, .f32⟩ : BufTy).Contents (Elt F)),
    StableHlo.binary main_v168 main_v173 main_v174 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v174) main_call6.v0 main_call6.v1 (cmpf .ogt),
    StableHlo.TRef.nullary main_call6.cst_0 (constant S_ .f32 0x00000000#32),
    StableHlo.TRef.unary main_call6.cst_0 main_call6.v2 (broadcastInDim S100000x64 ![] bcast_S_S100000x64),
    StableHlo.TRef.binary (.of main_v174) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x64 ![] bcast_S_S100000x64),
    StableHlo.TRef.ternary main_call6.v3 main_call6.call0.v1 (.of main_v174) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x64 ![] bcast_S_S100000x64),
    StableHlo.TRef.binary main_call6.v6 main_call6.v5 main_call6.v7 mulf,
    StableHlo.TRef.ternary main_call6.v1 (.of main_v174) main_call6.v7 main_call6.call1.v0 select,
    StableHlo.binary main_v175 main_v174 main_v176 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL5_W : List (Ref sig .tc) :=
  [main_v149, main_c_35, main_v150, main_v151, main_c_36, main_v152, main_v153, main_v154, main_v155, main_v156, main_v157, main_v158, main_cst_37, main_v159, main_v160, main_v161, main_cst_38, main_v162, main_v163, main_cst_39, main_v164, main_v165, main_v166, main_cst_40, main_v167, main_v168, main_v169, main_v170, main_v171, main_cst_41, main_v172, main_v173, main_v174, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v175, main_v176]

set_option maxRecDepth 8192 in
theorem opsL5_sub : (opsL5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL6.lean ====
/- The reference's operations of layer 6: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 6, in order. -/
abbrev opsL6 : List (HloOp τ sig (Elt F)) :=
  [ StableHlo.unary main_v31 main_v177 (broadcastInDim S1700000x1 ![0] bcast_S1700000_S1700000x1_0 : (⟨S1700000, .f32⟩ : BufTy).Contents (Elt F) → (⟨S1700000x1, .f32⟩ : BufTy).Contents (Elt F)),
    StableHlo.nullary main_c_42 (constantI S_ 32 0#32),
    StableHlo.unary main_c_42 main_v178 (broadcastInDim S1700000 ![] bcast_S_S1700000 : (⟨S_, .i32⟩ : BufTy).Contents (Elt F) → (⟨S1700000, .i32⟩ : BufTy).Contents (Elt F)),
    StableHlo.binary main_v3 main_v178 main_v179 (cmpi .slt : (⟨S1700000, .i32⟩ : BufTy).Contents (Elt F) → (⟨S1700000, .i32⟩ : BufTy).Contents (Elt F) → (⟨S1700000, .i1⟩ : BufTy).Contents (Elt F)),
    StableHlo.nullary main_c_43 (constantI S_ 32 100000#32),
    StableHlo.unary main_c_43 main_v180 (broadcastInDim S1700000 ![] bcast_S_S1700000 : (⟨S_, .i32⟩ : BufTy).Contents (Elt F) → (⟨S1700000, .i32⟩ : BufTy).Contents (Elt F)),
    StableHlo.binary main_v3 main_v180 main_v181 (addi : (⟨S1700000, .i32⟩ : BufTy).Contents (Elt F) → (⟨S1700000, .i32⟩ : BufTy).Contents (Elt F) → (⟨S1700000, .i32⟩ : BufTy).Contents (Elt F)),
    StableHlo.ternary main_v179 main_v181 main_v3 main_v182 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v182 main_v183 (broadcastInDim S1700000x1 ![0] bcast_S1700000_S1700000x1_0 : (⟨S1700000, .i32⟩ : BufTy).Contents (Elt F) → (⟨S1700000x1, .i32⟩ : BufTy).Contents (Elt F)),
    StableHlo.binary main_v176 main_v183 main_v184 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v177 main_v185 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v185 main_v184 main_v186 (mulf : (⟨S1700000x64, .f32⟩ : BufTy).Contents (Elt F) → (⟨S1700000x64, .f32⟩ : BufTy).Contents (Elt F) → (⟨S1700000x64, .f32⟩ : BufTy).Contents (Elt F)),
    StableHlo.nullary main_cst_44 (constant S_ .f32 0x00000000#32),
    StableHlo.unary main_cst_44 main_v187 (broadcastInDim S100000x64 ![] bcast_S_S100000x64 : (⟨S_, .f32⟩ : BufTy).Contents (Elt F) → (⟨S100000x64, .f32⟩ : BufTy).Contents (Elt F)),
    StableHlo.unary main_v6 main_v188 (broadcastInDim S1700000x1 ![0] bcast_S1700000_S1700000x1_0 : (⟨S1700000, .i32⟩ : BufTy).Contents (Elt F) → (⟨S1700000x1, .i32⟩ : BufTy).Contents (Elt F)),
    StableHlo.ternary main_v187 main_v188 main_v186 main_v189 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_45 (constant S_ .f32 0x3F000000#32),
    StableHlo.unary main_cst_45 main_v190 (broadcastInDim S100000x64 ![] bcast_S_S100000x64 : (⟨S_, .f32⟩ : BufTy).Contents (Elt F) → (⟨S100000x64, .f32⟩ : BufTy).Contents (Elt F)),
    StableHlo.binary main_v190 main_v189 main_v191 (mulf : (⟨S100000x64, .f32⟩ : BufTy).Contents (Elt F) → (⟨S100000x64, .f32⟩ : BufTy).Contents (Elt F) → (⟨S100000x64, .f32⟩ : BufTy).Contents (Elt F)),
    StableHlo.nullary main_cst_46 (constant S_ .f32 0x3F000000#32),
    StableHlo.unary main_cst_46 main_v192 (broadcastInDim S100000x64 ![] bcast_S_S100000x64 : (⟨S_, .f32⟩ : BufTy).Contents (Elt F) → (⟨S100000x64, .f32⟩ : BufTy).Contents (Elt F)),
    StableHlo.binary main_v192 main_v36 main_v193 (mulf : (⟨S100000x64, .f32⟩ : BufTy).Contents (Elt F) → (⟨S100000x64, .f32⟩ : BufTy).Contents (Elt F) → (⟨S100000x64, .f32⟩ : BufTy).Contents (Elt F)),
    StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x3F588995#32),
    StableHlo.unary main_cst_47 main_v195 (broadcastInDim S100000x64 ![] bcast_S_S100000x64 : (⟨S_, .f32⟩ : BufTy).Contents (Elt F) → (⟨S100000x64, .f32⟩ : BufTy).Contents (Elt F)),
    StableHlo.binary main_v195 main_v194 main_v196 (mulf : (⟨S100000x64, .f32⟩ : BufTy).Contents (Elt F) → (⟨S100000x64, .f32⟩ : BufTy).Contents (Elt F) → (⟨S100000x64, .f32⟩ : BufTy).Contents (Elt F)),
    StableHlo.unary main_arg4 main_v197 ((extractStridedSlice S1x64x64 ![5, 0, 0] · slices_S8x64x64_S1x64x64_5_0_0) : (⟨S8x64x64, .f32⟩ : BufTy).Contents (Elt F) → (⟨S1x64x64, .f32⟩ : BufTy).Contents (Elt F)),
    StableHlo.reshape main_v197 main_v198 rfl shapeCasts_S1x64x64_S64x64,
    StableHlo.binary main_v194 main_v198 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_48 (constant S_ .f32 0x3E1DD9AD#32),
    StableHlo.unary main_cst_48 main_v200 (broadcastInDim S100000x64 ![] bcast_S_S100000x64 : (⟨S_, .f32⟩ : BufTy).Contents (Elt F) → (⟨S100000x64, .f32⟩ : BufTy).Contents (Elt F)),
    StableHlo.binary main_v200 main_v199 main_v201 (mulf : (⟨S100000x64, .f32⟩ : BufTy).Contents (Elt F) → (⟨S100000x64, .f32⟩ : BufTy).Contents (Elt F) → (⟨S100000x64, .f32⟩ : BufTy).Contents (Elt F)),
    StableHlo.binary main_v196 main_v201 main_v202 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v202) main_call7.v0 main_call7.v1 (cmpf .ogt),
    StableHlo.TRef.nullary main_call7.cst_0 (constant S_ .f32 0x00000000#32),
    StableHlo.TRef.unary main_call7.cst_0 main_call7.v2 (broadcastInDim S100000x64 ![] bcast_S_S100000x64),
    StableHlo.TRef.binary (.of main_v202) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x64 ![] bcast_S_S100000x64),
    StableHlo.TRef.ternary main_call7.v3 main_call7.call0.v1 (.of main_v202) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x64 ![] bcast_S_S100000x64),
    StableHlo.TRef.binary main_call7.v6 main_call7.v5 main_call7.v7 mulf,
    StableHlo.TRef.ternary main_call7.v1 (.of main_v202) main_call7.v7 main_call7.call1.v0 select,
    StableHlo.binary main_v203 main_v202 main_v204 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL6_W : List (Ref sig .tc) :=
  [main_v177, main_c_42, main_v178, main_v179, main_c_43, main_v180, main_v181, main_v182, main_v183, main_v184, main_v185, main_v186, main_cst_44, main_v187, main_v188, main_v189, main_cst_45, main_v190, main_v191, main_cst_46, main_v192, main_v193, main_v194, main_cst_47, main_v195, main_v196, main_v197, main_v198, main_v199, main_cst_48, main_v200, main_v201, main_v202, main_call7_cst, main_call7_v0, main_call7_v1, main_call7_cst_0, main_call7_v2, main_call7_v3, main_call7_cst_1, main_call7_call0_v0, main_call7_call0_v1, main_call7_v4, main_call7_v5, main_call7_cst_2, main_call7_v6, main_call7_v7, main_v203, main_v204]

set_option maxRecDepth 8192 in
theorem opsL6_sub : (opsL6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL7.lean ====
/- The reference's operations of layer 7: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 7, in order. -/
abbrev opsL7 : List (HloOp τ sig (Elt F)) :=
  [ StableHlo.unary main_v31 main_v205 (broadcastInDim S1700000x1 ![0] bcast_S1700000_S1700000x1_0 : (⟨S1700000, .f32⟩ : BufTy).Contents (Elt F) → (⟨S1700000x1, .f32⟩ : BufTy).Contents (Elt F)),
    StableHlo.nullary main_c_49 (constantI S_ 32 0#32),
    StableHlo.unary main_c_49 main_v206 (broadcastInDim S1700000 ![] bcast_S_S1700000 : (⟨S_, .i32⟩ : BufTy).Contents (Elt F) → (⟨S1700000, .i32⟩ : BufTy).Contents (Elt F)),
    StableHlo.binary main_v3 main_v206 main_v207 (cmpi .slt : (⟨S1700000, .i32⟩ : BufTy).Contents (Elt F) → (⟨S1700000, .i32⟩ : BufTy).Contents (Elt F) → (⟨S1700000, .i1⟩ : BufTy).Contents (Elt F)),
    StableHlo.nullary main_c_50 (constantI S_ 32 100000#32),
    StableHlo.unary main_c_50 main_v208 (broadcastInDim S1700000 ![] bcast_S_S1700000 : (⟨S_, .i32⟩ : BufTy).Contents (Elt F) → (⟨S1700000, .i32⟩ : BufTy).Contents (Elt F)),
    StableHlo.binary main_v3 main_v208 main_v209 (addi : (⟨S1700000, .i32⟩ : BufTy).Contents (Elt F) → (⟨S1700000, .i32⟩ : BufTy).Contents (Elt F) → (⟨S1700000, .i32⟩ : BufTy).Contents (Elt F)),
    StableHlo.ternary main_v207 main_v209 main_v3 main_v210 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v210 main_v211 (broadcastInDim S1700000x1 ![0] bcast_S1700000_S1700000x1_0 : (⟨S1700000, .i32⟩ : BufTy).Contents (Elt F) → (⟨S1700000x1, .i32⟩ : BufTy).Contents (Elt F)),
    StableHlo.binary main_v204 main_v211 main_v212 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v205 main_v213 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v213 main_v212 main_v214 (mulf : (⟨S1700000x64, .f32⟩ : BufTy).Contents (Elt F) → (⟨S1700000x64, .f32⟩ : BufTy).Contents (Elt F) → (⟨S1700000x64, .f32⟩ : BufTy).Contents (Elt F)),
    StableHlo.nullary main_cst_51 (constant S_ .f32 0x00000000#32),
    StableHlo.unary main_cst_51 main_v215 (broadcastInDim S100000x64 ![] bcast_S_S100000x64 : (⟨S_, .f32⟩ : BufTy).Contents (Elt F) → (⟨S100000x64, .f32⟩ : BufTy).Contents (Elt F)),
    StableHlo.unary main_v6 main_v216 (broadcastInDim S1700000x1 ![0] bcast_S1700000_S1700000x1_0 : (⟨S1700000, .i32⟩ : BufTy).Contents (Elt F) → (⟨S1700000x1, .i32⟩ : BufTy).Contents (Elt F)),
    StableHlo.ternary main_v215 main_v216 main_v214 main_v217 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_52 (constant S_ .f32 0x3F000000#32),
    StableHlo.unary main_cst_52 main_v218 (broadcastInDim S100000x64 ![] bcast_S_S100000x64 : (⟨S_, .f32⟩ : BufTy).Contents (Elt F) → (⟨S100000x64, .f32⟩ : BufTy).Contents (Elt F)),
    StableHlo.binary main_v218 main_v217 main_v219 (mulf : (⟨S100000x64, .f32⟩ : BufTy).Contents (Elt F) → (⟨S100000x64, .f32⟩ : BufTy).Contents (Elt F) → (⟨S100000x64, .f32⟩ : BufTy).Contents (Elt F)),
    StableHlo.nullary main_cst_53 (constant S_ .f32 0x3F000000#32),
    StableHlo.unary main_cst_53 main_v220 (broadcastInDim S100000x64 ![] bcast_S_S100000x64 : (⟨S_, .f32⟩ : BufTy).Contents (Elt F) → (⟨S100000x64, .f32⟩ : BufTy).Contents (Elt F)),
    StableHlo.binary main_v220 main_v36 main_v221 (mulf : (⟨S100000x64, .f32⟩ : BufTy).Contents (Elt F) → (⟨S100000x64, .f32⟩ : BufTy).Contents (Elt F) → (⟨S100000x64, .f32⟩ : BufTy).Contents (Elt F)),
    StableHlo.binary main_v219 main_v221 main_v222 (addf : (⟨S100000x64, .f32⟩ : BufTy).Contents (Elt F) → (⟨S100000x64, .f32⟩ : BufTy).Contents (Elt F) → (⟨S100000x64, .f32⟩ : BufTy).Contents (Elt F)),
    StableHlo.nullary main_cst_54 (constant S_ .f32 0x3F5DD0E3#32),
    StableHlo.unary main_cst_54 main_v223 (broadcastInDim S100000x64 ![] bcast_S_S100000x64 : (⟨S_, .f32⟩ : BufTy).Contents (Elt F) → (⟨S100000x64, .f32⟩ : BufTy).Contents (Elt F)),
    StableHlo.binary main_v223 main_v222 main_v224 (mulf : (⟨S100000x64, .f32⟩ : BufTy).Contents (Elt F) → (⟨S100000x64, .f32⟩ : BufTy).Contents (Elt F) → (⟨S100000x64, .f32⟩ : BufTy).Contents (Elt F)),
    StableHlo.unary main_arg4 main_v225 ((extractStridedSlice S1x64x64 ![6, 0, 0] · slices_S8x64x64_S1x64x64_6_0_0) : (⟨S8x64x64, .f32⟩ : BufTy).Contents (Elt F) → (⟨S1x64x64, .f32⟩ : BufTy).Contents (Elt F)),
    StableHlo.reshape main_v225 main_v226 rfl shapeCasts_S1x64x64_S64x64,
    StableHlo.binary main_v222 main_v226 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_55 (constant S_ .f32 0x3E08BC74#32),
    StableHlo.unary main_cst_55 main_v228 (broadcastInDim S100000x64 ![] bcast_S_S100000x64 : (⟨S_, .f32⟩ : BufTy).Contents (Elt F) → (⟨S100000x64, .f32⟩ : BufTy).Contents (Elt F)),
    StableHlo.binary main_v228 main_v227 main_v229 (mulf : (⟨S100000x64, .f32⟩ : BufTy).Contents (Elt F) → (⟨S100000x64, .f32⟩ : BufTy).Contents (Elt F) → (⟨S100000x64, .f32⟩ : BufTy).Contents (Elt F)),
    StableHlo.binary main_v224 main_v229 main_v230 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v230) main_call8.v0 main_call8.v1 (cmpf .ogt),
    StableHlo.TRef.nullary main_call8.cst_0 (constant S_ .f32 0x00000000#32),
    StableHlo.TRef.unary main_call8.cst_0 main_call8.v2 (broadcastInDim S100000x64 ![] bcast_S_S100000x64),
    StableHlo.TRef.binary (.of main_v230) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S100000x64 ![] bcast_S_S100000x64),
    StableHlo.TRef.ternary main_call8.v3 main_call8.call0.v1 (.of main_v230) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S100000x64 ![] bcast_S_S100000x64),
    StableHlo.TRef.binary main_call8.v6 main_call8.v5 main_call8.v7 mulf,
    StableHlo.TRef.ternary main_call8.v1 (.of main_v230) main_call8.v7 main_call8.call1.v0 select,
    StableHlo.binary main_v231 main_v230 main_v232 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL7_W : List (Ref sig .tc) :=
  [main_v205, main_c_49, main_v206, main_v207, main_c_50, main_v208, main_v209, main_v210, main_v211, main_v212, main_v213, main_v214, main_cst_51, main_v215, main_v216, main_v217, main_cst_52, main_v218, main_v219, main_cst_53, main_v220, main_v221, main_v222, main_cst_54, main_v223, main_v224, main_v225, main_v226, main_v227, main_cst_55, main_v228, main_v229, main_v230, main_call8_cst, main_call8_v0, main_call8_v1, main_call8_cst_0, main_call8_v2, main_call8_v3, main_call8_cst_1, main_call8_call0_v0, main_call8_call0_v1, main_call8_v4, main_call8_v5, main_call8_cst_2, main_call8_v6, main_call8_v7, main_v231, main_v232]

set_option maxRecDepth 8192 in
theorem opsL7_sub : (opsL7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsL8.lean ====
/- The reference's operations of layer 8: the weighted neighbour aggregation, the mix with the input stage, the dense part, its elu and the residual sum: 49 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of layer 8, in order. -/
abbrev opsL8 : List (HloOp τ sig (Elt F)) :=
  [ StableHlo.unary main_v31 main_v233 (broadcastInDim S1700000x1 ![0] bcast_S1700000_S1700000x1_0 : (⟨S1700000, .f32⟩ : BufTy).Contents (Elt F) → (⟨S1700000x1, .f32⟩ : BufTy).Contents (Elt F)),
    StableHlo.nullary main_c_56 (constantI S_ 32 0#32),
    StableHlo.unary main_c_56 main_v234 (broadcastInDim S1700000 ![] bcast_S_S1700000 : (⟨S_, .i32⟩ : BufTy).Contents (Elt F) → (⟨S1700000, .i32⟩ : BufTy).Contents (Elt F)),
    StableHlo.binary main_v3 main_v234 main_v235 (cmpi .slt : (⟨S1700000, .i32⟩ : BufTy).Contents (Elt F) → (⟨S1700000, .i32⟩ : BufTy).Contents (Elt F) → (⟨S1700000, .i1⟩ : BufTy).Contents (Elt F)),
    StableHlo.nullary main_c_57 (constantI S_ 32 100000#32),
    StableHlo.unary main_c_57 main_v236 (broadcastInDim S1700000 ![] bcast_S_S1700000 : (⟨S_, .i32⟩ : BufTy).Contents (Elt F) → (⟨S1700000, .i32⟩ : BufTy).Contents (Elt F)),
    StableHlo.binary main_v3 main_v236 main_v237 (addi : (⟨S1700000, .i32⟩ : BufTy).Contents (Elt F) → (⟨S1700000, .i32⟩ : BufTy).Contents (Elt F) → (⟨S1700000, .i32⟩ : BufTy).Contents (Elt F)),
    StableHlo.ternary main_v235 main_v237 main_v3 main_v238 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v238 main_v239 (broadcastInDim S1700000x1 ![0] bcast_S1700000_S1700000x1_0 : (⟨S1700000, .i32⟩ : BufTy).Contents (Elt F) → (⟨S1700000x1, .i32⟩ : BufTy).Contents (Elt F)),
    StableHlo.binary main_v232 main_v239 main_v240 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v233 main_v241 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v241 main_v240 main_v242 (mulf : (⟨S1700000x64, .f32⟩ : BufTy).Contents (Elt F) → (⟨S1700000x64, .f32⟩ : BufTy).Contents (Elt F) → (⟨S1700000x64, .f32⟩ : BufTy).Contents (Elt F)),
    StableHlo.nullary main_cst_58 (constant S_ .f32 0x00000000#32),
    StableHlo.unary main_cst_58 main_v243 (broadcastInDim S100000x64 ![] bcast_S_S100000x64 : (⟨S_, .f32⟩ : BufTy).Contents (Elt F) → (⟨S100000x64, .f32⟩ : BufTy).Contents (Elt F)),
    StableHlo.unary main_v6 main_v244 (broadcastInDim S1700000x1 ![0] bcast_S1700000_S1700000x1_0 : (⟨S1700000, .i32⟩ : BufTy).Contents (Elt F) → (⟨S1700000x1, .i32⟩ : BufTy).Contents (Elt F)),
    StableHlo.ternary main_v243 main_v244 main_v242 main_v245 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_59 (constant S_ .f32 0x3F000000#32),
    StableHlo.unary main_cst_59 main_v246 (broadcastInDim S100000x64 ![] bcast_S_S100000x64 : (⟨S_, .f32⟩ : BufTy).Contents (Elt F) → (⟨S100000x64, .f32⟩ : BufTy).Contents (Elt F)),
    StableHlo.binary main_v246 main_v245 main_v247 (mulf : (⟨S100000x64, .f32⟩ : BufTy).Contents (Elt F) → (⟨S100000x64, .f32⟩ : BufTy).Contents (Elt F) → (⟨S100000x64, .f32⟩ : BufTy).Contents (Elt F)),
    StableHlo.nullary main_cst_60 (constant S_ .f32 0x3F000000#32),
    StableHlo.unary main_cst_60 main_v248 (broadcastInDim S100000x64 ![] bcast_S_S100000x64 : (⟨S_, .f32⟩ : BufTy).Contents (Elt F) → (⟨S100000x64, .f32⟩ : BufTy).Contents (Elt F)),
    StableHlo.binary main_v248 main_v36 main_v249 (mulf : (⟨S100000x64, .f32⟩ : BufTy).Contents (Elt F) → (⟨S100000x64, .f32⟩ : BufTy).Contents (Elt F) → (⟨S100000x64, .f32⟩ : BufTy).Contents (Elt F)),
    StableHlo.binary main_v247 main_v249 main_v250 (addf : (⟨S100000x64, .f32⟩ : BufTy).Contents (Elt F) → (⟨S100000x64, .f32⟩ : BufTy).Contents (Elt F) → (⟨S100000x64, .f32⟩ : BufTy).Contents (Elt F)),
    StableHlo.nullary main_cst_61 (constant S_ .f32 0x3F61D8F9#32),
    StableHlo.unary main_cst_61 main_v251 (broadcastInDim S100000x64 ![] bcast_S_S100000x64 : (⟨S_, .f32⟩ : BufTy).Contents (Elt F) → (⟨S100000x64, .f32⟩ : BufTy).Contents (Elt F)),
    StableHlo.binary main_v251 main_v250 main_v252 (mulf : (⟨S100000x64, .f32⟩ : BufTy).Contents (Elt F) → (⟨S100000x64, .f32⟩ : BufTy).Contents (Elt F) → (⟨S100000x64, .f32⟩ : BufTy).Contents (Elt F)),
    StableHlo.unary main_arg4 main_v253 ((extractStridedSlice S1x64x64 ![7, 0, 0] · slices_S8x64x64_S1x64x64_7_0_0) : (⟨S8x64x64, .f32⟩ : BufTy).Contents (Elt F) → (⟨S1x64x64, .f32⟩ : BufTy).Contents (Elt F)),
    StableHlo.reshape main_v253 main_v254 rfl shapeCasts_S1x64x64_S64x64,
    StableHlo.binary main_v250 main_v254 main_v255 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_62 (constant S_ .f32 0x3DF1383B#32),
    StableHlo.unary main_cst_62 main_v256 (broadcastInDim S100000x64 ![] bcast_S_S100000x64 : (⟨S_, .f32⟩ : BufTy).Contents (Elt F) → (⟨S100000x64, .f32⟩ : BufTy).Contents (Elt F)),
    StableHlo.binary main_v256 main_v255 main_v257 (mulf : (⟨S100000x64, .f32⟩ : BufTy).Contents (Elt F) → (⟨S100000x64, .f32⟩ : BufTy).Contents (Elt F) → (⟨S100000x64, .f32⟩ : BufTy).Contents (Elt F)),
    StableHlo.binary main_v252 main_v257 main_v258 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v258) main_call9.v0 main_call9.v1 (cmpf .ogt),
    StableHlo.TRef.nullary main_call9.cst_0 (constant S_ .f32 0x00000000#32),
    StableHlo.TRef.unary main_call9.cst_0 main_call9.v2 (broadcastInDim S100000x64 ![] bcast_S_S100000x64),
    StableHlo.TRef.binary (.of main_v258) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x64 ![] bcast_S_S100000x64),
    StableHlo.TRef.ternary main_call9.v3 main_call9.call0.v1 (.of main_v258) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x64 ![] bcast_S_S100000x64),
    StableHlo.TRef.binary main_call9.v6 main_call9.v5 main_call9.v7 mulf,
    StableHlo.TRef.ternary main_call9.v1 (.of main_v258) main_call9.v7 main_call9.call1.v0 select,
    StableHlo.binary main_v259 main_v258 main_v260 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsL8_W : List (Ref sig .tc) :=
  [main_v233, main_c_56, main_v234, main_v235, main_c_57, main_v236, main_v237, main_v238, main_v239, main_v240, main_v241, main_v242, main_cst_58, main_v243, main_v244, main_v245, main_cst_59, main_v246, main_v247, main_cst_60, main_v248, main_v249, main_v250, main_cst_61, main_v251, main_v252, main_v253, main_v254, main_v255, main_cst_62, main_v256, main_v257, main_v258, main_call9_cst, main_call9_v0, main_call9_v1, main_call9_cst_0, main_call9_v2, main_call9_v3, main_call9_cst_1, main_call9_call0_v0, main_call9_call0_v1, main_call9_v4, main_call9_v5, main_call9_cst_2, main_call9_v6, main_call9_v7, main_v259, main_v260]

set_option maxRecDepth 8192 in
theorem opsL8_sub : (opsL8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

end Cert.ReferenceIdeal.RefRun

end
-- ==== Proof.RefOpsO.lean ====
/- The reference's operations of the output stage: the product with the output weights plus the output bias: 4 operations, in the program's order, each function's
   operations written out at its call over the call's own buffers. With them the list of the buffers they write, and
   that every operation touches TensorCore buffers only. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the output stage, in order. -/
abbrev opsO : List (HloOp τ sig (Elt F)) :=
  [ StableHlo.binary main_v260 main_arg5 main_v261 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S100000x64 ![0, 1] bcast_S1x64_S100000x64_0_1 : (⟨S1x64, .f32⟩ : BufTy).Contents (Elt F) → (⟨S100000x64, .f32⟩ : BufTy).Contents (Elt F)),
    StableHlo.binary main_v261 main_v263 main_v264 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev opsO_W : List (Ref sig .tc) :=
  [main_v261, main_v262, main_v263, main_v264]

set_option maxRecDepth 8192 in
theorem opsO_sub : (opsO : List (HloOp τ sig (Elt F))).Forall fun op => op.bufs ⊆ tcRefs τ sig :=
  ⟨binary_bufs_sub .., unary_bufs_sub .., unary_bufs_sub .., binary_bufs_sub ..⟩

end Cert.ReferenceIdeal.RefRun

end
-- ==== Proof.RefOpsPart0.lean ====
/- The reference's operations as the program prints them, part 0: 76 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 0, in order. -/
abbrev part0L : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v12) (.of main_v15) main_call0.v1 main_call0.v2 select,
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v32 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg3 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v35) main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary (.of main_v35) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 (.of main_v35) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 (.of main_v35) main_call1.v7 main_call1.call1.v0 select,
    StableHlo.unary main_v31 main_v37 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v38 (broadcastInDim S1700000 ![] bcast_S_S1700000 : (⟨S_, .i32⟩ : BufTy).Contents (Elt F) → (⟨S1700000, .i32⟩ : BufTy).Contents (Elt F)),
    StableHlo.binary main_v3 main_v38 main_v39 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v40 (broadcastInDim S1700000 ![] bcast_S_S1700000 : (⟨S_, .i32⟩ : BufTy).Contents (Elt F) → (⟨S1700000, .i32⟩ : BufTy).Contents (Elt F)),
    StableHlo.binary main_v3 main_v40 main_v41 (addi : (⟨S1700000, .i32⟩ : BufTy).Contents (Elt F) → (⟨S1700000, .i32⟩ : BufTy).Contents (Elt F) → (⟨S1700000, .i32⟩ : BufTy).Contents (Elt F)),
    StableHlo.ternary main_v39 main_v41 main_v3 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v42 main_v43 (broadcastInDim S1700000x1 ![0] bcast_S1700000_S1700000x1_0 : (⟨S1700000, .i32⟩ : BufTy).Contents (Elt F) → (⟨S1700000x1, .i32⟩ : BufTy).Contents (Elt F)),
    StableHlo.binary main_v36 main_v43 main_v44 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v37 main_v45 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v45 main_v44 main_v46 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v47 (broadcastInDim S100000x64 ![] bcast_S_S100000x64 : (⟨S_, .f32⟩ : BufTy).Contents (Elt F) → (⟨S100000x64, .f32⟩ : BufTy).Contents (Elt F)) ]

end Cert.ReferenceIdeal.RefRun

end
-- ==== Proof.RefOpsPart1.lean ====
/- The reference's operations as the program prints them, part 1: 88 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 1, in order. -/
abbrev part1L : List (HloOp τ sig (Elt F)) :=
  [ StableHlo.unary main_v6 main_v48 (broadcastInDim S1700000x1 ![0] bcast_S1700000_S1700000x1_0 : (⟨S1700000, .i32⟩ : BufTy).Contents (Elt F) → (⟨S1700000x1, .i32⟩ : BufTy).Contents (Elt F)),
    StableHlo.ternary main_v47 main_v48 main_v46 main_v49 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_10 (constant S_ .f32 0x3F000000#32),
    StableHlo.unary main_cst_10 main_v50 (broadcastInDim S100000x64 ![] bcast_S_S100000x64 : (⟨S_, .f32⟩ : BufTy).Contents (Elt F) → (⟨S100000x64, .f32⟩ : BufTy).Contents (Elt F)),
    StableHlo.binary main_v50 main_v49 main_v51 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3F000000#32),
    StableHlo.unary main_cst_11 main_v52 (broadcastInDim S100000x64 ![] bcast_S_S100000x64 : (⟨S_, .f32⟩ : BufTy).Contents (Elt F) → (⟨S100000x64, .f32⟩ : BufTy).Contents (Elt F)),
    StableHlo.binary main_v52 main_v36 main_v53 (mulf : (⟨S100000x64, .f32⟩ : BufTy).Contents (Elt F) → (⟨S100000x64, .f32⟩ : BufTy).Contents (Elt F) → (⟨S100000x64, .f32⟩ : BufTy).Contents (Elt F)),
    StableHlo.binary main_v51 main_v53 main_v54 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3E9D1BD0#32),
    StableHlo.unary main_cst_12 main_v55 (broadcastInDim S100000x64 ![] bcast_S_S100000x64 : (⟨S_, .f32⟩ : BufTy).Contents (Elt F) → (⟨S100000x64, .f32⟩ : BufTy).Contents (Elt F)),
    StableHlo.binary main_v55 main_v54 main_v56 (mulf : (⟨S100000x64, .f32⟩ : BufTy).Contents (Elt F) → (⟨S100000x64, .f32⟩ : BufTy).Contents (Elt F) → (⟨S100000x64, .f32⟩ : BufTy).Contents (Elt F)),
    StableHlo.unary main_arg4 main_v57 ((extractStridedSlice S1x64x64 ![0, 0, 0] · slices_S8x64x64_S1x64x64_0_0_0) : (⟨S8x64x64, .f32⟩ : BufTy).Contents (Elt F) → (⟨S1x64x64, .f32⟩ : BufTy).Contents (Elt F)),
    StableHlo.reshape main_v57 main_v58 rfl shapeCasts_S1x64x64_S64x64,
    StableHlo.binary main_v54 main_v58 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_13 (constant S_ .f32 0x3F317218#32),
    StableHlo.unary main_cst_13 main_v60 (broadcastInDim S100000x64 ![] bcast_S_S100000x64 : (⟨S_, .f32⟩ : BufTy).Contents (Elt F) → (⟨S100000x64, .f32⟩ : BufTy).Contents (Elt F)),
    StableHlo.binary main_v60 main_v59 main_v61 (mulf : (⟨S100000x64, .f32⟩ : BufTy).Contents (Elt F) → (⟨S100000x64, .f32⟩ : BufTy).Contents (Elt F) → (⟨S100000x64, .f32⟩ : BufTy).Contents (Elt F)),
    StableHlo.binary main_v56 main_v61 main_v62 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v62) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v62) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v62) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v62) main_call2.v7 main_call2.call1.v0 select,
    StableHlo.binary main_v63 main_v62 main_v64 (addf : (⟨S100000x64, .f32⟩ : BufTy).Contents (Elt F) → (⟨S100000x64, .f32⟩ : BufTy).Contents (Elt F) → (⟨S100000x64, .f32⟩ : BufTy).Contents (Elt F)),
    StableHlo.unary main_v31 main_v65 (broadcastInDim S1700000x1 ![0] bcast_S1700000_S1700000x1_0 : (⟨S1700000, .f32⟩ : BufTy).Contents (Elt F) → (⟨S1700000x1, .f32⟩ : BufTy).Contents (Elt F)),
    StableHlo.nullary main_c_14 (constantI S_ 32 0#32),
    StableHlo.unary main_c_14 main_v66 (broadcastInDim S1700000 ![] bcast_S_S1700000 : (⟨S_, .i32⟩ : BufTy).Contents (Elt F) → (⟨S1700000, .i32⟩ : BufTy).Contents (Elt F)),
    StableHlo.binary main_v3 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v68 (broadcastInDim S1700000 ![] bcast_S_S1700000 : (⟨S_, .i32⟩ : BufTy).Contents (Elt F) → (⟨S1700000, .i32⟩ : BufTy).Contents (Elt F)),
    StableHlo.binary main_v3 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v64 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v65 main_v73 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v73 main_v72 main_v74 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v75 (broadcastInDim S100000x64 ![] bcast_S_S100000x64 : (⟨S_, .f32⟩ : BufTy).Contents (Elt F) → (⟨S100000x64, .f32⟩ : BufTy).Contents (Elt F)),
    StableHlo.unary main_v6 main_v76 (broadcastInDim S1700000x1 ![0] bcast_S1700000_S1700000x1_0 : (⟨S1700000, .i32⟩ : BufTy).Contents (Elt F) → (⟨S1700000x1, .i32⟩ : BufTy).Contents (Elt F)),
    StableHlo.ternary main_v75 main_v76 main_v74 main_v77 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_17 (constant S_ .f32 0x3F000000#32),
    StableHlo.unary main_cst_17 main_v78 (broadcastInDim S100000x64 ![] bcast_S_S100000x64 : (⟨S_, .f32⟩ : BufTy).Contents (Elt F) → (⟨S100000x64, .f32⟩ : BufTy).Contents (Elt F)),
    StableHlo.binary main_v78 main_v77 main_v79 (mulf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3F000000#32),
    StableHlo.unary main_cst_18 main_v80 (broadcastInDim S100000x64 ![] bcast_S_S100000x64 : (⟨S_, .f32⟩ : BufTy).Contents (Elt F) → (⟨S100000x64, .f32⟩ : BufTy).Contents (Elt F)),
    StableHlo.binary main_v80 main_v36 main_v81 (mulf : (⟨S100000x64, .f32⟩ : BufTy).Contents (Elt F) → (⟨S100000x64, .f32⟩ : BufTy).Contents (Elt F) → (⟨S100000x64, .f32⟩ : BufTy).Contents (Elt F)),
    StableHlo.binary main_v79 main_v81 main_v82 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3F183370#32),
    StableHlo.unary main_cst_19 main_v83 (broadcastInDim S100000x64 ![] bcast_S_S100000x64 : (⟨S_, .f32⟩ : BufTy).Contents (Elt F) → (⟨S100000x64, .f32⟩ : BufTy).Contents (Elt F)),
    StableHlo.binary main_v83 main_v82 main_v84 (mulf : (⟨S100000x64, .f32⟩ : BufTy).Contents (Elt F) → (⟨S100000x64, .f32⟩ : BufTy).Contents (Elt F) → (⟨S100000x64, .f32⟩ : BufTy).Contents (Elt F)),
    StableHlo.unary main_arg4 main_v85 ((extractStridedSlice S1x64x64 ![1, 0, 0] · slices_S8x64x64_S1x64x64_1_0_0) : (⟨S8x64x64, .f32⟩ : BufTy).Contents (Elt F) → (⟨S1x64x64, .f32⟩ : BufTy).Contents (Elt F)),
    StableHlo.reshape main_v85 main_v86 rfl shapeCasts_S1x64x64_S64x64,
    StableHlo.binary main_v82 main_v86 main_v87 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_20 (constant S_ .f32 0x3ECF991F#32),
    StableHlo.unary main_cst_20 main_v88 (broadcastInDim S100000x64 ![] bcast_S_S100000x64 : (⟨S_, .f32⟩ : BufTy).Contents (Elt F) → (⟨S100000x64, .f32⟩ : BufTy).Contents (Elt F)),
    StableHlo.binary main_v88 main_v87 main_v89 (mulf : (⟨S100000x64, .f32⟩ : BufTy).Contents (Elt F) → (⟨S100000x64, .f32⟩ : BufTy).Contents (Elt F) → (⟨S100000x64, .f32⟩ : BufTy).Contents (Elt F)),
    StableHlo.binary main_v84 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v90) main_call3.v0 main_call3.v1 (cmpf .ogt),
    StableHlo.TRef.nullary main_call3.cst_0 (constant S_ .f32 0x00000000#32),
    StableHlo.TRef.unary main_call3.cst_0 main_call3.v2 (broadcastInDim S100000x64 ![] bcast_S_S100000x64),
    StableHlo.TRef.binary (.of main_v90) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x64 ![] bcast_S_S100000x64),
    StableHlo.TRef.ternary main_call3.v3 main_call3.call0.v1 (.of main_v90) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x64 ![] bcast_S_S100000x64),
    StableHlo.TRef.binary main_call3.v6 main_call3.v5 main_call3.v7 mulf,
    StableHlo.TRef.ternary main_call3.v1 (.of main_v90) main_call3.v7 main_call3.call1.v0 select,
    StableHlo.binary main_v91 main_v90 main_v92 (addf : (⟨S100000x64, .f32⟩ : BufTy).Contents (Elt F) → (⟨S100000x64, .f32⟩ : BufTy).Contents (Elt F) → (⟨S100000x64, .f32⟩ : BufTy).Contents (Elt F)),
    StableHlo.unary main_v31 main_v93 (broadcastInDim S1700000x1 ![0] bcast_S1700000_S1700000x1_0 : (⟨S1700000, .f32⟩ : BufTy).Contents (Elt F) → (⟨S1700000x1, .f32⟩ : BufTy).Contents (Elt F)),
    StableHlo.nullary main_c_21 (constantI S_ 32 0#32),
    StableHlo.unary main_c_21 main_v94 (broadcastInDim S1700000 ![] bcast_S_S1700000 : (⟨S_, .i32⟩ : BufTy).Contents (Elt F) → (⟨S1700000, .i32⟩ : BufTy).Contents (Elt F)),
    StableHlo.binary main_v3 main_v94 main_v95 (cmpi .slt : (⟨S1700000, .i32⟩ : BufTy).Contents (Elt F) → (⟨S1700000, .i32⟩ : BufTy).Contents (Elt F) → (⟨S1700000, .i1⟩ : BufTy).Contents (Elt F)) ]

end Cert.ReferenceIdeal.RefRun

end
-- ==== Proof.RefOpsPart2.lean ====
/- The reference's operations as the program prints them, part 2: 74 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 2, in order. -/
abbrev part2L : List (HloOp τ sig (Elt F)) :=
  [ StableHlo.nullary main_c_22 (constantI S_ 32 100000#32),
    StableHlo.unary main_c_22 main_v96 (broadcastInDim S1700000 ![] bcast_S_S1700000 : (⟨S_, .i32⟩ : BufTy).Contents (Elt F) → (⟨S1700000, .i32⟩ : BufTy).Contents (Elt F)),
    StableHlo.binary main_v3 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v3 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v92 main_v99 main_v100 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v93 main_v101 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v101 main_v100 main_v102 (mulf : (⟨S1700000x64, .f32⟩ : BufTy).Contents (Elt F) → (⟨S1700000x64, .f32⟩ : BufTy).Contents (Elt F) → (⟨S1700000x64, .f32⟩ : BufTy).Contents (Elt F)),
    StableHlo.nullary main_cst_23 (constant S_ .f32 0x00000000#32),
    StableHlo.unary main_cst_23 main_v103 (broadcastInDim S100000x64 ![] bcast_S_S100000x64 : (⟨S_, .f32⟩ : BufTy).Contents (Elt F) → (⟨S100000x64, .f32⟩ : BufTy).Contents (Elt F)),
    StableHlo.unary main_v6 main_v104 (broadcastInDim S1700000x1 ![0] bcast_S1700000_S1700000x1_0 : (⟨S1700000, .i32⟩ : BufTy).Contents (Elt F) → (⟨S1700000x1, .i32⟩ : BufTy).Contents (Elt F)),
    StableHlo.ternary main_v103 main_v104 main_v102 main_v105 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_24 (constant S_ .f32 0x3F000000#32),
    StableHlo.unary main_cst_24 main_v106 (broadcastInDim S100000x64 ![] bcast_S_S100000x64 : (⟨S_, .f32⟩ : BufTy).Contents (Elt F) → (⟨S100000x64, .f32⟩ : BufTy).Contents (Elt F)),
    StableHlo.binary main_v106 main_v105 main_v107 (mulf : (⟨S100000x64, .f32⟩ : BufTy).Contents (Elt F) → (⟨S100000x64, .f32⟩ : BufTy).Contents (Elt F) → (⟨S100000x64, .f32⟩ : BufTy).Contents (Elt F)),
    StableHlo.nullary main_cst_25 (constant S_ .f32 0x3F000000#32),
    StableHlo.unary main_cst_25 main_v108 (broadcastInDim S100000x64 ![] bcast_S_S100000x64 : (⟨S_, .f32⟩ : BufTy).Contents (Elt F) → (⟨S100000x64, .f32⟩ : BufTy).Contents (Elt F)),
    StableHlo.binary main_v108 main_v36 main_v109 (mulf : (⟨S100000x64, .f32⟩ : BufTy).Contents (Elt F) → (⟨S100000x64, .f32⟩ : BufTy).Contents (Elt F) → (⟨S100000x64, .f32⟩ : BufTy).Contents (Elt F)),
    StableHlo.binary main_v107 main_v109 main_v110 (addf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3F365A78#32),
    StableHlo.unary main_cst_26 main_v111 (broadcastInDim S100000x64 ![] bcast_S_S100000x64 : (⟨S_, .f32⟩ : BufTy).Contents (Elt F) → (⟨S100000x64, .f32⟩ : BufTy).Contents (Elt F)),
    StableHlo.binary main_v111 main_v110 main_v112 (mulf : (⟨S100000x64, .f32⟩ : BufTy).Contents (Elt F) → (⟨S100000x64, .f32⟩ : BufTy).Contents (Elt F) → (⟨S100000x64, .f32⟩ : BufTy).Contents (Elt F)),
    StableHlo.unary main_arg4 main_v113 ((extractStridedSlice S1x64x64 ![2, 0, 0] · slices_S8x64x64_S1x64x64_2_0_0) : (⟨S8x64x64, .f32⟩ : BufTy).Contents (Elt F) → (⟨S1x64x64, .f32⟩ : BufTy).Contents (Elt F)),
    StableHlo.reshape main_v113 main_v114 rfl shapeCasts_S1x64x64_S64x64,
    StableHlo.binary main_v110 main_v114 main_v115 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_27 (constant S_ .f32 0x3E934B11#32),
    StableHlo.unary main_cst_27 main_v116 (broadcastInDim S100000x64 ![] bcast_S_S100000x64 : (⟨S_, .f32⟩ : BufTy).Contents (Elt F) → (⟨S100000x64, .f32⟩ : BufTy).Contents (Elt F)),
    StableHlo.binary main_v116 main_v115 main_v117 (mulf : (⟨S100000x64, .f32⟩ : BufTy).Contents (Elt F) → (⟨S100000x64, .f32⟩ : BufTy).Contents (Elt F) → (⟨S100000x64, .f32⟩ : BufTy).Contents (Elt F)),
    StableHlo.binary main_v112 main_v117 main_v118 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v118) main_call4.v0 main_call4.v1 (cmpf .ogt),
    StableHlo.TRef.nullary main_call4.cst_0 (constant S_ .f32 0x00000000#32),
    StableHlo.TRef.unary main_call4.cst_0 main_call4.v2 (broadcastInDim S100000x64 ![] bcast_S_S100000x64),
    StableHlo.TRef.binary (.of main_v118) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x64 ![] bcast_S_S100000x64),
    StableHlo.TRef.ternary main_call4.v3 main_call4.call0.v1 (.of main_v118) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x64 ![] bcast_S_S100000x64),
    StableHlo.TRef.binary main_call4.v6 main_call4.v5 main_call4.v7 mulf,
    StableHlo.TRef.ternary main_call4.v1 (.of main_v118) main_call4.v7 main_call4.call1.v0 select,
    StableHlo.binary main_v119 main_v118 main_v120 (addf : (⟨S100000x64, .f32⟩ : BufTy).Contents (Elt F) → (⟨S100000x64, .f32⟩ : BufTy).Contents (Elt F) → (⟨S100000x64, .f32⟩ : BufTy).Contents (Elt F)),
    StableHlo.unary main_v31 main_v121 (broadcastInDim S1700000x1 ![0] bcast_S1700000_S1700000x1_0 : (⟨S1700000, .f32⟩ : BufTy).Contents (Elt F) → (⟨S1700000x1, .f32⟩ : BufTy).Contents (Elt F)),
    StableHlo.nullary main_c_28 (constantI S_ 32 0#32),
    StableHlo.unary main_c_28 main_v122 (broadcastInDim S1700000 ![] bcast_S_S1700000 : (⟨S_, .i32⟩ : BufTy).Contents (Elt F) → (⟨S1700000, .i32⟩ : BufTy).Contents (Elt F)),
    StableHlo.binary main_v3 main_v122 main_v123 (cmpi .slt : (⟨S1700000, .i32⟩ : BufTy).Contents (Elt F) → (⟨S1700000, .i32⟩ : BufTy).Contents (Elt F) → (⟨S1700000, .i1⟩ : BufTy).Contents (Elt F)),
    StableHlo.nullary main_c_29 (constantI S_ 32 100000#32),
    StableHlo.unary main_c_29 main_v124 (broadcastInDim S1700000 ![] bcast_S_S1700000 : (⟨S_, .i32⟩ : BufTy).Contents (Elt F) → (⟨S1700000, .i32⟩ : BufTy).Contents (Elt F)),
    StableHlo.binary main_v3 main_v124 main_v125 (addi : (⟨S1700000, .i32⟩ : BufTy).Contents (Elt F) → (⟨S1700000, .i32⟩ : BufTy).Contents (Elt F) → (⟨S1700000, .i32⟩ : BufTy).Contents (Elt F)),
    StableHlo.ternary main_v123 main_v125 main_v3 main_v126 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v126 main_v127 (broadcastInDim S1700000x1 ![0] bcast_S1700000_S1700000x1_0 : (⟨S1700000, .i32⟩ : BufTy).Contents (Elt F) → (⟨S1700000x1, .i32⟩ : BufTy).Contents (Elt F)),
    StableHlo.binary main_v120 main_v127 main_v128 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v121 main_v129 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v129 main_v128 main_v130 (mulf : (⟨S1700000x64, .f32⟩ : BufTy).Contents (Elt F) → (⟨S1700000x64, .f32⟩ : BufTy).Contents (Elt F) → (⟨S1700000x64, .f32⟩ : BufTy).Contents (Elt F)),
    StableHlo.nullary main_cst_30 (constant S_ .f32 0x00000000#32),
    StableHlo.unary main_cst_30 main_v131 (broadcastInDim S100000x64 ![] bcast_S_S100000x64 : (⟨S_, .f32⟩ : BufTy).Contents (Elt F) → (⟨S100000x64, .f32⟩ : BufTy).Contents (Elt F)),
    StableHlo.unary main_v6 main_v132 (broadcastInDim S1700000x1 ![0] bcast_S1700000_S1700000x1_0 : (⟨S1700000, .i32⟩ : BufTy).Contents (Elt F) → (⟨S1700000x1, .i32⟩ : BufTy).Contents (Elt F)),
    StableHlo.ternary main_v131 main_v132 main_v130 main_v133 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_31 (constant S_ .f32 0x3F000000#32),
    StableHlo.unary main_cst_31 main_v134 (broadcastInDim S100000x64 ![] bcast_S_S100000x64 : (⟨S_, .f32⟩ : BufTy).Contents (Elt F) → (⟨S100000x64, .f32⟩ : BufTy).Contents (Elt F)),
    StableHlo.binary main_v134 main_v133 main_v135 (mulf : (⟨S100000x64, .f32⟩ : BufTy).Contents (Elt F) → (⟨S100000x64, .f32⟩ : BufTy).Contents (Elt F) → (⟨S100000x64, .f32⟩ : BufTy).Contents (Elt F)),
    StableHlo.nullary main_cst_32 (constant S_ .f32 0x3F000000#32),
    StableHlo.unary main_cst_32 main_v136 (broadcastInDim S100000x64 ![] bcast_S_S100000x64 : (⟨S_, .f32⟩ : BufTy).Contents (Elt F) → (⟨S100000x64, .f32⟩ : BufTy).Contents (Elt F)),
    StableHlo.binary main_v136 main_v36 main_v137 (mulf : (⟨S100000x64, .f32⟩ : BufTy).Contents (Elt F) → (⟨S100000x64, .f32⟩ : BufTy).Contents (Elt F) → (⟨S100000x64, .f32⟩ : BufTy).Contents (Elt F)),
    StableHlo.binary main_v135 main_v137 main_v138 (addf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3F46E010#32),
    StableHlo.unary main_cst_33 main_v139 (broadcastInDim S100000x64 ![] bcast_S_S100000x64 : (⟨S_, .f32⟩ : BufTy).Contents (Elt F) → (⟨S100000x64, .f32⟩ : BufTy).Contents (Elt F)),
    StableHlo.binary main_v139 main_v138 main_v140 (mulf : (⟨S100000x64, .f32⟩ : BufTy).Contents (Elt F) → (⟨S100000x64, .f32⟩ : BufTy).Contents (Elt F) → (⟨S100000x64, .f32⟩ : BufTy).Contents (Elt F)),
    StableHlo.unary main_arg4 main_v141 ((extractStridedSlice S1x64x64 ![3, 0, 0] · slices_S8x64x64_S1x64x64_3_0_0) : (⟨S8x64x64, .f32⟩ : BufTy).Contents (Elt F) → (⟨S1x64x64, .f32⟩ : BufTy).Contents (Elt F)),
    StableHlo.reshape main_v141 main_v142 rfl shapeCasts_S1x64x64_S64x64,
    StableHlo.binary main_v138 main_v142 main_v143 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

end Cert.ReferenceIdeal.RefRun

end
-- ==== Proof.RefOpsPart3.lean ====
/- The reference's operations as the program prints them, part 3: 88 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 3, in order. -/
abbrev part3L : List (HloOp τ sig (Elt F)) :=
  [ StableHlo.nullary main_cst_34 (constant S_ .f32 0x3E647FBE#32),
    StableHlo.unary main_cst_34 main_v144 (broadcastInDim S100000x64 ![] bcast_S_S100000x64 : (⟨S_, .f32⟩ : BufTy).Contents (Elt F) → (⟨S100000x64, .f32⟩ : BufTy).Contents (Elt F)),
    StableHlo.binary main_v144 main_v143 main_v145 (mulf : (⟨S100000x64, .f32⟩ : BufTy).Contents (Elt F) → (⟨S100000x64, .f32⟩ : BufTy).Contents (Elt F) → (⟨S100000x64, .f32⟩ : BufTy).Contents (Elt F)),
    StableHlo.binary main_v140 main_v145 main_v146 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v146) main_call5.v0 main_call5.v1 (cmpf .ogt),
    StableHlo.TRef.nullary main_call5.cst_0 (constant S_ .f32 0x00000000#32),
    StableHlo.TRef.unary main_call5.cst_0 main_call5.v2 (broadcastInDim S100000x64 ![] bcast_S_S100000x64),
    StableHlo.TRef.binary (.of main_v146) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x64 ![] bcast_S_S100000x64),
    StableHlo.TRef.ternary main_call5.v3 main_call5.call0.v1 (.of main_v146) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x64 ![] bcast_S_S100000x64),
    StableHlo.TRef.binary main_call5.v6 main_call5.v5 main_call5.v7 mulf,
    StableHlo.TRef.ternary main_call5.v1 (.of main_v146) main_call5.v7 main_call5.call1.v0 select,
    StableHlo.binary main_v147 main_v146 main_v148 (addf : (⟨S100000x64, .f32⟩ : BufTy).Contents (Elt F) → (⟨S100000x64, .f32⟩ : BufTy).Contents (Elt F) → (⟨S100000x64, .f32⟩ : BufTy).Contents (Elt F)),
    StableHlo.unary main_v31 main_v149 (broadcastInDim S1700000x1 ![0] bcast_S1700000_S1700000x1_0 : (⟨S1700000, .f32⟩ : BufTy).Contents (Elt F) → (⟨S1700000x1, .f32⟩ : BufTy).Contents (Elt F)),
    StableHlo.nullary main_c_35 (constantI S_ 32 0#32),
    StableHlo.unary main_c_35 main_v150 (broadcastInDim S1700000 ![] bcast_S_S1700000 : (⟨S_, .i32⟩ : BufTy).Contents (Elt F) → (⟨S1700000, .i32⟩ : BufTy).Contents (Elt F)),
    StableHlo.binary main_v3 main_v150 main_v151 (cmpi .slt : (⟨S1700000, .i32⟩ : BufTy).Contents (Elt F) → (⟨S1700000, .i32⟩ : BufTy).Contents (Elt F) → (⟨S1700000, .i1⟩ : BufTy).Contents (Elt F)),
    StableHlo.nullary main_c_36 (constantI S_ 32 100000#32),
    StableHlo.unary main_c_36 main_v152 (broadcastInDim S1700000 ![] bcast_S_S1700000 : (⟨S_, .i32⟩ : BufTy).Contents (Elt F) → (⟨S1700000, .i32⟩ : BufTy).Contents (Elt F)),
    StableHlo.binary main_v3 main_v152 main_v153 (addi : (⟨S1700000, .i32⟩ : BufTy).Contents (Elt F) → (⟨S1700000, .i32⟩ : BufTy).Contents (Elt F) → (⟨S1700000, .i32⟩ : BufTy).Contents (Elt F)),
    StableHlo.ternary main_v151 main_v153 main_v3 main_v154 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v154 main_v155 (broadcastInDim S1700000x1 ![0] bcast_S1700000_S1700000x1_0 : (⟨S1700000, .i32⟩ : BufTy).Contents (Elt F) → (⟨S1700000x1, .i32⟩ : BufTy).Contents (Elt F)),
    StableHlo.binary main_v148 main_v155 main_v156 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v149 main_v157 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v157 main_v156 main_v158 (mulf : (⟨S1700000x64, .f32⟩ : BufTy).Contents (Elt F) → (⟨S1700000x64, .f32⟩ : BufTy).Contents (Elt F) → (⟨S1700000x64, .f32⟩ : BufTy).Contents (Elt F)),
    StableHlo.nullary main_cst_37 (constant S_ .f32 0x00000000#32),
    StableHlo.unary main_cst_37 main_v159 (broadcastInDim S100000x64 ![] bcast_S_S100000x64 : (⟨S_, .f32⟩ : BufTy).Contents (Elt F) → (⟨S100000x64, .f32⟩ : BufTy).Contents (Elt F)),
    StableHlo.unary main_v6 main_v160 (broadcastInDim S1700000x1 ![0] bcast_S1700000_S1700000x1_0 : (⟨S1700000, .i32⟩ : BufTy).Contents (Elt F) → (⟨S1700000x1, .i32⟩ : BufTy).Contents (Elt F)),
    StableHlo.ternary main_v159 main_v160 main_v158 main_v161 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_38 (constant S_ .f32 0x3F000000#32),
    StableHlo.unary main_cst_38 main_v162 (broadcastInDim S100000x64 ![] bcast_S_S100000x64 : (⟨S_, .f32⟩ : BufTy).Contents (Elt F) → (⟨S100000x64, .f32⟩ : BufTy).Contents (Elt F)),
    StableHlo.binary main_v162 main_v161 main_v163 (mulf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x3F000000#32),
    StableHlo.unary main_cst_39 main_v164 (broadcastInDim S100000x64 ![] bcast_S_S100000x64 : (⟨S_, .f32⟩ : BufTy).Contents (Elt F) → (⟨S100000x64, .f32⟩ : BufTy).Contents (Elt F)),
    StableHlo.binary main_v164 main_v36 main_v165 (mulf : (⟨S100000x64, .f32⟩ : BufTy).Contents (Elt F) → (⟨S100000x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x3F515360#32),
    StableHlo.unary main_cst_40 main_v167 (broadcastInDim S100000x64 ![] bcast_S_S100000x64 : (⟨S_, .f32⟩ : BufTy).Contents (Elt F) → (⟨S100000x64, .f32⟩ : BufTy).Contents (Elt F)),
    StableHlo.binary main_v167 main_v166 main_v168 (mulf : (⟨S100000x64, .f32⟩ : BufTy).Contents (Elt F) → (⟨S100000x64, .f32⟩ : BufTy).Contents (Elt F) → (⟨S100000x64, .f32⟩ : BufTy).Contents (Elt F)),
    StableHlo.unary main_arg4 main_v169 ((extractStridedSlice S1x64x64 ![4, 0, 0] · slices_S8x64x64_S1x64x64_4_0_0) : (⟨S8x64x64, .f32⟩ : BufTy).Contents (Elt F) → (⟨S1x64x64, .f32⟩ : BufTy).Contents (Elt F)),
    StableHlo.reshape main_v169 main_v170 rfl shapeCasts_S1x64x64_S64x64,
    StableHlo.binary main_v166 main_v170 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_41 (constant S_ .f32 0x3E3AB281#32),
    StableHlo.unary main_cst_41 main_v172 (broadcastInDim S100000x64 ![] bcast_S_S100000x64 : (⟨S_, .f32⟩ : BufTy).Contents (Elt F) → (⟨S100000x64, .f32⟩ : BufTy).Contents (Elt F)),
    StableHlo.binary main_v172 main_v171 main_v173 (mulf : (⟨S100000x64, .f32⟩ : BufTy).Contents (Elt F) → (⟨S100000x64, .f32⟩ : BufTy).Contents (Elt F) → (⟨S100000x64, .f32⟩ : BufTy).Contents (Elt F)),
    StableHlo.binary main_v168 main_v173 main_v174 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v174) main_call6.v0 main_call6.v1 (cmpf .ogt),
    StableHlo.TRef.nullary main_call6.cst_0 (constant S_ .f32 0x00000000#32),
    StableHlo.TRef.unary main_call6.cst_0 main_call6.v2 (broadcastInDim S100000x64 ![] bcast_S_S100000x64),
    StableHlo.TRef.binary (.of main_v174) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x64 ![] bcast_S_S100000x64),
    StableHlo.TRef.ternary main_call6.v3 main_call6.call0.v1 (.of main_v174) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x64 ![] bcast_S_S100000x64),
    StableHlo.TRef.binary main_call6.v6 main_call6.v5 main_call6.v7 mulf,
    StableHlo.TRef.ternary main_call6.v1 (.of main_v174) main_call6.v7 main_call6.call1.v0 select,
    StableHlo.binary main_v175 main_v174 main_v176 (addf : (⟨S100000x64, .f32⟩ : BufTy).Contents (Elt F) → (⟨S100000x64, .f32⟩ : BufTy).Contents (Elt F) → (⟨S100000x64, .f32⟩ : BufTy).Contents (Elt F)),
    StableHlo.unary main_v31 main_v177 (broadcastInDim S1700000x1 ![0] bcast_S1700000_S1700000x1_0 : (⟨S1700000, .f32⟩ : BufTy).Contents (Elt F) → (⟨S1700000x1, .f32⟩ : BufTy).Contents (Elt F)),
    StableHlo.nullary main_c_42 (constantI S_ 32 0#32),
    StableHlo.unary main_c_42 main_v178 (broadcastInDim S1700000 ![] bcast_S_S1700000 : (⟨S_, .i32⟩ : BufTy).Contents (Elt F) → (⟨S1700000, .i32⟩ : BufTy).Contents (Elt F)),
    StableHlo.binary main_v3 main_v178 main_v179 (cmpi .slt : (⟨S1700000, .i32⟩ : BufTy).Contents (Elt F) → (⟨S1700000, .i32⟩ : BufTy).Contents (Elt F) → (⟨S1700000, .i1⟩ : BufTy).Contents (Elt F)),
    StableHlo.nullary main_c_43 (constantI S_ 32 100000#32),
    StableHlo.unary main_c_43 main_v180 (broadcastInDim S1700000 ![] bcast_S_S1700000 : (⟨S_, .i32⟩ : BufTy).Contents (Elt F) → (⟨S1700000, .i32⟩ : BufTy).Contents (Elt F)),
    StableHlo.binary main_v3 main_v180 main_v181 (addi : (⟨S1700000, .i32⟩ : BufTy).Contents (Elt F) → (⟨S1700000, .i32⟩ : BufTy).Contents (Elt F) → (⟨S1700000, .i32⟩ : BufTy).Contents (Elt F)),
    StableHlo.ternary main_v179 main_v181 main_v3 main_v182 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v182 main_v183 (broadcastInDim S1700000x1 ![0] bcast_S1700000_S1700000x1_0 : (⟨S1700000, .i32⟩ : BufTy).Contents (Elt F) → (⟨S1700000x1, .i32⟩ : BufTy).Contents (Elt F)),
    StableHlo.binary main_v176 main_v183 main_v184 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v177 main_v185 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v185 main_v184 main_v186 (mulf : (⟨S1700000x64, .f32⟩ : BufTy).Contents (Elt F) → (⟨S1700000x64, .f32⟩ : BufTy).Contents (Elt F) → (⟨S1700000x64, .f32⟩ : BufTy).Contents (Elt F)),
    StableHlo.nullary main_cst_44 (constant S_ .f32 0x00000000#32),
    StableHlo.unary main_cst_44 main_v187 (broadcastInDim S100000x64 ![] bcast_S_S100000x64 : (⟨S_, .f32⟩ : BufTy).Contents (Elt F) → (⟨S100000x64, .f32⟩ : BufTy).Contents (Elt F)),
    StableHlo.unary main_v6 main_v188 (broadcastInDim S1700000x1 ![0] bcast_S1700000_S1700000x1_0 : (⟨S1700000, .i32⟩ : BufTy).Contents (Elt F) → (⟨S1700000x1, .i32⟩ : BufTy).Contents (Elt F)),
    StableHlo.ternary main_v187 main_v188 main_v186 main_v189 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_45 (constant S_ .f32 0x3F000000#32),
    StableHlo.unary main_cst_45 main_v190 (broadcastInDim S100000x64 ![] bcast_S_S100000x64 : (⟨S_, .f32⟩ : BufTy).Contents (Elt F) → (⟨S100000x64, .f32⟩ : BufTy).Contents (Elt F)),
    StableHlo.binary main_v190 main_v189 main_v191 (mulf : (⟨S100000x64, .f32⟩ : BufTy).Contents (Elt F) → (⟨S100000x64, .f32⟩ : BufTy).Contents (Elt F) → (⟨S100000x64, .f32⟩ : BufTy).Contents (Elt F)) ]

end Cert.ReferenceIdeal.RefRun

end
-- ==== Proof.RefOpsPart4.lean ====
/- The reference's operations as the program prints them, part 4: 88 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 4, in order. -/
abbrev part4L : List (HloOp τ sig (Elt F)) :=
  [ StableHlo.nullary main_cst_46 (constant S_ .f32 0x3F000000#32),
    StableHlo.unary main_cst_46 main_v192 (broadcastInDim S100000x64 ![] bcast_S_S100000x64 : (⟨S_, .f32⟩ : BufTy).Contents (Elt F) → (⟨S100000x64, .f32⟩ : BufTy).Contents (Elt F)),
    StableHlo.binary main_v192 main_v36 main_v193 (mulf : (⟨S100000x64, .f32⟩ : BufTy).Contents (Elt F) → (⟨S100000x64, .f32⟩ : BufTy).Contents (Elt F) → (⟨S100000x64, .f32⟩ : BufTy).Contents (Elt F)),
    StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)),
    StableHlo.nullary main_cst_47 (constant S_ .f32 0x3F588995#32),
    StableHlo.unary main_cst_47 main_v195 (broadcastInDim S100000x64 ![] bcast_S_S100000x64 : (⟨S_, .f32⟩ : BufTy).Contents (Elt F) → (⟨S100000x64, .f32⟩ : BufTy).Contents (Elt F)),
    StableHlo.binary main_v195 main_v194 main_v196 (mulf : (⟨S100000x64, .f32⟩ : BufTy).Contents (Elt F) → (⟨S100000x64, .f32⟩ : BufTy).Contents (Elt F) → (⟨S100000x64, .f32⟩ : BufTy).Contents (Elt F)),
    StableHlo.unary main_arg4 main_v197 ((extractStridedSlice S1x64x64 ![5, 0, 0] · slices_S8x64x64_S1x64x64_5_0_0) : (⟨S8x64x64, .f32⟩ : BufTy).Contents (Elt F) → (⟨S1x64x64, .f32⟩ : BufTy).Contents (Elt F)),
    StableHlo.reshape main_v197 main_v198 rfl shapeCasts_S1x64x64_S64x64,
    StableHlo.binary main_v194 main_v198 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_48 (constant S_ .f32 0x3E1DD9AD#32),
    StableHlo.unary main_cst_48 main_v200 (broadcastInDim S100000x64 ![] bcast_S_S100000x64 : (⟨S_, .f32⟩ : BufTy).Contents (Elt F) → (⟨S100000x64, .f32⟩ : BufTy).Contents (Elt F)),
    StableHlo.binary main_v200 main_v199 main_v201 (mulf : (⟨S100000x64, .f32⟩ : BufTy).Contents (Elt F) → (⟨S100000x64, .f32⟩ : BufTy).Contents (Elt F) → (⟨S100000x64, .f32⟩ : BufTy).Contents (Elt F)),
    StableHlo.binary main_v196 main_v201 main_v202 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v202) main_call7.v0 main_call7.v1 (cmpf .ogt),
    StableHlo.TRef.nullary main_call7.cst_0 (constant S_ .f32 0x00000000#32),
    StableHlo.TRef.unary main_call7.cst_0 main_call7.v2 (broadcastInDim S100000x64 ![] bcast_S_S100000x64),
    StableHlo.TRef.binary (.of main_v202) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x64 ![] bcast_S_S100000x64),
    StableHlo.TRef.ternary main_call7.v3 main_call7.call0.v1 (.of main_v202) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x64 ![] bcast_S_S100000x64),
    StableHlo.TRef.binary main_call7.v6 main_call7.v5 main_call7.v7 mulf,
    StableHlo.TRef.ternary main_call7.v1 (.of main_v202) main_call7.v7 main_call7.call1.v0 select,
    StableHlo.binary main_v203 main_v202 main_v204 (addf : (⟨S100000x64, .f32⟩ : BufTy).Contents (Elt F) → (⟨S100000x64, .f32⟩ : BufTy).Contents (Elt F) → (⟨S100000x64, .f32⟩ : BufTy).Contents (Elt F)),
    StableHlo.unary main_v31 main_v205 (broadcastInDim S1700000x1 ![0] bcast_S1700000_S1700000x1_0 : (⟨S1700000, .f32⟩ : BufTy).Contents (Elt F) → (⟨S1700000x1, .f32⟩ : BufTy).Contents (Elt F)),
    StableHlo.nullary main_c_49 (constantI S_ 32 0#32),
    StableHlo.unary main_c_49 main_v206 (broadcastInDim S1700000 ![] bcast_S_S1700000 : (⟨S_, .i32⟩ : BufTy).Contents (Elt F) → (⟨S1700000, .i32⟩ : BufTy).Contents (Elt F)),
    StableHlo.binary main_v3 main_v206 main_v207 (cmpi .slt : (⟨S1700000, .i32⟩ : BufTy).Contents (Elt F) → (⟨S1700000, .i32⟩ : BufTy).Contents (Elt F) → (⟨S1700000, .i1⟩ : BufTy).Contents (Elt F)),
    StableHlo.nullary main_c_50 (constantI S_ 32 100000#32),
    StableHlo.unary main_c_50 main_v208 (broadcastInDim S1700000 ![] bcast_S_S1700000 : (⟨S_, .i32⟩ : BufTy).Contents (Elt F) → (⟨S1700000, .i32⟩ : BufTy).Contents (Elt F)),
    StableHlo.binary main_v3 main_v208 main_v209 (addi : (⟨S1700000, .i32⟩ : BufTy).Contents (Elt F) → (⟨S1700000, .i32⟩ : BufTy).Contents (Elt F) → (⟨S1700000, .i32⟩ : BufTy).Contents (Elt F)),
    StableHlo.ternary main_v207 main_v209 main_v3 main_v210 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v210 main_v211 (broadcastInDim S1700000x1 ![0] bcast_S1700000_S1700000x1_0 : (⟨S1700000, .i32⟩ : BufTy).Contents (Elt F) → (⟨S1700000x1, .i32⟩ : BufTy).Contents (Elt F)),
    StableHlo.binary main_v204 main_v211 main_v212 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v205 main_v213 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v213 main_v212 main_v214 (mulf : (⟨S1700000x64, .f32⟩ : BufTy).Contents (Elt F) → (⟨S1700000x64, .f32⟩ : BufTy).Contents (Elt F) → (⟨S1700000x64, .f32⟩ : BufTy).Contents (Elt F)),
    StableHlo.nullary main_cst_51 (constant S_ .f32 0x00000000#32),
    StableHlo.unary main_cst_51 main_v215 (broadcastInDim S100000x64 ![] bcast_S_S100000x64 : (⟨S_, .f32⟩ : BufTy).Contents (Elt F) → (⟨S100000x64, .f32⟩ : BufTy).Contents (Elt F)),
    StableHlo.unary main_v6 main_v216 (broadcastInDim S1700000x1 ![0] bcast_S1700000_S1700000x1_0 : (⟨S1700000, .i32⟩ : BufTy).Contents (Elt F) → (⟨S1700000x1, .i32⟩ : BufTy).Contents (Elt F)),
    StableHlo.ternary main_v215 main_v216 main_v214 main_v217 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_52 (constant S_ .f32 0x3F000000#32),
    StableHlo.unary main_cst_52 main_v218 (broadcastInDim S100000x64 ![] bcast_S_S100000x64 : (⟨S_, .f32⟩ : BufTy).Contents (Elt F) → (⟨S100000x64, .f32⟩ : BufTy).Contents (Elt F)),
    StableHlo.binary main_v218 main_v217 main_v219 (mulf : (⟨S100000x64, .f32⟩ : BufTy).Contents (Elt F) → (⟨S100000x64, .f32⟩ : BufTy).Contents (Elt F) → (⟨S100000x64, .f32⟩ : BufTy).Contents (Elt F)),
    StableHlo.nullary main_cst_53 (constant S_ .f32 0x3F000000#32),
    StableHlo.unary main_cst_53 main_v220 (broadcastInDim S100000x64 ![] bcast_S_S100000x64 : (⟨S_, .f32⟩ : BufTy).Contents (Elt F) → (⟨S100000x64, .f32⟩ : BufTy).Contents (Elt F)),
    StableHlo.binary main_v220 main_v36 main_v221 (mulf : (⟨S100000x64, .f32⟩ : BufTy).Contents (Elt F) → (⟨S100000x64, .f32⟩ : BufTy).Contents (Elt F) → (⟨S100000x64, .f32⟩ : BufTy).Contents (Elt F)),
    StableHlo.binary main_v219 main_v221 main_v222 (addf : (⟨S100000x64, .f32⟩ : BufTy).Contents (Elt F) → (⟨S100000x64, .f32⟩ : BufTy).Contents (Elt F) → (⟨S100000x64, .f32⟩ : BufTy).Contents (Elt F)),
    StableHlo.nullary main_cst_54 (constant S_ .f32 0x3F5DD0E3#32),
    StableHlo.unary main_cst_54 main_v223 (broadcastInDim S100000x64 ![] bcast_S_S100000x64 : (⟨S_, .f32⟩ : BufTy).Contents (Elt F) → (⟨S100000x64, .f32⟩ : BufTy).Contents (Elt F)),
    StableHlo.binary main_v223 main_v222 main_v224 (mulf : (⟨S100000x64, .f32⟩ : BufTy).Contents (Elt F) → (⟨S100000x64, .f32⟩ : BufTy).Contents (Elt F) → (⟨S100000x64, .f32⟩ : BufTy).Contents (Elt F)),
    StableHlo.unary main_arg4 main_v225 ((extractStridedSlice S1x64x64 ![6, 0, 0] · slices_S8x64x64_S1x64x64_6_0_0) : (⟨S8x64x64, .f32⟩ : BufTy).Contents (Elt F) → (⟨S1x64x64, .f32⟩ : BufTy).Contents (Elt F)),
    StableHlo.reshape main_v225 main_v226 rfl shapeCasts_S1x64x64_S64x64,
    StableHlo.binary main_v222 main_v226 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_55 (constant S_ .f32 0x3E08BC74#32),
    StableHlo.unary main_cst_55 main_v228 (broadcastInDim S100000x64 ![] bcast_S_S100000x64 : (⟨S_, .f32⟩ : BufTy).Contents (Elt F) → (⟨S100000x64, .f32⟩ : BufTy).Contents (Elt F)),
    StableHlo.binary main_v228 main_v227 main_v229 (mulf : (⟨S100000x64, .f32⟩ : BufTy).Contents (Elt F) → (⟨S100000x64, .f32⟩ : BufTy).Contents (Elt F) → (⟨S100000x64, .f32⟩ : BufTy).Contents (Elt F)),
    StableHlo.binary main_v224 main_v229 main_v230 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v230) main_call8.v0 main_call8.v1 (cmpf .ogt),
    StableHlo.TRef.nullary main_call8.cst_0 (constant S_ .f32 0x00000000#32),
    StableHlo.TRef.unary main_call8.cst_0 main_call8.v2 (broadcastInDim S100000x64 ![] bcast_S_S100000x64),
    StableHlo.TRef.binary (.of main_v230) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S100000x64 ![] bcast_S_S100000x64),
    StableHlo.TRef.ternary main_call8.v3 main_call8.call0.v1 (.of main_v230) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S100000x64 ![] bcast_S_S100000x64),
    StableHlo.TRef.binary main_call8.v6 main_call8.v5 main_call8.v7 mulf,
    StableHlo.TRef.ternary main_call8.v1 (.of main_v230) main_call8.v7 main_call8.call1.v0 select,
    StableHlo.binary main_v231 main_v230 main_v232 (addf : (⟨S100000x64, .f32⟩ : BufTy).Contents (Elt F) → (⟨S100000x64, .f32⟩ : BufTy).Contents (Elt F) → (⟨S100000x64, .f32⟩ : BufTy).Contents (Elt F)),
    StableHlo.unary main_v31 main_v233 (broadcastInDim S1700000x1 ![0] bcast_S1700000_S1700000x1_0 : (⟨S1700000, .f32⟩ : BufTy).Contents (Elt F) → (⟨S1700000x1, .f32⟩ : BufTy).Contents (Elt F)),
    StableHlo.nullary main_c_56 (constantI S_ 32 0#32),
    StableHlo.unary main_c_56 main_v234 (broadcastInDim S1700000 ![] bcast_S_S1700000 : (⟨S_, .i32⟩ : BufTy).Contents (Elt F) → (⟨S1700000, .i32⟩ : BufTy).Contents (Elt F)),
    StableHlo.binary main_v3 main_v234 main_v235 (cmpi .slt : (⟨S1700000, .i32⟩ : BufTy).Contents (Elt F) → (⟨S1700000, .i32⟩ : BufTy).Contents (Elt F) → (⟨S1700000, .i1⟩ : BufTy).Contents (Elt F)),
    StableHlo.nullary main_c_57 (constantI S_ 32 100000#32),
    StableHlo.unary main_c_57 main_v236 (broadcastInDim S1700000 ![] bcast_S_S1700000 : (⟨S_, .i32⟩ : BufTy).Contents (Elt F) → (⟨S1700000, .i32⟩ : BufTy).Contents (Elt F)),
    StableHlo.binary main_v3 main_v236 main_v237 (addi : (⟨S1700000, .i32⟩ : BufTy).Contents (Elt F) → (⟨S1700000, .i32⟩ : BufTy).Contents (Elt F) → (⟨S1700000, .i32⟩ : BufTy).Contents (Elt F)),
    StableHlo.ternary main_v235 main_v237 main_v3 main_v238 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v238 main_v239 (broadcastInDim S1700000x1 ![0] bcast_S1700000_S1700000x1_0 : (⟨S1700000, .i32⟩ : BufTy).Contents (Elt F) → (⟨S1700000x1, .i32⟩ : BufTy).Contents (Elt F)) ]

end Cert.ReferenceIdeal.RefRun

end
-- ==== Proof.RefOpsPart5.lean ====
/- The reference's operations as the program prints them, part 5: 44 operations, in the program's order,
   each function's operations written out at its call over the call's own buffers. -/
import proofs.«141911_j13975823581435_1_alg».proof.ReferenceIdeal
import proofs.«141911_j13975823581435_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's printed part 5, in order. -/
abbrev part5L : List (HloOp τ sig (Elt F)) :=
  [ StableHlo.binary main_v232 main_v239 main_v240 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v233 main_v241 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v241 main_v240 main_v242 (mulf : (⟨S1700000x64, .f32⟩ : BufTy).Contents (Elt F) → (⟨S1700000x64, .f32⟩ : BufTy).Contents (Elt F) → (⟨S1700000x64, .f32⟩ : BufTy).Contents (Elt F)),
    StableHlo.nullary main_cst_58 (constant S_ .f32 0x00000000#32),
    StableHlo.unary main_cst_58 main_v243 (broadcastInDim S100000x64 ![] bcast_S_S100000x64 : (⟨S_, .f32⟩ : BufTy).Contents (Elt F) → (⟨S100000x64, .f32⟩ : BufTy).Contents (Elt F)),
    StableHlo.unary main_v6 main_v244 (broadcastInDim S1700000x1 ![0] bcast_S1700000_S1700000x1_0 : (⟨S1700000, .i32⟩ : BufTy).Contents (Elt F) → (⟨S1700000x1, .i32⟩ : BufTy).Contents (Elt F)),
    StableHlo.ternary main_v243 main_v244 main_v242 main_v245 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.nullary main_cst_59 (constant S_ .f32 0x3F000000#32),
    StableHlo.unary main_cst_59 main_v246 (broadcastInDim S100000x64 ![] bcast_S_S100000x64 : (⟨S_, .f32⟩ : BufTy).Contents (Elt F) → (⟨S100000x64, .f32⟩ : BufTy).Contents (Elt F)),
    StableHlo.binary main_v246 main_v245 main_v247 (mulf : (⟨S100000x64, .f32⟩ : BufTy).Contents (Elt F) → (⟨S100000x64, .f32⟩ : BufTy).Contents (Elt F) → (⟨S100000x64, .f32⟩ : BufTy).Contents (Elt F)),
    StableHlo.nullary main_cst_60 (constant S_ .f32 0x3F000000#32),
    StableHlo.unary main_cst_60 main_v248 (broadcastInDim S100000x64 ![] bcast_S_S100000x64 : (⟨S_, .f32⟩ : BufTy).Contents (Elt F) → (⟨S100000x64, .f32⟩ : BufTy).Contents (Elt F)),
    StableHlo.binary main_v248 main_v36 main_v249 (mulf : (⟨S100000x64, .f32⟩ : BufTy).Contents (Elt F) → (⟨S100000x64, .f32⟩ : BufTy).Contents (Elt F) → (⟨S100000x64, .f32⟩ : BufTy).Contents (Elt F)),
    StableHlo.binary main_v247 main_v249 main_v250 (addf : (⟨S100000x64, .f32⟩ : BufTy).Contents (Elt F) → (⟨S100000x64, .f32⟩ : BufTy).Contents (Elt F) → (⟨S100000x64, .f32⟩ : BufTy).Contents (Elt F)),
    StableHlo.nullary main_cst_61 (constant S_ .f32 0x3F61D8F9#32),
    StableHlo.unary main_cst_61 main_v251 (broadcastInDim S100000x64 ![] bcast_S_S100000x64 : (⟨S_, .f32⟩ : BufTy).Contents (Elt F) → (⟨S100000x64, .f32⟩ : BufTy).Contents (Elt F)),
    StableHlo.binary main_v251 main_v250 main_v252 (mulf : (⟨S100000x64, .f32⟩ : BufTy).Contents (Elt F) → (⟨S100000x64, .f32⟩ : BufTy).Contents (Elt F) → (⟨S100000x64, .f32⟩ : BufTy).Contents (Elt F)),
    StableHlo.unary main_arg4 main_v253 ((extractStridedSlice S1x64x64 ![7, 0, 0] · slices_S8x64x64_S1x64x64_7_0_0) : (⟨S8x64x64, .f32⟩ : BufTy).Contents (Elt F) → (⟨S1x64x64, .f32⟩ : BufTy).Contents (Elt F)),
    StableHlo.reshape main_v253 main_v254 rfl shapeCasts_S1x64x64_S64x64,
    StableHlo.binary main_v250 main_v254 main_v255 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_cst_62 (constant S_ .f32 0x3DF1383B#32),
    StableHlo.unary main_cst_62 main_v256 (broadcastInDim S100000x64 ![] bcast_S_S100000x64 : (⟨S_, .f32⟩ : BufTy).Contents (Elt F) → (⟨S100000x64, .f32⟩ : BufTy).Contents (Elt F)),
    StableHlo.binary main_v256 main_v255 main_v257 (mulf : (⟨S100000x64, .f32⟩ : BufTy).Contents (Elt F) → (⟨S100000x64, .f32⟩ : BufTy).Contents (Elt F) → (⟨S100000x64, .f32⟩ : BufTy).Contents (Elt F)),
    StableHlo.binary main_v252 main_v257 main_v258 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v258) main_call9.v0 main_call9.v1 (cmpf .ogt),
    StableHlo.TRef.nullary main_call9.cst_0 (constant S_ .f32 0x00000000#32),
    StableHlo.TRef.unary main_call9.cst_0 main_call9.v2 (broadcastInDim S100000x64 ![] bcast_S_S100000x64),
    StableHlo.TRef.binary (.of main_v258) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S100000x64 ![] bcast_S_S100000x64),
    StableHlo.TRef.ternary main_call9.v3 main_call9.call0.v1 (.of main_v258) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S100000x64 ![] bcast_S_S100000x64),
    StableHlo.TRef.binary main_call9.v6 main_call9.v5 main_call9.v7 mulf,
    StableHlo.TRef.ternary main_call9.v1 (.of main_v258) main_call9.v7 main_call9.call1.v0 select,
    StableHlo.binary main_v259 main_v258 main_v260 (addf : (⟨S100000x64, .f32⟩ : BufTy).Contents (Elt F) → (⟨S100000x64, .f32⟩ : BufTy).Contents (Elt F) → (⟨S100000x64, .f32⟩ : BufTy).Contents (Elt F)),
    StableHlo.binary main_v260 main_arg5 main_v261 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S100000x64 ![0, 1] bcast_S1x64_S100000x64_0_1 : (⟨S1x64, .f32⟩ : BufTy).Contents (Elt F) → (⟨S100000x64, .f32⟩ : BufTy).Contents (Elt F)),
    StableHlo.binary main_v261 main_v263 main_v264 (addf : (⟨S100000x64, .f32⟩ : BufTy).Contents (Elt F) → (⟨S100000x64, .f32⟩ : BufTy).Contents (Elt F) → (⟨S100000x64, .f32⟩ : BufTy).Contents (Elt F)) ]

end Cert.ReferenceIdeal.RefRun

end
-- ==== Proof.RefRunMain.lean ====
/-
  The reference program is one straight line of host operations.

  Its entry function runs six printed parts in order, each a chain of single host operations and of calls of the
  outlined functions (the where-selects and elu); unfolding a call is inlining it, so every part is the run of a list of
  operations, and the whole program the run of the concatenation of the six lists.  The same 458 operations are cut a
  second way, at the stages of the computation (the prelude, the eight layers, the output stage): the two
  concatenations are one list.  Every operation touches TensorCore buffers only and determines what it writes.
-/
import proofs.«141911_j13975823581435_1_alg».proof.Proof.RefOpsP
import proofs.«141911_j13975823581435_1_alg».proof.Proof.RefOpsL1
import proofs.«141911_j13975823581435_1_alg».proof.Proof.RefOpsL2
import proofs.«141911_j13975823581435_1_alg».proof.Proof.RefOpsL3
import proofs.«141911_j13975823581435_1_alg».proof.Proof.RefOpsL4
import proofs.«141911_j13975823581435_1_alg».proof.Proof.RefOpsL5
import proofs.«141911_j13975823581435_1_alg».proof.Proof.RefOpsL6
import proofs.«141911_j13975823581435_1_alg».proof.Proof.RefOpsL7
import proofs.«141911_j13975823581435_1_alg».proof.Proof.RefOpsL8
import proofs.«141911_j13975823581435_1_alg».proof.Proof.RefOpsO
import proofs.«141911_j13975823581435_1_alg».proof.Proof.RefOpsPart0
import proofs.«141911_j13975823581435_1_alg».proof.Proof.RefOpsPart1
import proofs.«141911_j13975823581435_1_alg».proof.Proof.RefOpsPart2
import proofs.«141911_j13975823581435_1_alg».proof.Proof.RefOpsPart3
import proofs.«141911_j13975823581435_1_alg».proof.Proof.RefOpsPart4
import proofs.«141911_j13975823581435_1_alg».proof.Proof.RefOpsPart5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations, stage by stage: the prelude, the eight layers, the output stage. -/
abbrev ops : List (HloOp τ sig (Elt F)) :=
  opsP ++ (opsL1 ++ (opsL2 ++ (opsL3 ++ (opsL4 ++ (opsL5 ++ (opsL6 ++ (opsL7 ++ (opsL8 ++ opsO))))))))

set_option maxRecDepth 16384 in
set_option maxHeartbeats 4000000 in
/-- Printed part 0 is the run of its operations: the calls unfold to their bodies over the calls' buffers. -/
theorem main_part0_eq (c : Dev nD) : main_part0 (F := F) c = seq part0L := rfl

set_option maxRecDepth 16384 in
set_option maxHeartbeats 4000000 in
/-- Printed part 1 is the run of its operations: the calls unfold to their bodies over the calls' buffers. -/
theorem main_part1_eq (c : Dev nD) : main_part1 (F := F) c = seq part1L := rfl

set_option maxRecDepth 16384 in
set_option maxHeartbeats 4000000 in
/-- Printed part 2 is the run of its operations: the calls unfold to their bodies over the calls' buffers. -/
theorem main_part2_eq (c : Dev nD) : main_part2 (F := F) c = seq part2L := rfl

set_option maxRecDepth 16384 in
set_option maxHeartbeats 4000000 in
/-- Printed part 3 is the run of its operations: the calls unfold to their bodies over the calls' buffers. -/
theorem main_part3_eq (c : Dev nD) : main_part3 (F := F) c = seq part3L := rfl

set_option maxRecDepth 16384 in
set_option maxHeartbeats 4000000 in
/-- Printed part 4 is the run of its operations: the calls unfold to their bodies over the calls' buffers. -/
theorem main_part4_eq (c : Dev nD) : main_part4 (F := F) c = seq part4L := rfl

set_option maxRecDepth 16384 in
set_option maxHeartbeats 4000000 in
/-- Printed part 5 is the run of its operations: the calls unfold to their bodies over the calls' buffers. -/
theorem main_part5_eq (c : Dev nD) : main_part5 (F := F) c = seq part5L := rfl

set_option maxRecDepth 16384 in
set_option maxHeartbeats 4000000 in
/-- The six printed parts one after the other are the ten stages one after the other: the same operations in the same order. -/
theorem parts_eq_ops : (part0L ++ (part1L ++ (part2L ++ (part3L ++ (part4L ++ part5L))))) = (ops : List (HloOp τ sig (Elt F))) := rfl

set_option maxRecDepth 16384 in
/-- The entry function is the run of all the operations in order. -/
theorem main_eq (c : Dev nD) : main (F := F) c = seq ops := by
  rw [← parts_eq_ops]
  simp only [seq_append, ← main_part0_eq c, ← main_part1_eq c, ← main_part2_eq c, ← main_part3_eq c, ← main_part4_eq c,
    ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: stage by stage. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp opsP_sub op h,
      List.forall_iff_forall_mem.mp opsL1_sub op h,
      List.forall_iff_forall_mem.mp opsL2_sub op h,
      List.forall_iff_forall_mem.mp opsL3_sub op h,
      List.forall_iff_forall_mem.mp opsL4_sub op h,
      List.forall_iff_forall_mem.mp opsL5_sub op h,
      List.forall_iff_forall_mem.mp opsL6_sub op h,
      List.forall_iff_forall_mem.mp opsL7_sub op h,
      List.forall_iff_forall_mem.mp opsL8_sub op h,
      List.forall_iff_forall_mem.mp opsO_sub op h]

set_option maxRecDepth 16384 in
/-- No operation of this stage leaves a buffer undetermined. -/
theorem opsP_fresh : ∀ op ∈ (opsP : List (HloOp τ sig (Elt F))), op.fresh = ∅ := by
  intro _ h; (repeat (cases h with | head => rfl | tail _ h => ?_)); exact nomatch h

set_option maxRecDepth 16384 in
/-- No operation of this stage leaves a buffer undetermined. -/
theorem opsL1_fresh : ∀ op ∈ (opsL1 : List (HloOp τ sig (Elt F))), op.fresh = ∅ := by
  intro _ h; (repeat (cases h with | head => rfl | tail _ h => ?_)); exact nomatch h

set_option maxRecDepth 16384 in
/-- No operation of this stage leaves a buffer undetermined. -/
theorem opsL2_fresh : ∀ op ∈ (opsL2 : List (HloOp τ sig (Elt F))), op.fresh = ∅ := by
  intro _ h; (repeat (cases h with | head => rfl | tail _ h => ?_)); exact nomatch h

set_option maxRecDepth 16384 in
/-- No operation of this stage leaves a buffer undetermined. -/
theorem opsL3_fresh : ∀ op ∈ (opsL3 : List (HloOp τ sig (Elt F))), op.fresh = ∅ := by
  intro _ h; (repeat (cases h with | head => rfl | tail _ h => ?_)); exact nomatch h

set_option maxRecDepth 16384 in
/-- No operation of this stage leaves a buffer undetermined. -/
theorem opsL4_fresh : ∀ op ∈ (opsL4 : List (HloOp τ sig (Elt F))), op.fresh = ∅ := by
  intro _ h; (repeat (cases h with | head => rfl | tail _ h => ?_)); exact nomatch h

set_option maxRecDepth 16384 in
/-- No operation of this stage leaves a buffer undetermined. -/
theorem opsL5_fresh : ∀ op ∈ (opsL5 : List (HloOp τ sig (Elt F))), op.fresh = ∅ := by
  intro _ h; (repeat (cases h with | head => rfl | tail _ h => ?_)); exact nomatch h

set_option maxRecDepth 16384 in
/-- No operation of this stage leaves a buffer undetermined. -/
theorem opsL6_fresh : ∀ op ∈ (opsL6 : List (HloOp τ sig (Elt F))), op.fresh = ∅ := by
  intro _ h; (repeat (cases h with | head => rfl | tail _ h => ?_)); exact nomatch h

set_option maxRecDepth 16384 in
/-- No operation of this stage leaves a buffer undetermined. -/
theorem opsL7_fresh : ∀ op ∈ (opsL7 : List (HloOp τ sig (Elt F))), op.fresh = ∅ := by
  intro _ h; (repeat (cases h with | head => rfl | tail _ h => ?_)); exact nomatch h

set_option maxRecDepth 16384 in
/-- No operation of this stage leaves a buffer undetermined. -/
theorem opsL8_fresh : ∀ op ∈ (opsL8 : List (HloOp τ sig (Elt F))), op.fresh = ∅ := by
  intro _ h; (repeat (cases h with | head => rfl | tail _ h => ?_)); exact nomatch h

set_option maxRecDepth 16384 in
/-- No operation of this stage leaves a buffer undetermined. -/
theorem opsO_fresh : ∀ op ∈ (opsO : List (HloOp τ sig (Elt F))), op.fresh = ∅ := by
  intro _ h; (repeat (cases h with | head => rfl | tail _ h => ?_)); exact nomatch h

/-- No operation leaves a buffer undetermined. -/
theorem ops_fresh : ∀ op ∈ (ops : List (HloOp τ sig (Elt F))), op.fresh = ∅ := by
  intro op h
  simp only [ops, List.mem_append] at h
  rcases h with h | h | h | h | h | h | h | h | h | h
  exacts [opsP_fresh op h, opsL1_fresh op h, opsL2_fresh op h, opsL3_fresh op h, opsL4_fresh op h, opsL5_fresh op h, opsL6_fresh op h, opsL7_fresh op h, opsL8_fresh op h, opsO_fresh op h]

end Cert.ReferenceIdeal.RefRun

end
-- ==== Proof.RefStages.lean ====
/-
  The reference's stages as functions of arrays, in the reference's own host operations.

  The reference computes, from the edge list, the source and destination index vectors (each edge list row followed
  by the self loops 0 … N−1), the symmetric normalisation (deg^(−1/2) at the source times deg^(−1/2) at the destination,
  deg the number of edges into a node, 0 where deg is 0), then the input stage elu (x · w + b), eight layers — each
  aggregates the normalised neighbour rows and applies elu (o) + o with o = c1 · s + c2 · (s · W), s the half-and-half
  mix of the aggregate and the input stage's result — and the output stage h · w + b.  Each stage is named here as
  one function of its operand arrays so that a run of the program can be stated over named intermediate arrays.
-/
import proofs.«141911_j13975823581435_1_alg».proof.ReferenceIdeal
import proofs.«141911_j13975823581435_1_alg».proof.Proof.Gen.ReferenceIdeal

noncomputable section

namespace Cert.ReferenceIdeal.Stages

open Cert.ReferenceIdeal Cert.ReferenceIdeal.Gen Idealize.ShloMosaic

variable {F : FTy → Type} [FloatOps F]

/-- The contents type of an f32 buffer of shape `s`. -/
abbrev FA (F : FTy → Type) (s : Shape) : Type := (⟨s, .f32⟩ : BufTy).Contents (Elt F)
/-- The contents type of an i32 buffer of shape `s`. -/
abbrev IA (F : FTy → Type) (s : Shape) : Type := (⟨s, .i32⟩ : BufTy).Contents (Elt F)

/-- A scalar f32 word spread over the node-by-feature shape. -/
def splat (b : BitVec 32) : FA F S100000x64 :=
  broadcastInDim S100000x64 ![] bcast_S_S100000x64 (constant (F := F) S_ .f32 b)

/-- A length-64 vector laid out as a row and repeated down the 100000 rows. -/
def rowB (b : FA F S64) : FA F S100000x64 :=
  broadcastInDim S100000x64 ![0, 1] bcast_S1x64_S100000x64_0_1 (broadcastInDim S1x64 ![1] bcast_S64_S1x64_1 b)

/-- jax's elu: select y > 0 of y and 1 · expm1 (select y > 0 of 0 and y). -/
def eluR (y : FA F S100000x64) : FA F S100000x64 :=
  select (cmpf .ogt y (broadcastInDim S100000x64 ![] bcast_S_S100000x64 (constant (F := F) S_ .f32 0x00000000#32))) y
    (mulf (broadcastInDim S100000x64 ![] bcast_S_S100000x64 (constant (F := F) S_ .f32 0x3F800000#32))
      (Host.expm1
        (select (cmpf .ogt y (broadcastInDim S100000x64 ![] bcast_S_S100000x64 (constant (F := F) S_ .f32 0x00000000#32)))
          (broadcastInDim S100000x64 ![] bcast_S_S100000x64 (id (constant (F := F) S_ .f32 0x00000000#32))) y)))

/-- Row `r` of the edge list followed by the self loops 0 … 99999 (the slice's offsets and its side condition given). -/
def edgeRow (off : Fin 2 → Nat) (h : S2x1600000.Slices off S1x1600000) (e : IA F S2x1600000) : IA F S1700000 :=
  concatenate S1700000 0
    [⟨S1600000, shapeCast S1600000 (extractStridedSlice S1x1600000 off e h) shapeCasts_S1x1600000_S1600000⟩,
     ⟨S100000, iotaInDim S100000 32 0⟩] concatenates_S1600000_S100000_S1700000_d0

/-- The source index of every edge (row 0 of the edge list, then the self loops). -/
def srcR (e : IA F S2x1600000) : IA F S1700000 := edgeRow ![0, 0] slices_S2x1600000_S1x1600000_0_0 e
/-- The destination index of every edge (row 1 of the edge list, then the self loops). -/
def dstR (e : IA F S2x1600000) : IA F S1700000 := edgeRow ![1, 0] slices_S2x1600000_S1x1600000_1_0 e

/-- An index vector as a one-column matrix of positions. -/
def colIdx {E : EltTy} (s : (⟨S1700000, E⟩ : BufTy).Contents (Elt F)) : (⟨S1700000x1, E⟩ : BufTy).Contents (Elt F) :=
  broadcastInDim S1700000x1 ![0] bcast_S1700000_S1700000x1_0 s

/-- numpy's negative-index wrap: an index below 0 has 100000 added. -/
def wrapIdx (s : IA F S1700000) : IA F S1700000 :=
  select (cmpi .slt s (broadcastInDim S1700000 ![] bcast_S_S1700000 (constantI S_ 32 0#32)))
    (addi s (broadcastInDim S1700000 ![] bcast_S_S1700000 (constantI S_ 32 100000#32))) s

/-- deg^(−1/2) per node, 0 where the node has no incoming edge: deg counts the edges into each node. -/
def dinvR (dst : IA F S1700000) : FA F S100000 :=
  select
    (cmpf .ogt
      (Host.scatterAdd scatter_S100000_S1700000x1_S1700000_n_0_0_1
        (broadcastInDim S100000 ![] bcast_S_S100000 (constant (F := F) S_ .f32 0x00000000#32)) (colIdx dst)
        (broadcastInDim S1700000 ![] bcast_S_S1700000 (constant (F := F) S_ .f32 0x3F800000#32)))
      (broadcastInDim S100000 ![] bcast_S_S100000 (constant (F := F) S_ .f32 0x00000000#32)))
    (Host.rsqrt
      (maximumf
        (Host.scatterAdd scatter_S100000_S1700000x1_S1700000_n_0_0_1
          (broadcastInDim S100000 ![] bcast_S_S100000 (constant (F := F) S_ .f32 0x00000000#32)) (colIdx dst)
          (broadcastInDim S1700000 ![] bcast_S_S1700000 (constant (F := F) S_ .f32 0x3F800000#32)))
        (broadcastInDim S100000 ![] bcast_S_S100000 (constant (F := F) S_ .f32 0x2B8CBCCC#32))))
    (broadcastInDim S100000 ![] bcast_S_S100000 (id (constant (F := F) S_ .f32 0x00000000#32)))

/-- The edge weights: deg^(−1/2) at the source times deg^(−1/2) at the destination. -/
def normR (src dst : IA F S1700000) : FA F S1700000 :=
  mulf (Host.gather gather_S100000_S1700000x1_S1700000_n_0_n_n_0_1_1 (dinvR dst) (colIdx (wrapIdx src)))
    (Host.gather gather_S100000_S1700000x1_S1700000_n_0_n_n_0_1_1 (dinvR dst) (colIdx (wrapIdx dst)))

/-- The neighbour aggregation: each edge's weight times the source node's row, summed into the destination node's row. -/
def aggR (nrm : FA F S1700000) (src dst : IA F S1700000) (h : FA F S100000x64) : FA F S100000x64 :=
  Host.scatterAdd scatter_S100000x64_S1700000x1_S1700000x64_1_0_0_1
    (broadcastInDim S100000x64 ![] bcast_S_S100000x64 (constant (F := F) S_ .f32 0x00000000#32)) (colIdx dst)
    (mulf (broadcastInDim S1700000x64 ![0, 1] bcast_S1700000x1_S1700000x64_0_1 (colIdx nrm))
      (Host.gather gather_S100000x64_S1700000x1_S1700000x64_1_0_n_n_0_1_164 h (colIdx (wrapIdx src))))

/-- The input stage: elu (x · w + b). -/
def h0R (x : FA F S100000x256) (w : FA F S256x64) (b : FA F S64) : FA F S100000x64 :=
  eluR (addf (Host.dotGeneral dot_S100000x256_S256x64_S100000x64_1_0_0_1_n_n none x w) (rowB b))

/-- The half-and-half mix of the aggregate and the input stage's result. -/
def mixR (agg x0 : FA F S100000x64) : FA F S100000x64 :=
  addf (mulf (splat 0x3F000000#32) agg) (mulf (splat 0x3F000000#32) x0)

/-- o = c1 · s + c2 · (s · W), s the mix. -/
def preR (c1 c2 : BitVec 32) (agg x0 : FA F S100000x64) (w : FA F S64x64) : FA F S100000x64 :=
  addf (mulf (splat c1) (mixR agg x0))
    (mulf (splat c2) (Host.dotGeneral dot_S100000x64_S64x64_S100000x64_1_0_0_1_n_n none (mixR agg x0) w))

/-- A layer's dense part: elu (o) + o. -/
def layerR (c1 c2 : BitVec 32) (agg x0 : FA F S100000x64) (w : FA F S64x64) : FA F S100000x64 :=
  addf (eluR (preR c1 c2 agg x0 w)) (preR c1 c2 agg x0 w)

/-- One layer's 64 × 64 weights out of the stack of eight (the slice's offsets and its side condition given). -/
def wselR (off : Fin 3 → Nat) (h : S8x64x64.Slices off S1x64x64) (w4 : FA F S8x64x64) : FA F S64x64 :=
  shapeCast S64x64 (extractStridedSlice S1x64x64 off w4 h) shapeCasts_S1x64x64_S64x64

/-- One whole layer: aggregate, then the dense part with that layer's weights. -/
def stepR (c1 c2 : BitVec 32) (off : Fin 3 → Nat) (hoff : S8x64x64.Slices off S1x64x64)
    (nrm : FA F S1700000) (src dst : IA F S1700000) (x0 : FA F S100000x64) (w4 : FA F S8x64x64) (h : FA F S100000x64) :
    FA F S100000x64 :=
  layerR c1 c2 (aggR nrm src dst h) x0 (wselR off hoff w4)

/-- The output stage: h · w + b. -/
def projR (h : FA F S100000x64) (w : FA F S64x64) (b : FA F S64) : FA F S100000x64 :=
  addf (Host.dotGeneral dot_S100000x64_S64x64_S100000x64_1_0_0_1_n_n none h w) (rowB b)

/-- The eight layers in order, from the input stage's result, over fixed edge weights and index vectors. -/
def layersR (nrm : FA F S1700000) (src dst : IA F S1700000) (x0 : FA F S100000x64) (w4 : FA F S8x64x64) : FA F S100000x64 :=
  stepR 0x3F61D8F9#32 0x3DF1383B#32 ![7, 0, 0] slices_S8x64x64_S1x64x64_7_0_0 nrm src dst x0 w4
  (stepR 0x3F5DD0E3#32 0x3E08BC74#32 ![6, 0, 0] slices_S8x64x64_S1x64x64_6_0_0 nrm src dst x0 w4
  (stepR 0x3F588995#32 0x3E1DD9AD#32 ![5, 0, 0] slices_S8x64x64_S1x64x64_5_0_0 nrm src dst x0 w4
  (stepR 0x3F515360#32 0x3E3AB281#32 ![4, 0, 0] slices_S8x64x64_S1x64x64_4_0_0 nrm src dst x0 w4
  (stepR 0x3F46E010#32 0x3E647FBE#32 ![3, 0, 0] slices_S8x64x64_S1x64x64_3_0_0 nrm src dst x0 w4
  (stepR 0x3F365A78#32 0x3E934B11#32 ![2, 0, 0] slices_S8x64x64_S1x64x64_2_0_0 nrm src dst x0 w4
  (stepR 0x3F183370#32 0x3ECF991F#32 ![1, 0, 0] slices_S8x64x64_S1x64x64_1_0_0 nrm src dst x0 w4
  (stepR 0x3E9D1BD0#32 0x3F317218#32 ![0, 0, 0] slices_S8x64x64_S1x64x64_0_0_0 nrm src dst x0 w4 x0)))))))

/-- The reference's result as one function of its seven argument arrays. -/
def outR (x : FA F S100000x256) (e : IA F S2x1600000) (w : FA F S256x64) (b : FA F S64) (w4 : FA F S8x64x64)
    (wo : FA F S64x64) (bo : FA F S64) : FA F S100000x64 :=
  projR (layersR (normR (srcR e) (dstR e)) (srcR e) (dstR e) (h0R x w b) w4) wo bo

end Cert.ReferenceIdeal.Stages

end
-- ==== Proof.RefRunValP.lean ====
/-
  The prelude of the reference, read as functions of arrays.

  From any contents of the buffers, the prelude's operations leave: in the two index buffers the source and destination
  rows of the edge list followed by the self loops; in the edge-weight buffer the product of the inverse square roots of
  the degrees at the two ends of each edge; in the input stage's buffer elu of the input times the input weights plus
  the input bias.  The fold over the operations is unrolled, each operation's result read at its own buffer and passed
  over at every other, and what remains is the stage function's defining expression.  Buffers the prelude does not
  write keep their contents.
-/
import proofs.«141911_j13975823581435_1_alg».proof.Proof.RefOpsP
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsP_writes : (opsP : List (HloOp τ sig (Elt F))).Forall fun op =>
    op.writes ⊆ (opsP_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsP_keep (V : Valuation τ sig (Elt F)) (r : Ref sig .tc) (h : r ∉ opsP_W) :
    after opsP V (Proc.devRef .tc r) = V (Proc.devRef .tc r) :=
  after_of_writes_sub opsP V opsP_writes h

set_option maxRecDepth 16384 in
set_option maxHeartbeats 4000000 in
/-- The source index of every edge: row 0 of the edge list, then the self loops. -/
theorem opsP_src (V : Valuation τ sig (Elt F)) :
    after opsP V (Proc.devRef .tc main_v3)
      = Stages.srcR (V (Proc.devRef .tc main_arg1)) := by
  simp only [opsP]
  after_results_simp
  rfl

set_option maxRecDepth 16384 in
set_option maxHeartbeats 4000000 in
/-- The destination index of every edge: row 1 of the edge list, then the self loops. -/
theorem opsP_dst (V : Valuation τ sig (Elt F)) :
    after opsP V (Proc.devRef .tc main_v6)
      = Stages.dstR (V (Proc.devRef .tc main_arg1)) := by
  simp only [opsP]
  after_results_simp
  rfl

set_option maxRecDepth 16384 in
set_option maxHeartbeats 4000000 in
/-- The edge weights: the inverse square root of the degree at the source times that at the destination. -/
theorem opsP_norm (V : Valuation τ sig (Elt F)) :
    after opsP V (Proc.devRef .tc main_v31)
      = Stages.normR (Stages.srcR (V (Proc.devRef .tc main_arg1))) (Stages.dstR (V (Proc.devRef .tc main_arg1))) := by
  simp only [opsP]
  after_results_simp
  rfl

set_option maxRecDepth 16384 in
set_option maxHeartbeats 4000000 in
/-- The input stage: elu of the input times the input weights plus the input bias. -/
theorem opsP_h0 (V : Valuation τ sig (Elt F)) :
    after opsP V (Proc.devRef .tc main_v36)
      = Stages.h0R (V (Proc.devRef .tc main_arg0)) (V (Proc.devRef .tc main_arg2)) (V (Proc.devRef .tc main_arg3)) := by
  simp only [opsP]
  after_results_simp
  rfl

end Cert.ReferenceIdeal.RefRun

end
-- ==== Proof.RefRunValL1.lean ====
/-
  Layer 1 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL1
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL1_writes : (opsL1 : List (HloOp τ sig (Elt F))).Forall fun op =>
    op.writes ⊆ (opsL1_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

set_option maxRecDepth 16384 in
set_option maxHeartbeats 4000000 in
/-- The layer's result buffer after the layer: the aggregate of the previous layer's result over the weighted edges, mixed
    with the input stage's result, through the dense part with this layer's weights and constants. -/
theorem opsL1_val (V : Valuation τ sig (Elt F)) :
    after opsL1 V (Proc.devRef .tc main_v64)
      = Stages.stepR 0x3E9D1BD0#32 0x3F317218#32 ![0, 0, 0] slices_S8x64x64_S1x64x64_0_0_0
          (V (Proc.devRef .tc main_v31)) (V (Proc.devRef .tc main_v3)) (V (Proc.devRef .tc main_v6))
          (V (Proc.devRef .tc main_v36)) (V (Proc.devRef .tc main_arg4)) (V (Proc.devRef .tc main_v36)) := by
  simp only [opsL1]
  after_results_simp
  rfl

end Cert.ReferenceIdeal.RefRun

end
-- ==== Proof.RefRunValL2.lean ====
/-
  Layer 2 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL2
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL2_writes : (opsL2 : List (HloOp τ sig (Elt F))).Forall fun op =>
    op.writes ⊆ (opsL2_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

set_option maxRecDepth 16384 in
set_option maxHeartbeats 4000000 in
/-- The layer's result buffer after the layer: the aggregate of the previous layer's result over the weighted edges, mixed
    with the input stage's result, through the dense part with this layer's weights and constants. -/
theorem opsL2_val (V : Valuation τ sig (Elt F)) :
    after opsL2 V (Proc.devRef .tc main_v92)
      = Stages.stepR 0x3F183370#32 0x3ECF991F#32 ![1, 0, 0] slices_S8x64x64_S1x64x64_1_0_0
          (V (Proc.devRef .tc main_v31)) (V (Proc.devRef .tc main_v3)) (V (Proc.devRef .tc main_v6))
          (V (Proc.devRef .tc main_v36)) (V (Proc.devRef .tc main_arg4)) (V (Proc.devRef .tc main_v64)) := by
  simp only [opsL2]
  after_results_simp
  rfl

end Cert.ReferenceIdeal.RefRun

end
-- ==== Proof.RefRunValL3.lean ====
/-
  Layer 3 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL3
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL3_writes : (opsL3 : List (HloOp τ sig (Elt F))).Forall fun op =>
    op.writes ⊆ (opsL3_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V opsL3_writes h

set_option maxRecDepth 16384 in
set_option maxHeartbeats 4000000 in
/-- The layer's result buffer after the layer: the aggregate of the previous layer's result over the weighted edges, mixed
    with the input stage's result, through the dense part with this layer's weights and constants. -/
theorem opsL3_val (V : Valuation τ sig (Elt F)) :
    after opsL3 V (Proc.devRef .tc main_v120)
      = Stages.stepR 0x3F365A78#32 0x3E934B11#32 ![2, 0, 0] slices_S8x64x64_S1x64x64_2_0_0
          (V (Proc.devRef .tc main_v31)) (V (Proc.devRef .tc main_v3)) (V (Proc.devRef .tc main_v6))
          (V (Proc.devRef .tc main_v36)) (V (Proc.devRef .tc main_arg4)) (V (Proc.devRef .tc main_v92)) := by
  simp only [opsL3]
  after_results_simp
  rfl

end Cert.ReferenceIdeal.RefRun

end
-- ==== Proof.RefRunValL4.lean ====
/-
  Layer 4 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL4
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL4_writes : (opsL4 : List (HloOp τ sig (Elt F))).Forall fun op =>
    op.writes ⊆ (opsL4_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL4_keep (V : Valuation τ sig (Elt F)) (r : Ref sig .tc) (h : r ∉ opsL4_W) :
    after opsL4 V (Proc.devRef .tc r) = V (Proc.devRef .tc r) :=
  after_of_writes_sub opsL4 V opsL4_writes h

set_option maxRecDepth 16384 in
set_option maxHeartbeats 4000000 in
/-- The layer's result buffer after the layer: the aggregate of the previous layer's result over the weighted edges, mixed
    with the input stage's result, through the dense part with this layer's weights and constants. -/
theorem opsL4_val (V : Valuation τ sig (Elt F)) :
    after opsL4 V (Proc.devRef .tc main_v148)
      = Stages.stepR 0x3F46E010#32 0x3E647FBE#32 ![3, 0, 0] slices_S8x64x64_S1x64x64_3_0_0
          (V (Proc.devRef .tc main_v31)) (V (Proc.devRef .tc main_v3)) (V (Proc.devRef .tc main_v6))
          (V (Proc.devRef .tc main_v36)) (V (Proc.devRef .tc main_arg4)) (V (Proc.devRef .tc main_v120)) := by
  simp only [opsL4]
  after_results_simp
  rfl

end Cert.ReferenceIdeal.RefRun

end
-- ==== Proof.RefRunValL5.lean ====
/-
  Layer 5 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL5
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL5_writes : (opsL5 : List (HloOp τ sig (Elt F))).Forall fun op =>
    op.writes ⊆ (opsL5_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL5_keep (V : Valuation τ sig (Elt F)) (r : Ref sig .tc) (h : r ∉ opsL5_W) :
    after opsL5 V (Proc.devRef .tc r) = V (Proc.devRef .tc r) :=
  after_of_writes_sub opsL5 V opsL5_writes h

set_option maxRecDepth 16384 in
set_option maxHeartbeats 4000000 in
/-- The layer's result buffer after the layer: the aggregate of the previous layer's result over the weighted edges, mixed
    with the input stage's result, through the dense part with this layer's weights and constants. -/
theorem opsL5_val (V : Valuation τ sig (Elt F)) :
    after opsL5 V (Proc.devRef .tc main_v176)
      = Stages.stepR 0x3F515360#32 0x3E3AB281#32 ![4, 0, 0] slices_S8x64x64_S1x64x64_4_0_0
          (V (Proc.devRef .tc main_v31)) (V (Proc.devRef .tc main_v3)) (V (Proc.devRef .tc main_v6))
          (V (Proc.devRef .tc main_v36)) (V (Proc.devRef .tc main_arg4)) (V (Proc.devRef .tc main_v148)) := by
  simp only [opsL5]
  after_results_simp
  rfl

end Cert.ReferenceIdeal.RefRun

end
-- ==== Proof.RefRunValL6.lean ====
/-
  Layer 6 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL6
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL6_writes : (opsL6 : List (HloOp τ sig (Elt F))).Forall fun op =>
    op.writes ⊆ (opsL6_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL6_keep (V : Valuation τ sig (Elt F)) (r : Ref sig .tc) (h : r ∉ opsL6_W) :
    after opsL6 V (Proc.devRef .tc r) = V (Proc.devRef .tc r) :=
  after_of_writes_sub opsL6 V opsL6_writes h

set_option maxRecDepth 16384 in
set_option maxHeartbeats 4000000 in
/-- The layer's result buffer after the layer: the aggregate of the previous layer's result over the weighted edges, mixed
    with the input stage's result, through the dense part with this layer's weights and constants. -/
theorem opsL6_val (V : Valuation τ sig (Elt F)) :
    after opsL6 V (Proc.devRef .tc main_v204)
      = Stages.stepR 0x3F588995#32 0x3E1DD9AD#32 ![5, 0, 0] slices_S8x64x64_S1x64x64_5_0_0
          (V (Proc.devRef .tc main_v31)) (V (Proc.devRef .tc main_v3)) (V (Proc.devRef .tc main_v6))
          (V (Proc.devRef .tc main_v36)) (V (Proc.devRef .tc main_arg4)) (V (Proc.devRef .tc main_v176)) := by
  simp only [opsL6]
  after_results_simp
  rfl

end Cert.ReferenceIdeal.RefRun

end
-- ==== Proof.RefRunValL7.lean ====
/-
  Layer 7 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL7
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL7_writes : (opsL7 : List (HloOp τ sig (Elt F))).Forall fun op =>
    op.writes ⊆ (opsL7_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL7_keep (V : Valuation τ sig (Elt F)) (r : Ref sig .tc) (h : r ∉ opsL7_W) :
    after opsL7 V (Proc.devRef .tc r) = V (Proc.devRef .tc r) :=
  after_of_writes_sub opsL7 V opsL7_writes h

set_option maxRecDepth 16384 in
set_option maxHeartbeats 4000000 in
/-- The layer's result buffer after the layer: the aggregate of the previous layer's result over the weighted edges, mixed
    with the input stage's result, through the dense part with this layer's weights and constants. -/
theorem opsL7_val (V : Valuation τ sig (Elt F)) :
    after opsL7 V (Proc.devRef .tc main_v232)
      = Stages.stepR 0x3F5DD0E3#32 0x3E08BC74#32 ![6, 0, 0] slices_S8x64x64_S1x64x64_6_0_0
          (V (Proc.devRef .tc main_v31)) (V (Proc.devRef .tc main_v3)) (V (Proc.devRef .tc main_v6))
          (V (Proc.devRef .tc main_v36)) (V (Proc.devRef .tc main_arg4)) (V (Proc.devRef .tc main_v204)) := by
  simp only [opsL7]
  after_results_simp
  rfl

end Cert.ReferenceIdeal.RefRun

end
-- ==== Proof.RefRunValL8.lean ====
/-
  Layer 8 of the reference, read as one function of arrays.

  From any contents of the buffers, the layer's operations leave in the layer's result buffer the stage function of
  the contents of the buffers the layer reads: the edge weights, the source and destination index vectors, the input
  stage's result, the stack of layer weights and the previous layer's result.  The fold over the operations is unrolled,
  each operation's result read at its own buffer and passed over at every other, and what remains is the stage
  function's defining expression.  Buffers the layer does not write keep their contents.
-/
import proofs.«141911_j13975823581435_1_alg».proof.Proof.RefOpsL8
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsL8_writes : (opsL8 : List (HloOp τ sig (Elt F))).Forall fun op =>
    op.writes ⊆ (opsL8_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsL8_keep (V : Valuation τ sig (Elt F)) (r : Ref sig .tc) (h : r ∉ opsL8_W) :
    after opsL8 V (Proc.devRef .tc r) = V (Proc.devRef .tc r) :=
  after_of_writes_sub opsL8 V opsL8_writes h

set_option maxRecDepth 16384 in
set_option maxHeartbeats 4000000 in
/-- The layer's result buffer after the layer: the aggregate of the previous layer's result over the weighted edges, mixed
    with the input stage's result, through the dense part with this layer's weights and constants. -/
theorem opsL8_val (V : Valuation τ sig (Elt F)) :
    after opsL8 V (Proc.devRef .tc main_v260)
      = Stages.stepR 0x3F61D8F9#32 0x3DF1383B#32 ![7, 0, 0] slices_S8x64x64_S1x64x64_7_0_0
          (V (Proc.devRef .tc main_v31)) (V (Proc.devRef .tc main_v3)) (V (Proc.devRef .tc main_v6))
          (V (Proc.devRef .tc main_v36)) (V (Proc.devRef .tc main_arg4)) (V (Proc.devRef .tc main_v232)) := by
  simp only [opsL8]
  after_results_simp
  rfl

end Cert.ReferenceIdeal.RefRun

end
-- ==== Proof.RefRunValO.lean ====
/-
  The output stage of the reference, read as a function of arrays.

  From any contents of the buffers, the last operations leave in the result buffer the last layer's result times the
  output weights plus the output bias.  Buffers they do not write keep their contents.
-/
import proofs.«141911_j13975823581435_1_alg».proof.Proof.RefOpsO
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Each operation of the stage writes only buffers of the stage's list of written buffers. -/
theorem opsO_writes : (opsO : List (HloOp τ sig (Elt F))).Forall fun op =>
    op.writes ⊆ (opsO_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A buffer the stage does not write keeps its contents through it. -/
theorem opsO_keep (V : Valuation τ sig (Elt F)) (r : Ref sig .tc) (h : r ∉ opsO_W) :
    after opsO V (Proc.devRef .tc r) = V (Proc.devRef .tc r) :=
  after_of_writes_sub opsO V opsO_writes h

set_option maxRecDepth 16384 in
set_option maxHeartbeats 4000000 in
/-- The result: the last layer's result times the output weights plus the output bias. -/
theorem opsO_val (V : Valuation τ sig (Elt F)) :
    after opsO V (Proc.devRef .tc main_v264)
      = Stages.projR (V (Proc.devRef .tc main_v260)) (V (Proc.devRef .tc main_arg5)) (V (Proc.devRef .tc main_arg6)) := by
  simp only [opsO]
  after_results_simp
  rfl

end Cert.ReferenceIdeal.RefRun

end
-- ==== Proof.RefRun.lean ====
/-
  The reference program's run, read back as one function of its seven arguments.

  The program is the run of its operations in order, so every weakly fair execution terminates with each buffer at the
  fold of the operations over the launch contents.  The fold over the concatenation of the stages is the stages' folds
  one after the other.  Through every stage after the prelude the seven arguments and the prelude's four arrays (the two
  index vectors, the edge weights, the input stage's result) keep their contents, because no later stage writes them;
  so each layer's result is the layer function of those arrays and of the previous layer's result, and the result
  buffer holds the output stage of the eighth layer's result: the reference's result function of the arguments.
-/
import proofs.«141911_j13975823581435_1_alg».proof.Proof.RefRunMain
import proofs.«141911_j13975823581435_1_alg».proof.Proof.RefRunValP
import proofs.«141911_j13975823581435_1_alg».proof.Proof.RefRunValL1
import proofs.«141911_j13975823581435_1_alg».proof.Proof.RefRunValL2
import proofs.«141911_j13975823581435_1_alg».proof.Proof.RefRunValL3
import proofs.«141911_j13975823581435_1_alg».proof.Proof.RefRunValL4
import proofs.«141911_j13975823581435_1_alg».proof.Proof.RefRunValL5
import proofs.«141911_j13975823581435_1_alg».proof.Proof.RefRunValL6
import proofs.«141911_j13975823581435_1_alg».proof.Proof.RefRunValL7
import proofs.«141911_j13975823581435_1_alg».proof.Proof.RefRunValL8
import proofs.«141911_j13975823581435_1_alg».proof.Proof.RefRunValO
import proofs.«141911_j13975823581435_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What every stage after the prelude reads of earlier stages, besides the previous layer's result: in contents `W` the
    seven arguments are as in `V`, and the index vectors, the edge weights and the input stage's result are the stage
    functions of `V`'s arguments. -/
structure Kept (V W : Valuation τ sig (Elt F)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg4 : W (Proc.devRef .tc main_arg4) = V (Proc.devRef .tc main_arg4)
  arg5 : W (Proc.devRef .tc main_arg5) = V (Proc.devRef .tc main_arg5)
  arg6 : W (Proc.devRef .tc main_arg6) = V (Proc.devRef .tc main_arg6)
  src : W (Proc.devRef .tc main_v3) = Stages.srcR (V (Proc.devRef .tc main_arg1))
  dst : W (Proc.devRef .tc main_v6) = Stages.dstR (V (Proc.devRef .tc main_arg1))
  norm : W (Proc.devRef .tc main_v31) = Stages.normR (Stages.srcR (V (Proc.devRef .tc main_arg1))) (Stages.dstR (V (Proc.devRef .tc main_arg1)))
  h0 : W (Proc.devRef .tc main_v36) = Stages.h0R (V (Proc.devRef .tc main_arg0)) (V (Proc.devRef .tc main_arg2)) (V (Proc.devRef .tc main_arg3))

/-- After the prelude the arguments are untouched and the prelude's four arrays are in place. -/
theorem kept_P (V : Valuation τ sig (Elt F)) : Kept V (after opsP V) :=
  ⟨opsP_keep V main_arg0 (by decide), opsP_keep V main_arg1 (by decide), opsP_keep V main_arg2 (by decide), opsP_keep V main_arg3 (by decide), opsP_keep V main_arg4 (by decide), opsP_keep V main_arg5 (by decide), opsP_keep V main_arg6 (by decide),
    opsP_src V, opsP_dst V, opsP_norm V, opsP_h0 V⟩

/-- The stage leaves the arguments and the prelude's four arrays as they were. -/
theorem kept_L1 {V W : Valuation τ sig (Elt F)} (h : Kept V W) : Kept V (after opsL1 W) :=
  ⟨(opsL1_keep W main_arg0 (by decide)).trans h.arg0,
    (opsL1_keep W main_arg1 (by decide)).trans h.arg1,
    (opsL1_keep W main_arg2 (by decide)).trans h.arg2,
    (opsL1_keep W main_arg3 (by decide)).trans h.arg3,
    (opsL1_keep W main_arg4 (by decide)).trans h.arg4,
    (opsL1_keep W main_arg5 (by decide)).trans h.arg5,
    (opsL1_keep W main_arg6 (by decide)).trans h.arg6,
    (opsL1_keep W main_v3 (by decide)).trans h.src,
    (opsL1_keep W main_v6 (by decide)).trans h.dst,
    (opsL1_keep W main_v31 (by decide)).trans h.norm,
    (opsL1_keep W main_v36 (by decide)).trans h.h0⟩

/-- The stage leaves the arguments and the prelude's four arrays as they were. -/
theorem kept_L2 {V W : Valuation τ sig (Elt F)} (h : Kept V W) : Kept V (after opsL2 W) :=
  ⟨(opsL2_keep W main_arg0 (by decide)).trans h.arg0,
    (opsL2_keep W main_arg1 (by decide)).trans h.arg1,
    (opsL2_keep W main_arg2 (by decide)).trans h.arg2,
    (opsL2_keep W main_arg3 (by decide)).trans h.arg3,
    (opsL2_keep W main_arg4 (by decide)).trans h.arg4,
    (opsL2_keep W main_arg5 (by decide)).trans h.arg5,
    (opsL2_keep W main_arg6 (by decide)).trans h.arg6,
    (opsL2_keep W main_v3 (by decide)).trans h.src,
    (opsL2_keep W main_v6 (by decide)).trans h.dst,
    (opsL2_keep W main_v31 (by decide)).trans h.norm,
    (opsL2_keep W main_v36 (by decide)).trans h.h0⟩

/-- The stage leaves the arguments and the prelude's four arrays as they were. -/
theorem kept_L3 {V W : Valuation τ sig (Elt F)} (h : Kept V W) : Kept V (after opsL3 W) :=
  ⟨(opsL3_keep W main_arg0 (by decide)).trans h.arg0,
    (opsL3_keep W main_arg1 (by decide)).trans h.arg1,
    (opsL3_keep W main_arg2 (by decide)).trans h.arg2,
    (opsL3_keep W main_arg3 (by decide)).trans h.arg3,
    (opsL3_keep W main_arg4 (by decide)).trans h.arg4,
    (opsL3_keep W main_arg5 (by decide)).trans h.arg5,
    (opsL3_keep W main_arg6 (by decide)).trans h.arg6,
    (opsL3_keep W main_v3 (by decide)).trans h.src,
    (opsL3_keep W main_v6 (by decide)).trans h.dst,
    (opsL3_keep W main_v31 (by decide)).trans h.norm,
    (opsL3_keep W main_v36 (by decide)).trans h.h0⟩

/-- The stage leaves the arguments and the prelude's four arrays as they were. -/
theorem kept_L4 {V W : Valuation τ sig (Elt F)} (h : Kept V W) : Kept V (after opsL4 W) :=
  ⟨(opsL4_keep W main_arg0 (by decide)).trans h.arg0,
    (opsL4_keep W main_arg1 (by decide)).trans h.arg1,
    (opsL4_keep W main_arg2 (by decide)).trans h.arg2,
    (opsL4_keep W main_arg3 (by decide)).trans h.arg3,
    (opsL4_keep W main_arg4 (by decide)).trans h.arg4,
    (opsL4_keep W main_arg5 (by decide)).trans h.arg5,
    (opsL4_keep W main_arg6 (by decide)).trans h.arg6,
    (opsL4_keep W main_v3 (by decide)).trans h.src,
    (opsL4_keep W main_v6 (by decide)).trans h.dst,
    (opsL4_keep W main_v31 (by decide)).trans h.norm,
    (opsL4_keep W main_v36 (by decide)).trans h.h0⟩

/-- The stage leaves the arguments and the prelude's four arrays as they were. -/
theorem kept_L5 {V W : Valuation τ sig (Elt F)} (h : Kept V W) : Kept V (after opsL5 W) :=
  ⟨(opsL5_keep W main_arg0 (by decide)).trans h.arg0,
    (opsL5_keep W main_arg1 (by decide)).trans h.arg1,
    (opsL5_keep W main_arg2 (by decide)).trans h.arg2,
    (opsL5_keep W main_arg3 (by decide)).trans h.arg3,
    (opsL5_keep W main_arg4 (by decide)).trans h.arg4,
    (opsL5_keep W main_arg5 (by decide)).trans h.arg5,
    (opsL5_keep W main_arg6 (by decide)).trans h.arg6,
    (opsL5_keep W main_v3 (by decide)).trans h.src,
    (opsL5_keep W main_v6 (by decide)).trans h.dst,
    (opsL5_keep W main_v31 (by decide)).trans h.norm,
    (opsL5_keep W main_v36 (by decide)).trans h.h0⟩

/-- The stage leaves the arguments and the prelude's four arrays as they were. -/
theorem kept_L6 {V W : Valuation τ sig (Elt F)} (h : Kept V W) : Kept V (after opsL6 W) :=
  ⟨(opsL6_keep W main_arg0 (by decide)).trans h.arg0,
    (opsL6_keep W main_arg1 (by decide)).trans h.arg1,
    (opsL6_keep W main_arg2 (by decide)).trans h.arg2,
    (opsL6_keep W main_arg3 (by decide)).trans h.arg3,
    (opsL6_keep W main_arg4 (by decide)).trans h.arg4,
    (opsL6_keep W main_arg5 (by decide)).trans h.arg5,
    (opsL6_keep W main_arg6 (by decide)).trans h.arg6,
    (opsL6_keep W main_v3 (by decide)).trans h.src,
    (opsL6_keep W main_v6 (by decide)).trans h.dst,
    (opsL6_keep W main_v31 (by decide)).trans h.norm,
    (opsL6_keep W main_v36 (by decide)).trans h.h0⟩

/-- The stage leaves the arguments and the prelude's four arrays as they were. -/
theorem kept_L7 {V W : Valuation τ sig (Elt F)} (h : Kept V W) : Kept V (after opsL7 W) :=
  ⟨(opsL7_keep W main_arg0 (by decide)).trans h.arg0,
    (opsL7_keep W main_arg1 (by decide)).trans h.arg1,
    (opsL7_keep W main_arg2 (by decide)).trans h.arg2,
    (opsL7_keep W main_arg3 (by decide)).trans h.arg3,
    (opsL7_keep W main_arg4 (by decide)).trans h.arg4,
    (opsL7_keep W main_arg5 (by decide)).trans h.arg5,
    (opsL7_keep W main_arg6 (by decide)).trans h.arg6,
    (opsL7_keep W main_v3 (by decide)).trans h.src,
    (opsL7_keep W main_v6 (by decide)).trans h.dst,
    (opsL7_keep W main_v31 (by decide)).trans h.norm,
    (opsL7_keep W main_v36 (by decide)).trans h.h0⟩

/-- The stage leaves the arguments and the prelude's four arrays as they were. -/
theorem kept_L8 {V W : Valuation τ sig (Elt F)} (h : Kept V W) : Kept V (after opsL8 W) :=
  ⟨(opsL8_keep W main_arg0 (by decide)).trans h.arg0,
    (opsL8_keep W main_arg1 (by decide)).trans h.arg1,
    (opsL8_keep W main_arg2 (by decide)).trans h.arg2,
    (opsL8_keep W main_arg3 (by decide)).trans h.arg3,
    (opsL8_keep W main_arg4 (by decide)).trans h.arg4,
    (opsL8_keep W main_arg5 (by decide)).trans h.arg5,
    (opsL8_keep W main_arg6 (by decide)).trans h.arg6,
    (opsL8_keep W main_v3 (by decide)).trans h.src,
    (opsL8_keep W main_v6 (by decide)).trans h.dst,
    (opsL8_keep W main_v31 (by decide)).trans h.norm,
    (opsL8_keep W main_v36 (by decide)).trans h.h0⟩

/-- The stage leaves the arguments and the prelude's four arrays as they were. -/
theorem kept_O {V W : Valuation τ sig (Elt F)} (h : Kept V W) : Kept V (after opsO W) :=
  ⟨(opsO_keep W main_arg0 (by decide)).trans h.arg0,
    (opsO_keep W main_arg1 (by decide)).trans h.arg1,
    (opsO_keep W main_arg2 (by decide)).trans h.arg2,
    (opsO_keep W main_arg3 (by decide)).trans h.arg3,
    (opsO_keep W main_arg4 (by decide)).trans h.arg4,
    (opsO_keep W main_arg5 (by decide)).trans h.arg5,
    (opsO_keep W main_arg6 (by decide)).trans h.arg6,
    (opsO_keep W main_v3 (by decide)).trans h.src,
    (opsO_keep W main_v6 (by decide)).trans h.dst,
    (opsO_keep W main_v31 (by decide)).trans h.norm,
    (opsO_keep W main_v36 (by decide)).trans h.h0⟩

/-- The fold over all the operations, stage by stage. -/
theorem after_ops (V : Valuation τ sig (Elt F)) :
    after ops V = after opsO (after opsL8 (after opsL7 (after opsL6 (after opsL5 (after opsL4 (after opsL3 (after opsL2 (after opsL1 (after opsP V))))))))) := by
  simp only [ops, after_app]

/-- After all the operations the arguments are untouched. -/
theorem kept_ops (V : Valuation τ sig (Elt F)) : Kept V (after ops V) := by
  rw [after_ops]
  exact kept_O (kept_L8 (kept_L7 (kept_L6 (kept_L5 (kept_L4 (kept_L3 (kept_L2 (kept_L1 (kept_P V)))))))))

/-- After all the operations the result buffer holds the reference's result function of the arguments: the output stage
    of the eight layers run in order from the input stage's result. -/
theorem out_ops (V : Valuation τ sig (Elt F)) :
    after ops V (Proc.devRef .tc main_v264)
      = Stages.outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have kP := kept_P V
  have k1 := kept_L1 kP
  have k2 := kept_L2 k1
  have k3 := kept_L3 k2
  have k4 := kept_L4 k3
  have k5 := kept_L5 k4
  have k6 := kept_L6 k5
  have k7 := kept_L7 k6
  have k8 := kept_L8 k7
  rw [after_ops, opsO_val, k8.arg5, k8.arg6,
    opsL8_val, k7.norm, k7.src, k7.dst, k7.h0, k7.arg4,
    opsL7_val, k6.norm, k6.src, k6.dst, k6.h0, k6.arg4,
    opsL6_val, k5.norm, k5.src, k5.dst, k5.h0, k5.arg4,
    opsL5_val, k4.norm, k4.src, k4.dst, k4.h0, k4.arg4,
    opsL4_val, k3.norm, k3.src, k3.dst, k3.h0, k3.arg4,
    opsL3_val, k2.norm, k2.src, k2.dst, k2.h0, k2.arg4,
    opsL2_val, k1.norm, k1.src, k1.dst, k1.h0, k1.arg4,
    opsL1_val, kP.norm, kP.src, kP.dst, kP.h0, kP.arg4]
  simp only [Stages.outR, Stages.layersR]

/-- On every device, for any float values, from any memory with zero counters: every weakly fair execution of the
    reference program terminates with the result buffer at the reference's result function of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v264)
          = Stages.outR (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v264).trans (out_ops (launchContents m c)),
      (h c main_arg0).trans (kept_ops (launchContents m c)).arg0,
      (h c main_arg1).trans (kept_ops (launchContents m c)).arg1,
      (h c main_arg2).trans (kept_ops (launchContents m c)).arg2,
      (h c main_arg3).trans (kept_ops (launchContents m c)).arg3,
      (h c main_arg4).trans (kept_ops (launchContents m c)).arg4,
      (h c main_arg5).trans (kept_ops (launchContents m c)).arg5,
      (h c main_arg6).trans (kept_ops (launchContents m c)).arg6⟩)
    (run_seq scopedRefs_eq scopedSems_eq defs main (fun _ => ops) main_eq (fun _ => ops_sub) m ρ (fun _ => ops_fresh))

end Cert.ReferenceIdeal.RefRun

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.RefStagesIdx.lean ====
/-
  The reference's three dense stages read entry by entry.

  Each stage is built from whole-array host operations: a matrix product, scalars and a bias row spread over the
  100000 × 64 node-by-feature shape, entrywise products, sums, comparisons and selects, and e^y − 1.  At entry (p, q)
  on the extended reals every one of them reads through: a spread scalar is the scalar, the spread bias row is b(q),
  the entrywise operations act on the entries, and the matrix product is the sum over k of L(p, k) · R(k, q).  So
    * the input stage at (p, q) is  elu (Σ_k x(p, k) · w(k, q) + b(q)),
    * a layer at (p, q) is          elu (o) + o,  o = c1 · s(p, q) + c2 · Σ_k s(p, k) · W(k, q),  s the half-and-half mix,
    * the output stage at (p, q) is Σ_k h(p, k) · w(k, q) + b(q),
  which are the specification's three functions.  The reference spells elu with a guard (the exponential is taken of
  0 where y > 0) and a factor one; that spelling is elu.
-/
import proofs.«141911_j13975823581435_1_alg».proof.Proof.RefStages
import proofs.«141911_j13975823581435_1_alg».proof.Proof.GcnSpec
import proofs.«141911_j13975823581435_1_alg».proof.Proof.LibPlainDot
import proofs.«141911_j13975823581435_1_alg».proof.Proof.LibSideBySide
import proofs.«141911_j13975823581435_1_alg».proof.Proof.LibBroadcastInDim2

noncomputable section

open scoped BigOperators

namespace Cert.ReferenceIdeal.Stages

open Cert.ReferenceIdeal Cert.ReferenceIdeal.Gen Idealize.ShloMosaic Idealize.ShloMosaic.ValueIdx

/-- A scalar f32 word spread over the node-by-feature shape reads the word's value at every entry. -/
theorem spread_at (s : FA Ideal S_) (p : Fin 100000) (q : Fin 64) :
    broadcastInDim S100000x64 ![] bcast_S_S100000x64 s (ix2 p q) = s ix0 :=
  Cert.Bridge.splat_apply bcast_S_S100000x64 s (ix2 p q)

/-- The named spread scalar at an entry. -/
theorem splat_at (c : BitVec 32) (p : Fin 100000) (q : Fin 64) :
    splat (F := Ideal) c (ix2 p q) = Ideal.ofBits .f32 c :=
  spread_at (constant (F := Ideal) S_ .f32 c) p q

/-- The bias row repeated down the rows: entry (p, q) is b(q). -/
theorem rowB_at (b : FA Ideal S64) (p : Fin 100000) (q : Fin 64) :
    rowB (F := Ideal) b (ix2 p q) = b (ix1 q) := by
  unfold rowB
  exact (BroadcastInDim2.rowToMat_apply _ bcast_S1x64_S100000x64_0_1 p q).trans
    (BroadcastInDim2.vecToRow_apply b bcast_S64_S1x64_1 (0 : Fin 1) q)

/-- The guarded spelling of elu over arbitrary arrays in place of the spread constants, at an entry: every operation
    in it is entrywise. -/
theorem guarded_at (y z z' o : FVec Ideal S100000x64 .f32) (i : S100000x64.Idx) :
    select (cmpf .ogt y z) y (mulf o (Host.expm1 (select (cmpf .ogt y z) z' y))) i
      = Scalar.select (Ideal.cmp .ogt (y i) (z i)) (y i)
          (o i * (Ideal.exp (Scalar.select (Ideal.cmp .ogt (y i) (z i)) (z' i) (y i)) - 1)) := rfl

/-- The reference's elu at an entry is elu of the entry. -/
theorem eluR_at (y : FA Ideal S100000x64) (p : Fin 100000) (q : Fin 64) :
    eluR (F := Ideal) y (ix2 p q) = Cert.GCN.eluE (y (ix2 p q)) := by
  have h0 := spread_at (constant (F := Ideal) S_ .f32 0x00000000#32) p q
  have h0' := spread_at (id (constant (F := Ideal) S_ .f32 0x00000000#32)) p q
  have h1 := spread_at (constant (F := Ideal) S_ .f32 0x3F800000#32) p q
  refine (guarded_at y _ _ _ (ix2 p q)).trans ?_
  rw [h0, h0', h1]
  exact Cert.GCN.elu_guarded (y (ix2 p q))

/-- The input stage is the specification's. -/
theorem h0R_eq (x : FA Ideal S100000x256) (w : FA Ideal S256x64) (b : FA Ideal S64) :
    h0R (F := Ideal) x w b = Cert.GCN.dense0 x w b := by
  funext i
  obtain ⟨p, q, rfl⟩ : ∃ (p : Fin 100000) (q : Fin 64), i = ValueIdx.ix2 p q := ⟨i 0, i 1, ValueIdx.eq_ix2 i⟩
  rw [Cert.GCN.dense0_apply]
  unfold h0R
  rw [eluR_at, addf_apply, rowB_at]
  refine congrArg (fun t => Cert.GCN.eluE (t + b (ix1 q))) ?_
  exact Cert.Bridge.dotGeneral_plain (φ₁ := .f32) (φ₂ := .f32) dot_S100000x256_S256x64_S100000x64_1_0_0_1_n_n
    rfl rfl rfl rfl rfl rfl none .single x w p q

/-- The half-and-half mix is the specification's, entry by entry … -/
theorem mixR_at (agg x0 : FA Ideal S100000x64) (p : Fin 100000) (q : Fin 64) :
    mixR (F := Ideal) agg x0 (ix2 p q) = Cert.GCN.mix agg x0 (ix2 p q) := by
  unfold mixR
  rw [addf_apply, mulf_apply, mulf_apply, splat_at, Cert.GCN.mix_apply]

/-- … hence as an array. -/
theorem mixR_eq (agg x0 : FA Ideal S100000x64) : mixR (F := Ideal) agg x0 = Cert.GCN.mix agg x0 := by
  funext i
  obtain ⟨p, q, rfl⟩ : ∃ (p : Fin 100000) (q : Fin 64), i = ValueIdx.ix2 p q := ⟨i 0, i 1, ValueIdx.eq_ix2 i⟩
  exact mixR_at agg x0 p q

/-- A layer's o = c1 · s + c2 · (s · W) at an entry. -/
theorem preR_at (c1 c2 : BitVec 32) (agg x0 : FA Ideal S100000x64) (w : FA Ideal S64x64) (p : Fin 100000) (q : Fin 64) :
    preR (F := Ideal) c1 c2 agg x0 w (ix2 p q)
      = Ideal.ofBits .f32 c1 * Cert.GCN.mix agg x0 (ix2 p q)
        + Ideal.ofBits .f32 c2 * Cert.GCN.rowdot (Cert.GCN.mix agg x0) w p q := by
  unfold preR
  rw [mixR_eq, addf_apply, mulf_apply, mulf_apply, splat_at, splat_at]
  refine congrArg (fun t => Ideal.ofBits .f32 c1 * Cert.GCN.mix agg x0 (ix2 p q) + Ideal.ofBits .f32 c2 * t) ?_
  exact Cert.Bridge.dotGeneral_plain (φ₁ := .f32) (φ₂ := .f32) dot_S100000x64_S64x64_S100000x64_1_0_0_1_n_n
    rfl rfl rfl rfl rfl rfl none .single (Cert.GCN.mix agg x0) w p q

/-- A layer's dense part is the specification's. -/
theorem layerR_eq (c1 c2 : BitVec 32) (agg x0 : FA Ideal S100000x64) (w : FA Ideal S64x64) :
    layerR (F := Ideal) c1 c2 agg x0 w = Cert.GCN.layer c1 c2 agg x0 w := by
  funext i
  obtain ⟨p, q, rfl⟩ : ∃ (p : Fin 100000) (q : Fin 64), i = ValueIdx.ix2 p q := ⟨i 0, i 1, ValueIdx.eq_ix2 i⟩
  rw [Cert.GCN.layer_apply]
  unfold layerR
  rw [addf_apply, eluR_at, preR_at]

/-- The output stage is the specification's. -/
theorem projR_eq (h : FA Ideal S100000x64) (w : FA Ideal S64x64) (b : FA Ideal S64) :
    projR (F := Ideal) h w b = Cert.GCN.proj h w b := by
  funext i
  obtain ⟨p, q, rfl⟩ : ∃ (p : Fin 100000) (q : Fin 64), i = ValueIdx.ix2 p q := ⟨i 0, i 1, ValueIdx.eq_ix2 i⟩
  rw [Cert.GCN.proj_apply]
  unfold projR
  rw [addf_apply, rowB_at]
  refine congrArg (fun t => t + b (ix1 q)) ?_
  exact Cert.Bridge.dotGeneral_plain (φ₁ := .f32) (φ₂ := .f32) dot_S100000x64_S64x64_S100000x64_1_0_0_1_n_n
    rfl rfl rfl rfl rfl rfl none .single h w p q

end Cert.ReferenceIdeal.Stages

end
-- ==== Proof.OutBridge.lean ====
/-
  The two programs' result functions are equal.

  Around the dense stages both programs spell the graph part with the same host operations: the source and destination
  index vectors (an edge-list row followed by the self loops), the negative-index wrap, deg^(−1/2) per node, the edge
  weights, and one layer's weights cut out of the stack of eight.  Those are the same functions of their operands, written
  once in each program's own vocabulary (equal shape literals, dimension records with equal fields, side conditions that
  are propositions).  The neighbour aggregation differs in one place: per edge and feature one program forms
  weight · row entry and the other row entry · weight; a product of extended reals commutes, so the summed arrays agree.
  With the dense stages already identified with the specification's functions, a whole layer, the chain of eight layers
  and the final result agree.
-/
import proofs.«141911_j13975823581435_1_alg».proof.Proof.RefStages
import proofs.«141911_j13975823581435_1_alg».proof.Proof.RefStagesIdx
import proofs.«141911_j13975823581435_1_alg».proof.Proof.KOut

noncomputable section

namespace Cert.OutBridge

open Idealize.ShloMosaic
open Cert.ReferenceIdeal.Stages
open Cert.ReferenceIdeal (S100000x256 S2x1600000 S256x64 S64 S8x64x64 S64x64 S100000x64 S1700000 S1x64x64)
open Cert.KernelIdeal.KStages (srcK dstK dinvK normK aggK wselK)
open Cert.KernelIdeal.KOut (stepK layersK outK)

/-- An entrywise product of two arrays of extended reals does not depend on the order of the factors. -/
theorem mulf_comm {s : Shape} {φ : FTy} (a b : FVec Ideal s φ) : mulf a b = mulf b a :=
  funext fun i => mul_comm (a i) (b i)

/-- The source index vectors are the same function of the edge list. -/
theorem src_eq (e : IA Ideal S2x1600000) : srcR (F := Ideal) e = srcK e := rfl

/-- The destination index vectors are the same function of the edge list. -/
theorem dst_eq (e : IA Ideal S2x1600000) : dstR (F := Ideal) e = dstK e := rfl

/-- deg^(−1/2) is the same function of the destination indices. -/
theorem dinv_eq (dst : IA Ideal S1700000) : dinvR (F := Ideal) dst = dinvK dst := rfl

/-- The edge weights are the same function of the index vectors. -/
theorem norm_eq (src dst : IA Ideal S1700000) : normR (F := Ideal) src dst = normK src dst := rfl

/-- One layer's weights are the same slice of the stack. -/
theorem wsel_eq (off : Fin 3 → Nat) (hoff : S8x64x64.Slices off S1x64x64) (w4 : FA Ideal S8x64x64) :
    wselR (F := Ideal) off hoff w4 = wselK off hoff w4 := rfl

/-- The neighbour aggregations agree: the summands are the same products with the factors exchanged. -/
theorem agg_eq (nrm : FA Ideal S1700000) (src dst : IA Ideal S1700000) (h : FA Ideal S100000x64) :
    aggR (F := Ideal) nrm src dst h = aggK nrm src dst h := by
  unfold aggR
  rw [mulf_comm]
  rfl

/-- A whole layer agrees: the aggregate, the layer's weights and the dense part each do. -/
theorem step_eq (c1 c2 : BitVec 32) (off : Fin 3 → Nat) (hoff : S8x64x64.Slices off S1x64x64)
    (nrm : FA Ideal S1700000) (src dst : IA Ideal S1700000) (x0 : FA Ideal S100000x64) (w4 : FA Ideal S8x64x64)
    (h : FA Ideal S100000x64) :
    stepR (F := Ideal) c1 c2 off hoff nrm src dst x0 w4 h = stepK c1 c2 off hoff nrm src dst x0 w4 h := by
  unfold stepR stepK
  rw [layerR_eq, agg_eq, wsel_eq]

/-- The chain of eight layers agrees, layer by layer from the inside out. -/
theorem layers_eq (nrm : FA Ideal S1700000) (src dst : IA Ideal S1700000) (x0 : FA Ideal S100000x64)
    (w4 : FA Ideal S8x64x64) : layersR (F := Ideal) nrm src dst x0 w4 = layersK nrm src dst x0 w4 := by
  unfold layersR
  simp only [step_eq]
  rfl

/-- The two programs compute the same result from the same seven arrays. -/
theorem out_eq (x : FA Ideal S100000x256) (e : IA Ideal S2x1600000) (w : FA Ideal S256x64) (b : FA Ideal S64)
    (w4 : FA Ideal S8x64x64) (wo : FA Ideal S64x64) (bo : FA Ideal S64) :
    outR (F := Ideal) x e w b w4 wo bo = outK x e w b w4 wo bo := by
  unfold outR outK
  rw [projR_eq, layers_eq, norm_eq, src_eq, dst_eq, h0R_eq]

end Cert.OutBridge

end
-- ==== Proof.KStretch.lean ====
/-
  The kernel program's host stretches read back: what each stretch of host operations between two kernel regions leaves
  in the buffers that later segments read, as the named functions of the contents the stretch started from — the edge
  rows, the edge weights and the bias row after the three stretches before the first region; each layer's aggregate
  (the edge-weighted sum of the previous result's rows) and that layer's 64 × 64 weights; the output bias row — and the
  buffers a stretch does not write, which keep their contents through it.
-/
import proofs.«141911_j13975823581435_1_alg».proof.Proof.KStages
import proofs.«141911_j13975823581435_1_alg».proof.Proof.Gen.KernelIdeal.Launch
import Idealize.ShloMosaic.Lib.StableHlo.Run

set_option maxRecDepth 16384

noncomputable section

namespace Cert.KernelIdeal.KStretch

open Cert.KernelIdeal Cert.KernelIdeal.Gen Cert.KernelIdeal.KStages
open Idealize.ShloMosaic Idealize.ShloMosaic.StableHlo Idealize.ShloMosaic.TcCoe Idealize.SL.Sem

variable {F : FTy → Type} [FloatOps F]

/-! ## The host stretches, each read at the buffers a later segment needs, from any contents `V` -/

theorem pre_src (V : Valuation τ sig (Elt F)) : after hostOps0_2 (after hostOps0_1 (after hostOps0 V)) (Proc.devRef .tc main_v3) = srcK (V (Proc.devRef .tc main_arg1)) := by
  after_results_simp; rfl
theorem pre_dst (V : Valuation τ sig (Elt F)) : after hostOps0_2 (after hostOps0_1 (after hostOps0 V)) (Proc.devRef .tc main_v6) = dstK (V (Proc.devRef .tc main_arg1)) := by
  after_results_simp; rfl
theorem pre_nrm (V : Valuation τ sig (Elt F)) : after hostOps0_2 (after hostOps0_1 (after hostOps0 V)) (Proc.devRef .tc main_v31)
    = normK (srcK (V (Proc.devRef .tc main_arg1))) (dstK (V (Proc.devRef .tc main_arg1))) := by
  after_results_simp; rfl
theorem pre_row (V : Valuation τ sig (Elt F)) : after hostOps0_2 (after hostOps0_1 (after hostOps0 V)) (Proc.devRef .tc main_v32) = rowK (V (Proc.devRef .tc main_arg3)) := by
  after_results_simp; rfl
theorem pre_keep_a0 (V : Valuation τ sig (Elt F)) : after hostOps0_2 (after hostOps0_1 (after hostOps0 V)) (Proc.devRef .tc main_arg0) = V (Proc.devRef .tc main_arg0) := by
  after_results_simp
theorem pre_keep_a2 (V : Valuation τ sig (Elt F)) : after hostOps0_2 (after hostOps0_1 (after hostOps0 V)) (Proc.devRef .tc main_arg2) = V (Proc.devRef .tc main_arg2) := by
  after_results_simp
theorem pre_keep_a4 (V : Valuation τ sig (Elt F)) : after hostOps0_2 (after hostOps0_1 (after hostOps0 V)) (Proc.devRef .tc main_arg4) = V (Proc.devRef .tc main_arg4) := by
  after_results_simp
theorem pre_keep_a5 (V : Valuation τ sig (Elt F)) : after hostOps0_2 (after hostOps0_1 (after hostOps0 V)) (Proc.devRef .tc main_arg5) = V (Proc.devRef .tc main_arg5) := by
  after_results_simp
theorem pre_keep_a6 (V : Valuation τ sig (Elt F)) : after hostOps0_2 (after hostOps0_1 (after hostOps0 V)) (Proc.devRef .tc main_arg6) = V (Proc.devRef .tc main_arg6) := by
  after_results_simp

theorem host1_agg (V : Valuation τ sig (Elt F)) : after hostOps1 V (Proc.devRef .tc main_v46)
    = aggK (V (Proc.devRef .tc main_v31)) (V (Proc.devRef .tc main_v3)) (V (Proc.devRef .tc main_v6)) (V (Proc.devRef .tc main_v33)) := by
  after_results_simp; rfl
theorem host1_w (V : Valuation τ sig (Elt F)) : after hostOps1 V (Proc.devRef .tc main_v48)
    = wselK ![0, 0, 0] slices_S8x64x64_S1x64x64_0_0_0 (V (Proc.devRef .tc main_arg4)) := by
  after_results_simp; rfl
theorem host1_keep_v3 (V : Valuation τ sig (Elt F)) : after hostOps1 V (Proc.devRef .tc main_v3) = V (Proc.devRef .tc main_v3) := by after_results_simp
theorem host1_keep_v6 (V : Valuation τ sig (Elt F)) : after hostOps1 V (Proc.devRef .tc main_v6) = V (Proc.devRef .tc main_v6) := by after_results_simp
theorem host1_keep_v31 (V : Valuation τ sig (Elt F)) : after hostOps1 V (Proc.devRef .tc main_v31) = V (Proc.devRef .tc main_v31) := by after_results_simp
theorem host1_keep_v33 (V : Valuation τ sig (Elt F)) : after hostOps1 V (Proc.devRef .tc main_v33) = V (Proc.devRef .tc main_v33) := by after_results_simp
theorem host1_keep_a4 (V : Valuation τ sig (Elt F)) : after hostOps1 V (Proc.devRef .tc main_arg4) = V (Proc.devRef .tc main_arg4) := by after_results_simp
theorem host1_keep_a5 (V : Valuation τ sig (Elt F)) : after hostOps1 V (Proc.devRef .tc main_arg5) = V (Proc.devRef .tc main_arg5) := by after_results_simp
theorem host1_keep_a6 (V : Valuation τ sig (Elt F)) : after hostOps1 V (Proc.devRef .tc main_arg6) = V (Proc.devRef .tc main_arg6) := by after_results_simp

theorem host2_agg (V : Valuation τ sig (Elt F)) : after hostOps2 V (Proc.devRef .tc main_v62)
    = aggK (V (Proc.devRef .tc main_v31)) (V (Proc.devRef .tc main_v3)) (V (Proc.devRef .tc main_v6)) (V (Proc.devRef .tc main_v49)) := by
  after_results_simp; rfl
theorem host2_w (V : Valuation τ sig (Elt F)) : after hostOps2 V (Proc.devRef .tc main_v64)
    = wselK ![1, 0, 0] slices_S8x64x64_S1x64x64_1_0_0 (V (Proc.devRef .tc main_arg4)) := by
  after_results_simp; rfl
theorem host2_keep_v3 (V : Valuation τ sig (Elt F)) : after hostOps2 V (Proc.devRef .tc main_v3) = V (Proc.devRef .tc main_v3) := by after_results_simp
theorem host2_keep_v6 (V : Valuation τ sig (Elt F)) : after hostOps2 V (Proc.devRef .tc main_v6) = V (Proc.devRef .tc main_v6) := by after_results_simp
theorem host2_keep_v31 (V : Valuation τ sig (Elt F)) : after hostOps2 V (Proc.devRef .tc main_v31) = V (Proc.devRef .tc main_v31) := by after_results_simp
theorem host2_keep_v33 (V : Valuation τ sig (Elt F)) : after hostOps2 V (Proc.devRef .tc main_v33) = V (Proc.devRef .tc main_v33) := by after_results_simp
theorem host2_keep_a4 (V : Valuation τ sig (Elt F)) : after hostOps2 V (Proc.devRef .tc main_arg4) = V (Proc.devRef .tc main_arg4) := by after_results_simp
theorem host2_keep_a5 (V : Valuation τ sig (Elt F)) : after hostOps2 V (Proc.devRef .tc main_arg5) = V (Proc.devRef .tc main_arg5) := by after_results_simp
theorem host2_keep_a6 (V : Valuation τ sig (Elt F)) : after hostOps2 V (Proc.devRef .tc main_arg6) = V (Proc.devRef .tc main_arg6) := by after_results_simp

theorem host3_agg (V : Valuation τ sig (Elt F)) : after hostOps3 V (Proc.devRef .tc main_v78)
    = aggK (V (Proc.devRef .tc main_v31)) (V (Proc.devRef .tc main_v3)) (V (Proc.devRef .tc main_v6)) (V (Proc.devRef .tc main_v65)) := by
  after_results_simp; rfl
theorem host3_w (V : Valuation τ sig (Elt F)) : after hostOps3 V (Proc.devRef .tc main_v80)
    = wselK ![2, 0, 0] slices_S8x64x64_S1x64x64_2_0_0 (V (Proc.devRef .tc main_arg4)) := by
  after_results_simp; rfl
theorem host3_keep_v3 (V : Valuation τ sig (Elt F)) : after hostOps3 V (Proc.devRef .tc main_v3) = V (Proc.devRef .tc main_v3) := by after_results_simp
theorem host3_keep_v6 (V : Valuation τ sig (Elt F)) : after hostOps3 V (Proc.devRef .tc main_v6) = V (Proc.devRef .tc main_v6) := by after_results_simp
theorem host3_keep_v31 (V : Valuation τ sig (Elt F)) : after hostOps3 V (Proc.devRef .tc main_v31) = V (Proc.devRef .tc main_v31) := by after_results_simp
theorem host3_keep_v33 (V : Valuation τ sig (Elt F)) : after hostOps3 V (Proc.devRef .tc main_v33) = V (Proc.devRef .tc main_v33) := by after_results_simp
theorem host3_keep_a4 (V : Valuation τ sig (Elt F)) : after hostOps3 V (Proc.devRef .tc main_arg4) = V (Proc.devRef .tc main_arg4) := by after_results_simp
theorem host3_keep_a5 (V : Valuation τ sig (Elt F)) : after hostOps3 V (Proc.devRef .tc main_arg5) = V (Proc.devRef .tc main_arg5) := by after_results_simp
theorem host3_keep_a6 (V : Valuation τ sig (Elt F)) : after hostOps3 V (Proc.devRef .tc main_arg6) = V (Proc.devRef .tc main_arg6) := by after_results_simp

theorem host4_agg (V : Valuation τ sig (Elt F)) : after hostOps4 V (Proc.devRef .tc main_v94)
    = aggK (V (Proc.devRef .tc main_v31)) (V (Proc.devRef .tc main_v3)) (V (Proc.devRef .tc main_v6)) (V (Proc.devRef .tc main_v81)) := by
  after_results_simp; rfl
theorem host4_w (V : Valuation τ sig (Elt F)) : after hostOps4 V (Proc.devRef .tc main_v96)
    = wselK ![3, 0, 0] slices_S8x64x64_S1x64x64_3_0_0 (V (Proc.devRef .tc main_arg4)) := by
  after_results_simp; rfl
theorem host4_keep_v3 (V : Valuation τ sig (Elt F)) : after hostOps4 V (Proc.devRef .tc main_v3) = V (Proc.devRef .tc main_v3) := by after_results_simp
theorem host4_keep_v6 (V : Valuation τ sig (Elt F)) : after hostOps4 V (Proc.devRef .tc main_v6) = V (Proc.devRef .tc main_v6) := by after_results_simp
theorem host4_keep_v31 (V : Valuation τ sig (Elt F)) : after hostOps4 V (Proc.devRef .tc main_v31) = V (Proc.devRef .tc main_v31) := by after_results_simp
theorem host4_keep_v33 (V : Valuation τ sig (Elt F)) : after hostOps4 V (Proc.devRef .tc main_v33) = V (Proc.devRef .tc main_v33) := by after_results_simp
theorem host4_keep_a4 (V : Valuation τ sig (Elt F)) : after hostOps4 V (Proc.devRef .tc main_arg4) = V (Proc.devRef .tc main_arg4) := by after_results_simp
theorem host4_keep_a5 (V : Valuation τ sig (Elt F)) : after hostOps4 V (Proc.devRef .tc main_arg5) = V (Proc.devRef .tc main_arg5) := by after_results_simp
theorem host4_keep_a6 (V : Valuation τ sig (Elt F)) : after hostOps4 V (Proc.devRef .tc main_arg6) = V (Proc.devRef .tc main_arg6) := by after_results_simp

theorem host5_agg (V : Valuation τ sig (Elt F)) : after hostOps5 V (Proc.devRef .tc main_v110)
    = aggK (V (Proc.devRef .tc main_v31)) (V (Proc.devRef .tc main_v3)) (V (Proc.devRef .tc main_v6)) (V (Proc.devRef .tc main_v97)) := by
  after_results_simp; rfl
theorem host5_w (V : Valuation τ sig (Elt F)) : after hostOps5 V (Proc.devRef .tc main_v112)
    = wselK ![4, 0, 0] slices_S8x64x64_S1x64x64_4_0_0 (V (Proc.devRef .tc main_arg4)) := by
  after_results_simp; rfl
theorem host5_keep_v3 (V : Valuation τ sig (Elt F)) : after hostOps5 V (Proc.devRef .tc main_v3) = V (Proc.devRef .tc main_v3) := by after_results_simp
theorem host5_keep_v6 (V : Valuation τ sig (Elt F)) : after hostOps5 V (Proc.devRef .tc main_v6) = V (Proc.devRef .tc main_v6) := by after_results_simp
theorem host5_keep_v31 (V : Valuation τ sig (Elt F)) : after hostOps5 V (Proc.devRef .tc main_v31) = V (Proc.devRef .tc main_v31) := by after_results_simp
theorem host5_keep_v33 (V : Valuation τ sig (Elt F)) : after hostOps5 V (Proc.devRef .tc main_v33) = V (Proc.devRef .tc main_v33) := by after_results_simp
theorem host5_keep_a4 (V : Valuation τ sig (Elt F)) : after hostOps5 V (Proc.devRef .tc main_arg4) = V (Proc.devRef .tc main_arg4) := by after_results_simp
theorem host5_keep_a5 (V : Valuation τ sig (Elt F)) : after hostOps5 V (Proc.devRef .tc main_arg5) = V (Proc.devRef .tc main_arg5) := by after_results_simp
theorem host5_keep_a6 (V : Valuation τ sig (Elt F)) : after hostOps5 V (Proc.devRef .tc main_arg6) = V (Proc.devRef .tc main_arg6) := by after_results_simp

theorem host6_agg (V : Valuation τ sig (Elt F)) : after hostOps6 V (Proc.devRef .tc main_v126)
    = aggK (V (Proc.devRef .tc main_v31)) (V (Proc.devRef .tc main_v3)) (V (Proc.devRef .tc main_v6)) (V (Proc.devRef .tc main_v113)) := by
  after_results_simp; rfl
theorem host6_w (V : Valuation τ sig (Elt F)) : after hostOps6 V (Proc.devRef .tc main_v128)
    = wselK ![5, 0, 0] slices_S8x64x64_S1x64x64_5_0_0 (V (Proc.devRef .tc main_arg4)) := by
  after_results_simp; rfl
theorem host6_keep_v3 (V : Valuation τ sig (Elt F)) : after hostOps6 V (Proc.devRef .tc main_v3) = V (Proc.devRef .tc main_v3) := by after_results_simp
theorem host6_keep_v6 (V : Valuation τ sig (Elt F)) : after hostOps6 V (Proc.devRef .tc main_v6) = V (Proc.devRef .tc main_v6) := by after_results_simp
theorem host6_keep_v31 (V : Valuation τ sig (Elt F)) : after hostOps6 V (Proc.devRef .tc main_v31) = V (Proc.devRef .tc main_v31) := by after_results_simp
theorem host6_keep_v33 (V : Valuation τ sig (Elt F)) : after hostOps6 V (Proc.devRef .tc main_v33) = V (Proc.devRef .tc main_v33) := by after_results_simp
theorem host6_keep_a4 (V : Valuation τ sig (Elt F)) : after hostOps6 V (Proc.devRef .tc main_arg4) = V (Proc.devRef .tc main_arg4) := by after_results_simp
theorem host6_keep_a5 (V : Valuation τ sig (Elt F)) : after hostOps6 V (Proc.devRef .tc main_arg5) = V (Proc.devRef .tc main_arg5) := by after_results_simp
theorem host6_keep_a6 (V : Valuation τ sig (Elt F)) : after hostOps6 V (Proc.devRef .tc main_arg6) = V (Proc.devRef .tc main_arg6) := by after_results_simp

theorem host7_agg (V : Valuation τ sig (Elt F)) : after hostOps7 V (Proc.devRef .tc main_v142)
    = aggK (V (Proc.devRef .tc main_v31)) (V (Proc.devRef .tc main_v3)) (V (Proc.devRef .tc main_v6)) (V (Proc.devRef .tc main_v129)) := by
  after_results_simp; rfl
theorem host7_w (V : Valuation τ sig (Elt F)) : after hostOps7 V (Proc.devRef .tc main_v144)
    = wselK ![6, 0, 0] slices_S8x64x64_S1x64x64_6_0_0 (V (Proc.devRef .tc main_arg4)) := by
  after_results_simp; rfl
theorem host7_keep_v3 (V : Valuation τ sig (Elt F)) : after hostOps7 V (Proc.devRef .tc main_v3) = V (Proc.devRef .tc main_v3) := by after_results_simp
theorem host7_keep_v6 (V : Valuation τ sig (Elt F)) : after hostOps7 V (Proc.devRef .tc main_v6) = V (Proc.devRef .tc main_v6) := by after_results_simp
theorem host7_keep_v31 (V : Valuation τ sig (Elt F)) : after hostOps7 V (Proc.devRef .tc main_v31) = V (Proc.devRef .tc main_v31) := by after_results_simp
theorem host7_keep_v33 (V : Valuation τ sig (Elt F)) : after hostOps7 V (Proc.devRef .tc main_v33) = V (Proc.devRef .tc main_v33) := by after_results_simp
theorem host7_keep_a4 (V : Valuation τ sig (Elt F)) : after hostOps7 V (Proc.devRef .tc main_arg4) = V (Proc.devRef .tc main_arg4) := by after_results_simp
theorem host7_keep_a5 (V : Valuation τ sig (Elt F)) : after hostOps7 V (Proc.devRef .tc main_arg5) = V (Proc.devRef .tc main_arg5) := by after_results_simp
theorem host7_keep_a6 (V : Valuation τ sig (Elt F)) : after hostOps7 V (Proc.devRef .tc main_arg6) = V (Proc.devRef .tc main_arg6) := by after_results_simp

theorem host8_agg (V : Valuation τ sig (Elt F)) : after hostOps8 V (Proc.devRef .tc main_v158)
    = aggK (V (Proc.devRef .tc main_v31)) (V (Proc.devRef .tc main_v3)) (V (Proc.devRef .tc main_v6)) (V (Proc.devRef .tc main_v145)) := by
  after_results_simp; rfl
theorem host8_w (V : Valuation τ sig (Elt F)) : after hostOps8 V (Proc.devRef .tc main_v160)
    = wselK ![7, 0, 0] slices_S8x64x64_S1x64x64_7_0_0 (V (Proc.devRef .tc main_arg4)) := by
  after_results_simp; rfl
theorem host8_keep_v3 (V : Valuation τ sig (Elt F)) : after hostOps8 V (Proc.devRef .tc main_v3) = V (Proc.devRef .tc main_v3) := by after_results_simp
theorem host8_keep_v6 (V : Valuation τ sig (Elt F)) : after hostOps8 V (Proc.devRef .tc main_v6) = V (Proc.devRef .tc main_v6) := by after_results_simp
theorem host8_keep_v31 (V : Valuation τ sig (Elt F)) : after hostOps8 V (Proc.devRef .tc main_v31) = V (Proc.devRef .tc main_v31) := by after_results_simp
theorem host8_keep_v33 (V : Valuation τ sig (Elt F)) : after hostOps8 V (Proc.devRef .tc main_v33) = V (Proc.devRef .tc main_v33) := by after_results_simp
theorem host8_keep_a4 (V : Valuation τ sig (Elt F)) : after hostOps8 V (Proc.devRef .tc main_arg4) = V (Proc.devRef .tc main_arg4) := by after_results_simp
theorem host8_keep_a5 (V : Valuation τ sig (Elt F)) : after hostOps8 V (Proc.devRef .tc main_arg5) = V (Proc.devRef .tc main_arg5) := by after_results_simp
theorem host8_keep_a6 (V : Valuation τ sig (Elt F)) : after hostOps8 V (Proc.devRef .tc main_arg6) = V (Proc.devRef .tc main_arg6) := by after_results_simp

theorem host9_row (V : Valuation τ sig (Elt F)) : after hostOps9 V (Proc.devRef .tc main_v162) = rowK (V (Proc.devRef .tc main_arg6)) := by
  after_results_simp; rfl
theorem host9_keep_a5 (V : Valuation τ sig (Elt F)) : after hostOps9 V (Proc.devRef .tc main_arg5) = V (Proc.devRef .tc main_arg5) := by after_results_simp
theorem host9_keep_h (V : Valuation τ sig (Elt F)) : after hostOps9 V (Proc.devRef .tc main_v161) = V (Proc.devRef .tc main_v161) := by after_results_simp

end Cert.KernelIdeal.KStretch

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KDenseEluPayload.lean ====
/-
  The input stage's block computation, entry by entry.

  The kernel body of the input stage holds a block of 5000 rows of the node inputs (256 columns), the whole
  [256, 64] weight matrix and the bias as a [1, 64] row.  It multiplies the block by the weights (both operands pass
  through a change of float format that is the identity on the extended reals; the accumulator starts at zero), adds
  the bias row to every row, and applies elu entry by entry: y where y > 0, e^y - 1 elsewhere.  So entry (p, q) of
  what it stores is elu of the sum over k < 256 of block (p, k) * weights (k, q), plus bias (0, q).
-/
import proofs.«141911_j13975823581435_1_alg».proof.Proof.Gen.KernelIdeal.Skeleton
import proofs.«141911_j13975823581435_1_alg».proof.Proof.GcnSpec
import proofs.«141911_j13975823581435_1_alg».proof.Proof.LibPlainDot
import proofs.«141911_j13975823581435_1_alg».proof.Proof.LibRank2Layout
import Idealize.ShloMosaic.Lib.ValueIdx
import Idealize.ShloMosaic.Lib.Pipeline.Value

noncomputable section

open scoped BigOperators

namespace Cert.KernelIdeal.KVal

open Cert.KernelIdeal Cert.KernelIdeal.Gen
open Idealize.ShloMosaic Idealize.ShloMosaic.ValueIdx

/-- Entry (p, q) of the block product plus the bias row, before elu. -/
theorem dense0_block_affine (x0 : Vec Ideal S5000x256 .f32) (x1 : Vec Ideal S256x64 .f32) (x2 : Vec Ideal S1x64 .f32)
    (p : Fin 5000) (q : Fin 64) :
    (addf (matmul dot_S5000x256_S256x64_S5000x64_1_0_0_1_n_n none (truncf .bf16 x0 bitsLt_bf16_f32)
        (truncf .bf16 x1 bitsLt_bf16_f32) (constant (F := Ideal) S5000x64 .f32 0x00000000#32))
      (broadcastTo S5000x64 (shapeCast S1x64 x2 shapeCasts_S1x64_S1x64) broadcasts_S1x64_S5000x64)
        : FVec Ideal S5000x64 .f32) (ix2 p q)
      = (∑ k : Fin 256, x0 (ix2 p k) * x1 (ix2 k q)) + x2 (ix2 (0 : Fin 1) q) := by
  refine (addf_apply _ _ (ix2 p q)).trans ?_
  refine congrArg₂ (· + ·) ?_ ?_
  · refine (Cert.Bridge.matmul_zero_plain dot_S5000x256_S256x64_S5000x64_1_0_0_1_n_n rfl rfl rfl rfl rfl rfl none _ _ p q).trans ?_
    exact Finset.sum_congr rfl fun k _ => rfl
  · exact (Idealize.ShloMosaic.Rank2.bcastRow_apply _ _ p q).trans (congrFun (shapeCast_self x2 _) (ix2 (0 : Fin 1) q))

/-- Entry (p, q) of the input stage's stored block: elu of row p of the block against column q of the weights plus
    the bias row's entry q. -/
theorem dense0_block_apply (x0 : Vec Ideal S5000x256 .f32) (x1 : Vec Ideal S256x64 .f32) (x2 : Vec Ideal S1x64 .f32)
    (p : Fin 5000) (q : Fin 64) :
    Gen.k0_pay1 (F := Ideal) x0 x1 x2 (ix2 p q)
      = Cert.GCN.eluE ((∑ k : Fin 256, x0 (ix2 p k) * x1 (ix2 k q)) + x2 (ix2 (0 : Fin 1) q)) := by
  unfold Gen.k0_pay1
  exact congrArg Cert.GCN.eluE (dense0_block_affine x0 x1 x2 p q)

end Cert.KernelIdeal.KVal

end
-- ==== Proof.KDenseEluArray.lean ====
/-
  The input stage's array after its twenty write-backs.

  The input stage runs over a grid of 20 points.  At point t the body sees rows 5000 t .. 5000 t + 4999 of the node
  inputs (all 256 columns), the whole weight matrix and the whole bias row, and its result is written back to rows
  5000 t .. 5000 t + 4999 of the output array.  Entry (p, q) of the stored block is elu of row p of the block against
  column q of the weights plus the bias entry q; row p of block t is row 5000 t + p of the array, so the written block
  is block t of the whole-array function "elu of row r of the inputs against column q of the weights, plus bias q".
  Row r is written by point r / 5000, so the twenty blocks cover the array and it ends holding that function.
-/
import proofs.«141911_j13975823581435_1_alg».proof.Proof.Gen.KernelIdeal.Frame
import proofs.«141911_j13975823581435_1_alg».proof.Proof.GcnSpec
import proofs.«141911_j13975823581435_1_alg».proof.Proof.KDenseEluPayload
import Idealize.ShloMosaic.Lib.Pipeline.Value

noncomputable section

open scoped BigOperators

namespace Cert.KernelIdeal.KVal

open Cert.KernelIdeal Cert.KernelIdeal.Gen
open Idealize.ShloMosaic Idealize.ShloMosaic.ValueIdx

open Idealize.ShloMosaic.TcCoe
open Idealize.ShloMosaic.Pipeline (Dat)

variable (V : (c : Dev nD) → (b : Ref sig .tc) → Buf (Elt Ideal) ((c : Thread nD τ).loc b))

theorem dense0_zero_off : (![0, 0] : Fin 2 → Nat) = fun _ => 0 := funext fun a => by fin_cases a <;> rfl

/-- The stored block as a function of the block index. -/
theorem dense0_block_fun (x0 : Vec Ideal S5000x256 .f32) (x1 : Vec Ideal S256x64 .f32) (x2 : Vec Ideal S1x64 .f32) :
    Gen.k0_pay1 (F := Ideal) x0 x1 x2
      = fun j : S5000x64.Idx =>
          Cert.GCN.eluE ((∑ k : Fin 256, x0 (ix2 (j 0) k) * x1 (ix2 k (j 1))) + x2 (ix2 (0 : Fin 1) (j 1))) := by
  funext j
  obtain ⟨p, q, rfl⟩ : ∃ (p : Fin 5000) (q : Fin 64), j = ix2 p q := ⟨j 0, j 1, eq_ix2 j⟩
  exact dense0_block_apply x0 x1 x2 p q

/-- The printed index maps over the grid: the input and output windows' block index is (t, 0), the weight and
    bias windows' is (0, 0). -/
theorem dense0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 5000 t + p of the input array. -/
theorem dense0_read_rows (c : Dev nD) (t : Fin cfg0.N) (y : S5000x256.Idx) (i : S100000x256.Idx)
    (h0 : (i 0).val = 5000 * t.val + (y 0).val) (h1 : (i 1).val = (y 1).val) :
    Gen.iblk0 (F := Ideal) V c 0 t y = V c (Pipeline.arrRef spec0 0) i := by
  obtain ⟨e0, e1, -⟩ := dense0_idx_facts t
  unfold Gen.iblk0
  show V c (Pipeline.arrRef spec0 0) (((cfg0.win 0).blk t).view.emb y) = V c (Pipeline.arrRef spec0 0) i
  refine congrArg (V c (Pipeline.arrRef spec0 0)) ?_
  funext a; apply Fin.ext
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The weight block at every point is the weight array. -/
theorem dense0_read_weights (c : Dev nD) (t : Fin cfg0.N) (y : S256x64.Idx) :
    Gen.iblk0 (F := Ideal) V c 1 t y = V c (Pipeline.arrRef spec0 1) y := by
  obtain ⟨-, -, e0, e1, -⟩ := dense0_idx_facts t
  unfold Gen.iblk0
  show V c (Pipeline.arrRef spec0 1) (((cfg0.win 1).blk t).view.emb y) = V c (Pipeline.arrRef spec0 1) y
  refine congrArg (V c (Pipeline.arrRef spec0 1)) ?_
  funext a; apply Fin.ext
  match a with
  | ⟨0, _⟩ => show win0_1.index t (0 : Fin 2) * 256 + 1 * (y 0).val = (y 0).val; omega
  | ⟨1, _⟩ => show win0_1.index t (1 : Fin 2) * 64 + 1 * (y 1).val = (y 1).val; omega

/-- The bias block at every point is the bias row. -/
theorem dense0_read_bias (c : Dev nD) (t : Fin cfg0.N) (y : S1x64.Idx) :
    Gen.iblk0 (F := Ideal) V c 2 t y = V c (Pipeline.arrRef spec0 2) y := by
  obtain ⟨-, -, -, -, e0, e1, -⟩ := dense0_idx_facts t
  unfold Gen.iblk0
  show V c (Pipeline.arrRef spec0 2) (((cfg0.win 2).blk t).view.emb y) = V c (Pipeline.arrRef spec0 2) y
  refine congrArg (V c (Pipeline.arrRef spec0 2)) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Entry (p, q) of the output block at point t sits at row 5000 t + p, column q of the output array. -/
theorem dense0_out_pos (t : Fin cfg0.N) (y : S5000x64.Idx) (i : S100000x64.Idx)
    (hi : i = ((cfg0.win 3).blk t).view.emb y) :
    (i 0).val = 5000 * t.val + (y 0).val ∧ (i 1).val = (y 1).val := by
  obtain ⟨-, -, -, -, -, -, e0, e1⟩ := dense0_idx_facts t
  subst hi
  constructor
  · show win0_3.index t (0 : Fin 2) * 5000 + 1 * (y 0).val = _; omega
  · show win0_3.index t (1 : Fin 2) * 64 + 1 * (y 1).val = _; omega

/-- WHAT POINT t WRITES BACK is block t of the whole-array function: elu of row r of the inputs against column q of
    the weights plus the bias entry q. -/
theorem dense0_flushed (c : Dev nD) (t : Fin cfg0.N) :
    (Gen.dat0 (F := Ideal) V c).flushed 3 t
      = ((cfg0.win 3).blk t).view.read (Elt Ideal)
          (Cert.GCN.dense0 (V c (Pipeline.arrRef spec0 0)) (V c (Pipeline.arrRef spec0 1))
            (fun j => V c (Pipeline.arrRef spec0 2) (ix2 (0 : Fin 1) (j 0)))) := by
  show (cfg0.win 3).cut (grid0.coords t) ((Gen.dat0 (F := Ideal) V c).after 3 t) = _
  rw [Gen.after0_3]
  unfold Gen.out0_3
  rw [View.canon_unit_zero dense0_zero_off]
  simp only [View.ld_unit_zero (S := S5000x256) dense0_zero_off, View.ld_unit_zero (S := S256x64) dense0_zero_off,
    View.ld_unit_zero (S := S1x64) dense0_zero_off]
  funext j
  refine (congrFun (dense0_block_fun (Gen.iblk0 (F := Ideal) V c 0 t) (Gen.iblk0 (F := Ideal) V c 1 t)
    (Gen.iblk0 (F := Ideal) V c 2 t)) j).trans ?_
  obtain ⟨h0, h1⟩ := dense0_out_pos t j _ rfl
  show _ = Cert.GCN.dense0 (V c (Pipeline.arrRef spec0 0)) (V c (Pipeline.arrRef spec0 1))
      (fun j => V c (Pipeline.arrRef spec0 2) (ix2 (0 : Fin 1) (j 0))) (((cfg0.win 3).blk t).view.emb j)
  unfold Cert.GCN.dense0 Cert.GCN.rowdot
  refine congrArg Cert.GCN.eluE ?_
  refine congrArg₂ (· + ·) (Finset.sum_congr rfl fun k _ => congrArg₂ (· * ·) ?_ ?_) ?_
  · exact dense0_read_rows V c t (ix2 (j 0) k) (ix2 ((((cfg0.win 3).blk t).view.emb j) 0) k) h0 rfl
  · refine (dense0_read_weights V c t (ix2 k (j 1))).trans (congrArg (V c (Pipeline.arrRef spec0 1)) ?_)
    exact congrArg (ix2 k) (Fin.ext h1.symm)
  · refine (dense0_read_bias V c t (ix2 (0 : Fin 1) (j 1))).trans (congrArg (V c (Pipeline.arrRef spec0 2)) ?_)
    exact congrArg (ix2 (0 : Fin 1)) (Fin.ext h1.symm)

/-- An index of the output array is in point t's block iff each coordinate is in the block's range on its axis. -/
theorem dense0_mem_blk (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v33).slice (win0_3.rect t)).set ↔ _
  rw [View.set_slice_whole, Rect.mem_set_unit]
  exact Iff.rfl

/-- Every entry of the output array is written back by some point: row r by point r / 5000. -/
theorem dense0_cover (i : S100000x64.Idx) :
    ∃ t : Fin cfg0.N, (cfg0.win 3).flush t = true ∧ i ∈ ((cfg0.win 3).blk t).view.set := by
  have hN : cfg0.N = 20 := Gen.N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨-, -, -, -, -, -, e0, e1⟩ := dense0_idx_facts t
  refine ⟨t, Gen.flush0_3 t, ?_⟩
  rw [dense0_mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE INPUT STAGE'S ARRAY after the region: elu of the inputs times the weights plus the bias, entry by entry. -/
theorem final0 (c : Dev nD) :
    (Gen.dat0 (F := Ideal) V c).arrAt 3 cfg0.N
      = Cert.GCN.dense0 (V c (Pipeline.arrRef spec0 0)) (V c (Pipeline.arrRef spec0 1))
          (fun j => V c (Pipeline.arrRef spec0 2) (ValueIdx.ix2 (0 : Fin 1) (j 0))) :=
  (Gen.dat0 (F := Ideal) V c).arrAt_eq_of_cover 3 _ (fun t _ => dense0_flushed V c t) dense0_cover

end Cert.KernelIdeal.KVal

end
-- ==== Proof.KDenseProjPayload.lean ====
/-
  The output stage's block computation, entry by entry.

  The kernel body of the output stage holds a block of 5000 rows of the node features (64 columns), the whole
  [64, 64] weight matrix and the bias as a [1, 64] row.  It multiplies the block by the weights (both operands pass
  through a change of float format that is the identity on the extended reals; the accumulator starts at zero) and
  adds the bias row to every row.  So entry (p, q) of what it stores is the sum over k < 64 of
  block (p, k) * weights (k, q), plus bias (0, q).
-/
import proofs.«141911_j13975823581435_1_alg».proof.Proof.Gen.KernelIdeal.Skeleton
import proofs.«141911_j13975823581435_1_alg».proof.Proof.LibPlainDot
import proofs.«141911_j13975823581435_1_alg».proof.Proof.LibRank2Layout
import Idealize.ShloMosaic.Lib.ValueIdx
import Idealize.ShloMosaic.Lib.Pipeline.Value

noncomputable section

open scoped BigOperators

namespace Cert.KernelIdeal.KVal

open Cert.KernelIdeal Cert.KernelIdeal.Gen
open Idealize.ShloMosaic Idealize.ShloMosaic.ValueIdx

/-- Entry (p, q) of the output stage's stored block: row p of the block against column q of the weights, plus the
    bias row's entry q. -/
theorem proj_block_apply (x0 : Vec Ideal S5000x64 .f32) (x1 : Vec Ideal S64x64 .f32) (x2 : Vec Ideal S1x64 .f32)
    (p : Fin 5000) (q : Fin 64) :
    Gen.k9_pay1 (F := Ideal) x0 x1 x2 (ix2 p q)
      = (∑ k : Fin 64, x0 (ix2 p k) * x1 (ix2 k q)) + x2 (ix2 (0 : Fin 1) q) := by
  unfold Gen.k9_pay1
  refine (addf_apply _ _ (ix2 p q)).trans ?_
  refine congrArg₂ (· + ·) ?_ ?_
  · refine (Cert.Bridge.matmul_zero_plain dot_S5000x64_S64x64_S5000x64_1_0_0_1_n_n rfl rfl rfl rfl rfl rfl none _ _ p q).trans ?_
    refine Finset.sum_congr rfl fun k _ => ?_
    refine congrArg₂ (· * ·) ?_ ?_
    · exact congrFun (shapeCast_self x0 _) (ix2 p k)
    · rfl
  · exact (Idealize.ShloMosaic.Rank2.bcastRow_apply _ _ p q).trans (congrFun (shapeCast_self x2 _) (ix2 (0 : Fin 1) q))

end Cert.KernelIdeal.KVal

end
-- ==== Proof.KDenseProjArray.lean ====
/-
  The output stage's array after its twenty write-backs.

  The output stage runs over a grid of 20 points.  At point t the body sees rows 5000 t .. 5000 t + 4999 of the node
  features (all 64 columns), the whole weight matrix and the whole bias row, and its result is written back to rows
  5000 t .. 5000 t + 4999 of the output array.  Entry (p, q) of the stored block is row p of the block against
  column q of the weights plus the bias entry q; row p of block t is row 5000 t + p of the array, so the written
  block is block t of the whole-array function "row r of the features against column q of the weights, plus bias q".
  Row r is written by point r / 5000, so the twenty blocks cover the array and it ends holding that function.
-/
import proofs.«141911_j13975823581435_1_alg».proof.Proof.Gen.KernelIdeal.Frame
import proofs.«141911_j13975823581435_1_alg».proof.Proof.GcnSpec
import proofs.«141911_j13975823581435_1_alg».proof.Proof.KDenseProjPayload
import Idealize.ShloMosaic.Lib.Pipeline.Value

noncomputable section

open scoped BigOperators

namespace Cert.KernelIdeal.KVal

open Cert.KernelIdeal Cert.KernelIdeal.Gen
open Idealize.ShloMosaic Idealize.ShloMosaic.ValueIdx

open Idealize.ShloMosaic.TcCoe
open Idealize.ShloMosaic.Pipeline (Dat)

variable (V : (c : Dev nD) → (b : Ref sig .tc) → Buf (Elt Ideal) ((c : Thread nD τ).loc b))

theorem proj_zero_off : (![0, 0] : Fin 2 → Nat) = fun _ => 0 := funext fun a => by fin_cases a <;> rfl

/-- The stored block as a function of the block index. -/
theorem proj_block_fun (x0 : Vec Ideal S5000x64 .f32) (x1 : Vec Ideal S64x64 .f32) (x2 : Vec Ideal S1x64 .f32) :
    Gen.k9_pay1 (F := Ideal) x0 x1 x2
      = fun j : S5000x64.Idx => (∑ k : Fin 64, x0 (ix2 (j 0) k) * x1 (ix2 k (j 1))) + x2 (ix2 (0 : Fin 1) (j 1)) := by
  funext j
  obtain ⟨p, q, rfl⟩ : ∃ (p : Fin 5000) (q : Fin 64), j = ix2 p q := ⟨j 0, j 1, eq_ix2 j⟩
  exact proj_block_apply x0 x1 x2 p q

/-- The printed index maps over the grid: the feature and output windows' block index is (t, 0), the weight and
    bias windows' is (0, 0). -/
theorem proj_idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row p of the feature block at point t is row 5000 t + p of the feature array. -/
theorem proj_read_rows (c : Dev nD) (t : Fin cfg9.N) (y : S5000x64.Idx) (i : S100000x64.Idx)
    (h0 : (i 0).val = 5000 * t.val + (y 0).val) (h1 : (i 1).val = (y 1).val) :
    Gen.iblk9 (F := Ideal) V c 0 t y = V c (Pipeline.arrRef spec9 0) i := by
  obtain ⟨e0, e1, -⟩ := proj_idx_facts t
  unfold Gen.iblk9
  show V c (Pipeline.arrRef spec9 0) (((cfg9.win 0).blk t).view.emb y) = V c (Pipeline.arrRef spec9 0) i
  refine congrArg (V c (Pipeline.arrRef spec9 0)) ?_
  funext a; apply Fin.ext
  match a with
  | ⟨0, _⟩ => show win9_0.index t (0 : Fin 2) * 5000 + 1 * (y 0).val = (i 0).val; omega
  | ⟨1, _⟩ => show win9_0.index t (1 : Fin 2) * 64 + 1 * (y 1).val = (i 1).val; omega

/-- The weight block at every point is the weight array. -/
theorem proj_read_weights (c : Dev nD) (t : Fin cfg9.N) (y : S64x64.Idx) :
    Gen.iblk9 (F := Ideal) V c 1 t y = V c (Pipeline.arrRef spec9 1) y := by
  obtain ⟨-, -, e0, e1, -⟩ := proj_idx_facts t
  unfold Gen.iblk9
  show V c (Pipeline.arrRef spec9 1) (((cfg9.win 1).blk t).view.emb y) = V c (Pipeline.arrRef spec9 1) y
  refine congrArg (V c (Pipeline.arrRef spec9 1)) ?_
  funext a; apply Fin.ext
  match a with
  | ⟨0, _⟩ => show win9_1.index t (0 : Fin 2) * 64 + 1 * (y 0).val = (y 0).val; omega
  | ⟨1, _⟩ => show win9_1.index t (1 : Fin 2) * 64 + 1 * (y 1).val = (y 1).val; omega

/-- The bias block at every point is the bias row. -/
theorem proj_read_bias (c : Dev nD) (t : Fin cfg9.N) (y : S1x64.Idx) :
    Gen.iblk9 (F := Ideal) V c 2 t y = V c (Pipeline.arrRef spec9 2) y := by
  obtain ⟨-, -, -, -, e0, e1, -⟩ := proj_idx_facts t
  unfold Gen.iblk9
  show V c (Pipeline.arrRef spec9 2) (((cfg9.win 2).blk t).view.emb y) = V c (Pipeline.arrRef spec9 2) y
  refine congrArg (V c (Pipeline.arrRef spec9 2)) ?_
  funext a; apply Fin.ext
  match a with
  | ⟨0, _⟩ => show win9_2.index t (0 : Fin 2) * 1 + 1 * (y 0).val = (y 0).val; omega
  | ⟨1, _⟩ => show win9_2.index t (1 : Fin 2) * 64 + 1 * (y 1).val = (y 1).val; omega

/-- Entry (p, q) of the output block at point t sits at row 5000 t + p, column q of the output array. -/
theorem proj_out_pos (t : Fin cfg9.N) (y : S5000x64.Idx) (i : S100000x64.Idx)
    (hi : i = ((cfg9.win 3).blk t).view.emb y) :
    (i 0).val = 5000 * t.val + (y 0).val ∧ (i 1).val = (y 1).val := by
  obtain ⟨-, -, -, -, -, -, e0, e1⟩ := proj_idx_facts t
  subst hi
  constructor
  · show win9_3.index t (0 : Fin 2) * 5000 + 1 * (y 0).val = _; omega
  · show win9_3.index t (1 : Fin 2) * 64 + 1 * (y 1).val = _; omega

/-- WHAT POINT t WRITES BACK is block t of the whole-array function: row r of the features against column q of the
    weights plus the bias entry q. -/
theorem proj_flushed (c : Dev nD) (t : Fin cfg9.N) :
    (Gen.dat9 (F := Ideal) V c).flushed 3 t
      = ((cfg9.win 3).blk t).view.read (Elt Ideal)
          (Cert.GCN.proj (V c (Pipeline.arrRef spec9 0)) (V c (Pipeline.arrRef spec9 1))
            (fun j => V c (Pipeline.arrRef spec9 2) (ix2 (0 : Fin 1) (j 0)))) := by
  show (cfg9.win 3).cut (grid9.coords t) ((Gen.dat9 (F := Ideal) V c).after 3 t) = _
  rw [Gen.after9_3]
  unfold Gen.out9_3
  rw [View.canon_unit_zero proj_zero_off]
  simp only [View.ld_unit_zero (S := S5000x64) proj_zero_off, View.ld_unit_zero (S := S64x64) proj_zero_off,
    View.ld_unit_zero (S := S1x64) proj_zero_off]
  funext j
  refine (congrFun (proj_block_fun (Gen.iblk9 (F := Ideal) V c 0 t) (Gen.iblk9 (F := Ideal) V c 1 t)
    (Gen.iblk9 (F := Ideal) V c 2 t)) j).trans ?_
  obtain ⟨h0, h1⟩ := proj_out_pos t j _ rfl
  show _ = Cert.GCN.proj (V c (Pipeline.arrRef spec9 0)) (V c (Pipeline.arrRef spec9 1))
      (fun j => V c (Pipeline.arrRef spec9 2) (ix2 (0 : Fin 1) (j 0))) (((cfg9.win 3).blk t).view.emb j)
  unfold Cert.GCN.proj Cert.GCN.rowdot
  refine congrArg₂ (· + ·) (Finset.sum_congr rfl fun k _ => congrArg₂ (· * ·) ?_ ?_) ?_
  · exact proj_read_rows V c t (ix2 (j 0) k) (ix2 ((((cfg9.win 3).blk t).view.emb j) 0) k) h0 rfl
  · refine (proj_read_weights V c t (ix2 k (j 1))).trans (congrArg (V c (Pipeline.arrRef spec9 1)) ?_)
    exact congrArg (ix2 k) (Fin.ext h1.symm)
  · refine (proj_read_bias V c t (ix2 (0 : Fin 1) (j 1))).trans (congrArg (V c (Pipeline.arrRef spec9 2)) ?_)
    exact congrArg (ix2 (0 : Fin 1)) (Fin.ext h1.symm)

/-- An index of the output array is in point t's block iff each coordinate is in the block's range on its axis. -/
theorem proj_mem_blk (t : Fin cfg9.N) (i : S100000x64.Idx) :
    i ∈ ((cfg9.win 3).blk t).view.set
      ↔ ∀ a : Fin 2, win9_3.index t a * S5000x64.size a ≤ (i a).val
          ∧ (i a).val < win9_3.index t a * S5000x64.size a + S5000x64.size a := by
  show i ∈ ((View.whole main_v163).slice (win9_3.rect t)).set ↔ _
  rw [View.set_slice_whole, Rect.mem_set_unit]
  exact Iff.rfl

/-- Every entry of the output array is written back by some point: row r by point r / 5000. -/
theorem proj_cover (i : S100000x64.Idx) :
    ∃ t : Fin cfg9.N, (cfg9.win 3).flush t = true ∧ i ∈ ((cfg9.win 3).blk t).view.set := by
  have hN : cfg9.N = 20 := Gen.N_9
  have hi0 : (i 0).val < 100000 := (i 0).isLt
  have hi1 : (i 1).val < 64 := (i 1).isLt
  obtain ⟨t, ht⟩ : ∃ t : Fin cfg9.N, t.val = (i 0).val / 5000 := ⟨⟨(i 0).val / 5000, by rw [hN]; omega⟩, rfl⟩
  obtain ⟨-, -, -, -, -, -, e0, e1⟩ := proj_idx_facts t
  refine ⟨t, Gen.flush9_3 t, ?_⟩
  rw [proj_mem_blk]
  intro a
  match a with
  | ⟨0, _⟩ =>
    show win9_3.index t (0 : Fin 2) * 5000 ≤ (i 0).val ∧ (i 0).val < win9_3.index t (0 : Fin 2) * 5000 + 5000
    omega
  | ⟨1, _⟩ =>
    show win9_3.index t (1 : Fin 2) * 64 ≤ (i 1).val ∧ (i 1).val < win9_3.index t (1 : Fin 2) * 64 + 64
    omega

/-- THE OUTPUT STAGE'S ARRAY after the region: the features times the weights plus the bias, entry by entry. -/
theorem final9 (c : Dev nD) :
    (Gen.dat9 (F := Ideal) V c).arrAt 3 cfg9.N
      = Cert.GCN.proj (V c (Pipeline.arrRef spec9 0)) (V c (Pipeline.arrRef spec9 1))
          (fun j => V c (Pipeline.arrRef spec9 2) (ValueIdx.ix2 (0 : Fin 1) (j 0))) :=
  (Gen.dat9 (F := Ideal) V c).arrAt_eq_of_cover 3 _ (fun t _ => proj_flushed V c t) proj_cover

end Cert.KernelIdeal.KVal

end
-- ==== Proof.KLayerPay.lean ====
/-
  What a layer kernel stores for one block of 5000 nodes, entry by entry, on the extended reals.

  The kernel's eight layer bodies differ only in two f32 words c1 and c2.  Each body takes a block a of the aggregate,
  the matching block h of the input stage's result and the 64 by 64 weights W, forms the half-and-half mix
  s = 1/2 · a + 1/2 · h, multiplies s by W on the matrix unit into a zero accumulator (the roundings to bf16 before
  the product are the identity on the extended reals, and the casts to the same shape move nothing), sets
  o = c1 · s + c2 · (s · W) and stores elu o + o.  So entry (p, q) of the stored block is
  elu o(p, q) + o(p, q) with  o(p, q) = c1 · s(p, q) + c2 · Σ_k s(p, k) · W(k, q),  k < 64.
-/
import proofs.«141911_j13975823581435_1_alg».proof.Proof.Gen.KernelIdeal.Skeleton
import proofs.«141911_j13975823581435_1_alg».proof.Proof.GcnSpec
import proofs.«141911_j13975823581435_1_alg».proof.Proof.LibPlainDot
import Idealize.ShloMosaic.Lib.Pipeline.Value

noncomputable section

open scoped BigOperators

namespace Cert.KernelIdeal.KVal

open Cert.KernelIdeal Cert.KernelIdeal.Gen
open Idealize.ShloMosaic Idealize.ShloMosaic.ValueIdx

/-- The half-and-half mix of two blocks: entry i is 1/2 · a(i) + 1/2 · h(i). -/
def blockMix (a h : S5000x64.Idx → EReal) : S5000x64.Idx → EReal :=
  fun i => Ideal.ofBits .f32 0x3F000000#32 * a i + Ideal.ofBits .f32 0x3F000000#32 * h i

/-- The pre-activation of a layer on one block: o(p, q) = c1 · s(p, q) + c2 · Σ_k s(p, k) · W(k, q), s the mix. -/
def blockPre (c1 c2 : BitVec 32) (a h : S5000x64.Idx → EReal) (w : S64x64.Idx → EReal) (p : Fin 5000) (q : Fin 64) : EReal :=
  Ideal.ofBits .f32 c1 * blockMix a h (ix2 p q)
    + Ideal.ofBits .f32 c2 * ∑ k : Fin 64, blockMix a h (ix2 p k) * w (ix2 k q)

/-- A layer body's stored value as a term of its three loaded blocks, the two words c1 and c2 left as parameters. -/
def layerPay (c1 c2 : BitVec 32) (a h : Vec Ideal S5000x64 .f32) (w : Vec Ideal S64x64 .f32) : FVec Ideal S5000x64 .f32 :=
  let s : FVec Ideal S5000x64 .f32 :=
    addf (mulf (broadcast S5000x64 (Scalar.ofBits .f32 0x3F000000#32)) (shapeCast S5000x64 a shapeCasts_S5000x64_S5000x64))
      (mulf (broadcast S5000x64 (Scalar.ofBits .f32 0x3F000000#32)) (shapeCast S5000x64 h shapeCasts_S5000x64_S5000x64))
  let o : FVec Ideal S5000x64 .f32 :=
    addf (mulf (broadcast S5000x64 (Scalar.ofBits .f32 c1)) s)
      (mulf (broadcast S5000x64 (Scalar.ofBits .f32 c2))
        (matmul dot_S5000x64_S64x64_S5000x64_1_0_0_1_n_n none (truncf .bf16 s bitsLt_bf16_f32)
          (truncf .bf16 (shapeCast S64x64 w shapeCasts_S64x64_S64x64) bitsLt_bf16_f32) (constant S5000x64 .f32 0x00000000#32)))
  addf (select (cmpf .ogt o (broadcast S5000x64 (Scalar.ofBits .f32 0x00000000#32))) o
      (subf (exp o) (broadcast S5000x64 (Scalar.ofBits .f32 0x3F800000#32)))) o

/-- Entry (p, q) of a layer body's stored block: elu o + o at the block's pre-activation o(p, q). -/
theorem layerPay_apply (c1 c2 : BitVec 32) (a h : Vec Ideal S5000x64 .f32) (w : Vec Ideal S64x64 .f32)
    (p : Fin 5000) (q : Fin 64) :
    layerPay c1 c2 a h w (ix2 p q)
      = Cert.GCN.eluE (blockPre c1 c2 a h w p q) + blockPre c1 c2 a h w p q := by
  unfold layerPay
  rw [shapeCast_self, shapeCast_self, shapeCast_self]
  have hm := Cert.Bridge.matmul_zero_plain dot_S5000x64_S64x64_S5000x64_1_0_0_1_n_n rfl rfl rfl rfl rfl rfl none
    (truncf .bf16 (addf (mulf (broadcast S5000x64 (Scalar.ofBits .f32 0x3F000000#32)) a)
      (mulf (broadcast S5000x64 (Scalar.ofBits .f32 0x3F000000#32)) h)) bitsLt_bf16_f32 : FVec Ideal S5000x64 .bf16)
    (truncf .bf16 w bitsLt_bf16_f32 : FVec Ideal S64x64 .bf16) p q
  have ho : Ideal.ofBits .f32 c1 * blockMix a h (ix2 p q)
      + Ideal.ofBits .f32 c2 * (matmul dot_S5000x64_S64x64_S5000x64_1_0_0_1_n_n none
          (truncf .bf16 (addf (mulf (broadcast S5000x64 (Scalar.ofBits .f32 0x3F000000#32)) a)
            (mulf (broadcast S5000x64 (Scalar.ofBits .f32 0x3F000000#32)) h)) bitsLt_bf16_f32 : FVec Ideal S5000x64 .bf16)
          (truncf .bf16 w bitsLt_bf16_f32 : FVec Ideal S64x64 .bf16) (constant S5000x64 .f32 0x00000000#32) (ix2 p q))
      = blockPre c1 c2 a h w p q := by
    exact congrArg (fun z => Ideal.ofBits .f32 c1 * blockMix a h (ix2 p q) + Ideal.ofBits .f32 c2 * z) hm
  rw [← ho]
  rfl

end Cert.KernelIdeal.KVal

end
-- ==== Proof.KLayerBlock.lean ====
/-
  From one block of a layer to the whole arrays.

  A layer kernel works on blocks of 5000 consecutive nodes.  If the two node-indexed blocks it loads are rows
  row(0) … row(4999) of two arrays A and H of 100000 nodes, and the weights it loads are the array W, then entry (p, q)
  of what it stores is entry (row(p), q) of the layer function of A, H and W: the mix at (p, k) of the blocks is the
  mix at (row(p), k) of the arrays, so the two sums over k agree term by term.
-/
import proofs.«141911_j13975823581435_1_alg».proof.Proof.KLayerPay

noncomputable section

open scoped BigOperators

namespace Cert.KernelIdeal.KVal

open Cert.KernelIdeal Cert.KernelIdeal.Gen
open Idealize.ShloMosaic Idealize.ShloMosaic.ValueIdx

/-- The zero offsets of a whole-block access, however they are spelt. -/
theorem zeroOffsets : (![0, 0] : Fin 2 → Nat) = fun _ => 0 := funext fun a => by fin_cases a <;> rfl

/-- Row p of the block with number n (n < 20) is row 5000 · n + p of the node axis. -/
def blockRow (n : Nat) (hn : n < 20) (p : Fin 5000) : Fin 100000 := ⟨5000 * n + p.val, by have := p.isLt; omega⟩

theorem blockRow_val (n : Nat) (hn : n < 20) (p : Fin 5000) : (blockRow n hn p).val = 5000 * n + p.val := rfl

/-- A layer body's stored entry (p, q), when its blocks are rows row(·) of the arrays, is the layer function of the
    arrays at (row(p), q). -/
theorem layerPay_eq_layer (c1 c2 : BitVec 32) (A H : S100000x64.Idx → EReal) (W : S64x64.Idx → EReal)
    (a h : Vec Ideal S5000x64 .f32) (w : Vec Ideal S64x64 .f32) (row : Fin 5000 → Fin 100000)
    (ha : ∀ (p : Fin 5000) (k : Fin 64), a (ix2 p k) = A (ix2 (row p) k))
    (hh : ∀ (p : Fin 5000) (k : Fin 64), h (ix2 p k) = H (ix2 (row p) k))
    (hw : ∀ (k q : Fin 64), w (ix2 k q) = W (ix2 k q)) (p : Fin 5000) (q : Fin 64) :
    layerPay c1 c2 a h w (ix2 p q) = Cert.GCN.layer c1 c2 A H W (ix2 (row p) q) := by
  have hmix : ∀ k : Fin 64, blockMix a h (ix2 p k) = Cert.GCN.mix A H (ix2 (row p) k) := fun k => by
    rw [Cert.GCN.mix_apply, ← ha, ← hh]; rfl
  have hpre : blockPre c1 c2 a h w p q
      = Ideal.ofBits .f32 c1 * Cert.GCN.mix A H (ix2 (row p) q)
        + Ideal.ofBits .f32 c2 * Cert.GCN.rowdot (Cert.GCN.mix A H) W (row p) q := by
    unfold blockPre Cert.GCN.rowdot
    rw [hmix q]
    exact congrArg (fun z => Ideal.ofBits .f32 c1 * Cert.GCN.mix A H (ix2 (row p) q) + Ideal.ofBits .f32 c2 * z)
      (Finset.sum_congr rfl fun k _ => by rw [hmix k, hw])
  rw [layerPay_apply, Cert.GCN.layer_apply, hpre]

end Cert.KernelIdeal.KVal

end
-- ==== Proof.KLayerFinal1.lean ====
/-
  Layer kernel 1, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 1 leaves in the output window's buffer is the layer body's term, at the region's two
    words, of the three loaded blocks: its one store covers the whole buffer and its loads read whole buffers. -/
theorem stored1_eq (a h : Vec Ideal S5000x64 .f32) (w : Vec Ideal S64x64 .f32) :
    out1_3 (F := Ideal) a h w = layerPay 0x3E9D1BD0#32 0x3F317218#32 a h w := by
  unfold out1_3
  rw [View.canon_unit_zero zeroOffsets]
  simp only [View.ld_unit_zero (S := S5000x64) zeroOffsets, View.ld_unit_zero (S := S64x64) zeroOffsets]
  rfl

/-- The grid of region 1 has 20 points. -/
theorem point_lt1 (t : Fin cfg1.N) : t.val < 20 := by
  have h : t.val < grid1.N := t.isLt
  rw [N_1] at h
  exact h

/-- The printed index maps, decided over the grid: the three node-indexed windows sit at block (t, 0), the weights'
    window at block (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Element (p, k) of the aggregate's block at point t sits at row 5000 · t + p, column k of its array. -/
theorem posAgg1 (t : Fin cfg1.N) (p : Fin 5000) (k : Fin 64) :
    ((cfg1.win 0).blk t).view.emb (ix2 p k) = (ix2 (blockRow t.val (point_lt1 t) p) k : S100000x64.Idx) := by
  obtain ⟨e0, e1, -⟩ := blockIdx1 t
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- Element (p, k) of the input stage's block at point t sits at row 5000 · t + p, column k of its array. -/
theorem posInit1 (t : Fin cfg1.N) (p : Fin 5000) (k : Fin 64) :
    ((cfg1.win 1).blk t).view.emb (ix2 p k) = (ix2 (blockRow t.val (point_lt1 t) p) k : S100000x64.Idx) := by
  obtain ⟨-, -, e0, e1, -⟩ := blockIdx1 t
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- Element (k, q) of the weights' block at any point sits at (k, q) of the weight array. -/
theorem posWeights1 (t : Fin cfg1.N) (k q : Fin 64) :
    ((cfg1.win 2).blk t).view.emb (ix2 k q) = (ix2 k q : S64x64.Idx) := by
  obtain ⟨-, -, -, -, e0, e1, -⟩ := blockIdx1 t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- Element (p, q) of the output's block at point t sits at row 5000 · t + p, column q of the output array. -/
theorem posOut1 (t : Fin cfg1.N) (p : Fin 5000) (q : Fin 64) :
    ((cfg1.win 3).blk t).view.emb (ix2 p q) = (ix2 (blockRow t.val (point_lt1 t) p) q : S100000x64.Idx) := by
  obtain ⟨-, -, -, -, -, -, e0, e1⟩ := blockIdx1 t
  funext a; apply Fin.ext
  match a with
  | ⟨0, _⟩ => show win1_3.index t (0 : Fin 2) * 5000 + 1 * p.val = 5000 * t.val + p.val; omega
  | ⟨1, _⟩ => show win1_3.index t (1 : Fin 2) * 64 + 1 * q.val = q.val; omega

/-- The aggregate's block at point t is rows 5000 · t … of its array. -/
theorem readAgg1 (c : Dev nD) (t : Fin cfg1.N) (p : Fin 5000) (k : Fin 64) :
    (iblk1 V c 0 t : Vec Ideal S5000x64 .f32) (ix2 p k)
      = (V c (Pipeline.arrRef spec1 0) : S100000x64.Idx → EReal) (ix2 (blockRow t.val (point_lt1 t) p) k) :=
  congrArg (V c (Pipeline.arrRef spec1 0)) (posAgg1 t p k)

/-- The input stage's block at point t is rows 5000 · t … of its array. -/
theorem readInit1 (c : Dev nD) (t : Fin cfg1.N) (p : Fin 5000) (k : Fin 64) :
    (iblk1 V c 1 t : Vec Ideal S5000x64 .f32) (ix2 p k)
      = (V c (Pipeline.arrRef spec1 1) : S100000x64.Idx → EReal) (ix2 (blockRow t.val (point_lt1 t) p) k) :=
  congrArg (V c (Pipeline.arrRef spec1 1)) (posInit1 t p k)

/-- The weights' block at every point is the whole weight array. -/
theorem readWeights1 (c : Dev nD) (t : Fin cfg1.N) (k q : Fin 64) :
    (iblk1 V c 2 t : Vec Ideal S64x64 .f32) (ix2 k q)
      = (V c (Pipeline.arrRef spec1 2) : S64x64.Idx → EReal) (ix2 k q) :=
  congrArg (V c (Pipeline.arrRef spec1 2)) (posWeights1 t k q)

/-- Entry (p, q) of what the body stores at point t is entry (5000 · t + p, q) of the layer function of the three
    arrays as the region finds them. -/
theorem entry1 (c : Dev nD) (t : Fin cfg1.N) (p : Fin 5000) (q : Fin 64) :
    layerPay 0x3E9D1BD0#32 0x3F317218#32 (iblk1 V c 0 t) (iblk1 V c 1 t) (iblk1 V c 2 t) (ix2 p q)
      = Cert.GCN.layer 0x3E9D1BD0#32 0x3F317218#32 (V c (Pipeline.arrRef spec1 0)) (V c (Pipeline.arrRef spec1 1))
          (V c (Pipeline.arrRef spec1 2)) (ix2 (blockRow t.val (point_lt1 t) p) q) :=
  layerPay_eq_layer 0x3E9D1BD0#32 0x3F317218#32 _ _ _ _ _ _ (blockRow t.val (point_lt1 t))
    (readAgg1 V c t) (readInit1 V c t) (readWeights1 V c t) p q

/-- Any contents of the output array, read through point t's block at (p, q), are read at (5000 · t + p, q). -/
theorem readOut1 (c : Dev nD) (t : Fin cfg1.N) (G : S100000x64.Idx → EReal) (p : Fin 5000) (q : Fin 64) :
    ((cfg1.win 3).blk t).view.read (Elt Ideal) G (ix2 p q) = G (ix2 (blockRow t.val (point_lt1 t) p) q) :=
  congrArg G (posOut1 t p q)

/-- What point t writes back is block t of the layer function of the three arrays as the region finds them. -/
theorem flushed1_eq (c : Dev nD) (t : Fin cfg1.N) :
    (dat1 (F := Ideal) V c).flushed 3 t = ((cfg1.win 3).blk t).view.read (Elt Ideal)
      (Cert.GCN.layer 0x3E9D1BD0#32 0x3F317218#32 (V c (Pipeline.arrRef spec1 0)) (V c (Pipeline.arrRef spec1 1))
        (V c (Pipeline.arrRef spec1 2))) := by
  show (cfg1.win 3).cut (grid1.coords t) ((dat1 (F := Ideal) V c).after 3 t) = _
  rw [after1_3, stored1_eq]
  funext j
  obtain ⟨p, q, rfl⟩ : ∃ (p : Fin 5000) (q : Fin 64), j = (ix2 p q : S5000x64.Idx) :=
    ⟨j 0, j 1, eq_ix2 (n0 := 5000) (n1 := 64) j⟩
  exact (entry1 V c t p q).trans (readOut1 c t _ p q).symm

/-- An index of the output array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v49).slice (win1_3.rect t)).set ↔ _
  rw [View.set_slice_whole, Rect.mem_set_unit]
  exact Iff.rfl

/-- Row r of the output array is written back by point r / 5000. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; rw [hN]; omega⟩
  have ht : t.val = (i 0).val / 5000 := rfl
  obtain ⟨-, -, -, -, -, -, e0, e1⟩ := blockIdx1 t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY of layer kernel 1 after its twenty write-backs: the layer function of the aggregate, the input
    stage's result and the weights as the region finds them. -/
theorem final1 (c : Dev nD) :
    (dat1 (F := Ideal) V c).arrAt 3 cfg1.N
      = Cert.GCN.layer 0x3E9D1BD0#32 0x3F317218#32 (V c (Pipeline.arrRef spec1 0)) (V c (Pipeline.arrRef spec1 1))
          (V c (Pipeline.arrRef spec1 2)) :=
  (dat1 (F := Ideal) V c).arrAt_eq_of_cover 3 _ (fun t _ => flushed1_eq V c t) (covered1)

end Cert.KernelIdeal.KVal

end
-- ==== Proof.KLayerFinal2.lean ====
/-
  Layer kernel 2, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 2 leaves in the output window's buffer is the layer body's term, at the region's two
    words, of the three loaded blocks: its one store covers the whole buffer and its loads read whole buffers. -/
theorem stored2_eq (a h : Vec Ideal S5000x64 .f32) (w : Vec Ideal S64x64 .f32) :
    out2_3 (F := Ideal) a h w = layerPay 0x3F183370#32 0x3ECF991F#32 a h w := by
  unfold out2_3
  rw [View.canon_unit_zero zeroOffsets]
  simp only [View.ld_unit_zero (S := S5000x64) zeroOffsets, View.ld_unit_zero (S := S64x64) zeroOffsets]
  rfl

/-- The grid of region 2 has 20 points. -/
theorem point_lt2 (t : Fin cfg2.N) : t.val < 20 := by
  have h : t.val < grid2.N := t.isLt
  rw [N_2] at h
  exact h

/-- The printed index maps, decided over the grid: the three node-indexed windows sit at block (t, 0), the weights'
    window at block (0, 0). -/
theorem blockIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Element (p, k) of the aggregate's block at point t sits at row 5000 · t + p, column k of its array. -/
theorem posAgg2 (t : Fin cfg2.N) (p : Fin 5000) (k : Fin 64) :
    ((cfg2.win 0).blk t).view.emb (ix2 p k) = (ix2 (blockRow t.val (point_lt2 t) p) k : S100000x64.Idx) := by
  obtain ⟨e0, e1, -⟩ := blockIdx2 t
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- Element (p, k) of the input stage's block at point t sits at row 5000 · t + p, column k of its array. -/
theorem posInit2 (t : Fin cfg2.N) (p : Fin 5000) (k : Fin 64) :
    ((cfg2.win 1).blk t).view.emb (ix2 p k) = (ix2 (blockRow t.val (point_lt2 t) p) k : S100000x64.Idx) := by
  obtain ⟨-, -, e0, e1, -⟩ := blockIdx2 t
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- Element (k, q) of the weights' block at any point sits at (k, q) of the weight array. -/
theorem posWeights2 (t : Fin cfg2.N) (k q : Fin 64) :
    ((cfg2.win 2).blk t).view.emb (ix2 k q) = (ix2 k q : S64x64.Idx) := by
  obtain ⟨-, -, -, -, e0, e1, -⟩ := blockIdx2 t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- Element (p, q) of the output's block at point t sits at row 5000 · t + p, column q of the output array. -/
theorem posOut2 (t : Fin cfg2.N) (p : Fin 5000) (q : Fin 64) :
    ((cfg2.win 3).blk t).view.emb (ix2 p q) = (ix2 (blockRow t.val (point_lt2 t) p) q : S100000x64.Idx) := by
  obtain ⟨-, -, -, -, -, -, e0, e1⟩ := blockIdx2 t
  funext a; apply Fin.ext
  match a with
  | ⟨0, _⟩ => show win2_3.index t (0 : Fin 2) * 5000 + 1 * p.val = 5000 * t.val + p.val; omega
  | ⟨1, _⟩ => show win2_3.index t (1 : Fin 2) * 64 + 1 * q.val = q.val; omega

/-- The aggregate's block at point t is rows 5000 · t … of its array. -/
theorem readAgg2 (c : Dev nD) (t : Fin cfg2.N) (p : Fin 5000) (k : Fin 64) :
    (iblk2 V c 0 t : Vec Ideal S5000x64 .f32) (ix2 p k)
      = (V c (Pipeline.arrRef spec2 0) : S100000x64.Idx → EReal) (ix2 (blockRow t.val (point_lt2 t) p) k) :=
  congrArg (V c (Pipeline.arrRef spec2 0)) (posAgg2 t p k)

/-- The input stage's block at point t is rows 5000 · t … of its array. -/
theorem readInit2 (c : Dev nD) (t : Fin cfg2.N) (p : Fin 5000) (k : Fin 64) :
    (iblk2 V c 1 t : Vec Ideal S5000x64 .f32) (ix2 p k)
      = (V c (Pipeline.arrRef spec2 1) : S100000x64.Idx → EReal) (ix2 (blockRow t.val (point_lt2 t) p) k) :=
  congrArg (V c (Pipeline.arrRef spec2 1)) (posInit2 t p k)

/-- The weights' block at every point is the whole weight array. -/
theorem readWeights2 (c : Dev nD) (t : Fin cfg2.N) (k q : Fin 64) :
    (iblk2 V c 2 t : Vec Ideal S64x64 .f32) (ix2 k q)
      = (V c (Pipeline.arrRef spec2 2) : S64x64.Idx → EReal) (ix2 k q) :=
  congrArg (V c (Pipeline.arrRef spec2 2)) (posWeights2 t k q)

/-- Entry (p, q) of what the body stores at point t is entry (5000 · t + p, q) of the layer function of the three
    arrays as the region finds them. -/
theorem entry2 (c : Dev nD) (t : Fin cfg2.N) (p : Fin 5000) (q : Fin 64) :
    layerPay 0x3F183370#32 0x3ECF991F#32 (iblk2 V c 0 t) (iblk2 V c 1 t) (iblk2 V c 2 t) (ix2 p q)
      = Cert.GCN.layer 0x3F183370#32 0x3ECF991F#32 (V c (Pipeline.arrRef spec2 0)) (V c (Pipeline.arrRef spec2 1))
          (V c (Pipeline.arrRef spec2 2)) (ix2 (blockRow t.val (point_lt2 t) p) q) :=
  layerPay_eq_layer 0x3F183370#32 0x3ECF991F#32 _ _ _ _ _ _ (blockRow t.val (point_lt2 t))
    (readAgg2 V c t) (readInit2 V c t) (readWeights2 V c t) p q

/-- Any contents of the output array, read through point t's block at (p, q), are read at (5000 · t + p, q). -/
theorem readOut2 (c : Dev nD) (t : Fin cfg2.N) (G : S100000x64.Idx → EReal) (p : Fin 5000) (q : Fin 64) :
    ((cfg2.win 3).blk t).view.read (Elt Ideal) G (ix2 p q) = G (ix2 (blockRow t.val (point_lt2 t) p) q) :=
  congrArg G (posOut2 t p q)

/-- What point t writes back is block t of the layer function of the three arrays as the region finds them. -/
theorem flushed2_eq (c : Dev nD) (t : Fin cfg2.N) :
    (dat2 (F := Ideal) V c).flushed 3 t = ((cfg2.win 3).blk t).view.read (Elt Ideal)
      (Cert.GCN.layer 0x3F183370#32 0x3ECF991F#32 (V c (Pipeline.arrRef spec2 0)) (V c (Pipeline.arrRef spec2 1))
        (V c (Pipeline.arrRef spec2 2))) := by
  show (cfg2.win 3).cut (grid2.coords t) ((dat2 (F := Ideal) V c).after 3 t) = _
  rw [after2_3, stored2_eq]
  funext j
  obtain ⟨p, q, rfl⟩ : ∃ (p : Fin 5000) (q : Fin 64), j = (ix2 p q : S5000x64.Idx) :=
    ⟨j 0, j 1, eq_ix2 (n0 := 5000) (n1 := 64) j⟩
  exact (entry2 V c t p q).trans (readOut2 c t _ p q).symm

/-- An index of the output array is in point t's block iff each coordinate is in the block's range on its axis. -/
theorem mem_block2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v65).slice (win2_3.rect t)).set ↔ _
  rw [View.set_slice_whole, Rect.mem_set_unit]
  exact Iff.rfl

/-- Row r of the output array is written back by point r / 5000. -/
theorem covered2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; rw [hN]; omega⟩
  have ht : t.val = (i 0).val / 5000 := rfl
  obtain ⟨-, -, -, -, -, -, e0, e1⟩ := blockIdx2 t
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE OUTPUT ARRAY of layer kernel 2 after its twenty write-backs: the layer function of the aggregate, the input
    stage's result and the weights as the region finds them. -/
theorem final2 (c : Dev nD) :
    (dat2 (F := Ideal) V c).arrAt 3 cfg2.N
      = Cert.GCN.layer 0x3F183370#32 0x3ECF991F#32 (V c (Pipeline.arrRef spec2 0)) (V c (Pipeline.arrRef spec2 1))
          (V c (Pipeline.arrRef spec2 2)) :=
  (dat2 (F := Ideal) V c).arrAt_eq_of_cover 3 _ (fun t _ => flushed2_eq V c t) (covered2)

end Cert.KernelIdeal.KVal

end
-- ==== Proof.KLayerFinal3.lean ====
/-
  Layer kernel 3, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 3 leaves in the output window's buffer is the layer body's term, at the region's two
    words, of the three loaded blocks: its one store covers the whole buffer and its loads read whole buffers. -/
theorem stored3_eq (a h : Vec Ideal S5000x64 .f32) (w : Vec Ideal S64x64 .f32) :
    out3_3 (F := Ideal) a h w = layerPay 0x3F365A78#32 0x3E934B11#32 a h w := by
  unfold out3_3
  rw [View.canon_unit_zero zeroOffsets]
  simp only [View.ld_unit_zero (S := S5000x64) zeroOffsets, View.ld_unit_zero (S := S64x64) zeroOffsets]
  rfl

/-- The grid of region 3 has 20 points. -/
theorem point_lt3 (t : Fin cfg3.N) : t.val < 20 := by
  have h : t.val < grid3.N := t.isLt
  rw [N_3] at h
  exact h

/-- The printed index maps, decided over the grid: the three node-indexed windows sit at block (t, 0), the weights'
    window at block (0, 0). -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Element (p, k) of the aggregate's block at point t sits at row 5000 · t + p, column k of its array. -/
theorem posAgg3 (t : Fin cfg3.N) (p : Fin 5000) (k : Fin 64) :
    ((cfg3.win 0).blk t).view.emb (ix2 p k) = (ix2 (blockRow t.val (point_lt3 t) p) k : S100000x64.Idx) := by
  obtain ⟨e0, e1, -⟩ := blockIdx3 t
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega

/-- Element (p, k) of the input stage's block at point t sits at row 5000 · t + p, column k of its array. -/
theorem posInit3 (t : Fin cfg3.N) (p : Fin 5000) (k : Fin 64) :
    ((cfg3.win 1).blk t).view.emb (ix2 p k) = (ix2 (blockRow t.val (point_lt3 t) p) k : S100000x64.Idx) := by
  obtain ⟨-, -, e0, e1, -⟩ := blockIdx3 t
  funext a; apply Fin.ext
  match a with
  | ⟨0, _⟩ => show win3_1.index t (0 : Fin 2) * 5000 + 1 * p.val = 5000 * t.val + p.val; omega
  | ⟨1, _⟩ => show win3_1.index t (1 : Fin 2) * 64 + 1 * k.val = k.val; omega

/-- Element (k, q) of the weights' block at any point sits at (k, q) of the weight array. -/
theorem posWeights3 (t : Fin cfg3.N) (k q : Fin 64) :
    ((cfg3.win 2).blk t).view.emb (ix2 k q) = (ix2 k q : S64x64.Idx) := by
  obtain ⟨-, -, -, -, e0, e1, -⟩ := blockIdx3 t
  funext a; apply Fin.ext
  match a with
  | ⟨0, _⟩ => show win3_2.index t (0 : Fin 2) * 64 + 1 * k.val = k.val; omega
  | ⟨1, _⟩ => show win3_2.index t (1 : Fin 2) * 64 + 1 * q.val = q.val; omega

/-- Element (p, q) of the output's block at point t sits at row 5000 · t + p, column q of the output array. -/
theorem posOut3 (t : Fin cfg3.N) (p : Fin 5000) (q : Fin 64) :
    ((cfg3.win 3).blk t).view.emb (ix2 p q) = (ix2 (blockRow t.val (point_lt3 t) p) q : S100000x64.Idx) := by
  obtain ⟨-, -, -, -, -, -, e0, e1⟩ := blockIdx3 t
  funext a; apply Fin.ext
  match a with
  | ⟨0, _⟩ => show win3_3.index t (0 : Fin 2) * 5000 + 1 * p.val = 5000 * t.val + p.val; omega
  | ⟨1, _⟩ => show win3_3.index t (1 : Fin 2) * 64 + 1 * q.val = q.val; omega

/-- The aggregate's block at point t is rows 5000 · t … of its array. -/
theorem readAgg3 (c : Dev nD) (t : Fin cfg3.N) (p : Fin 5000) (k : Fin 64) :
    (iblk3 V c 0 t : Vec Ideal S5000x64 .f32) (ix2 p k)
      = (V c (Pipeline.arrRef spec3 0) : S100000x64.Idx → EReal) (ix2 (blockRow t.val (point_lt3 t) p) k) :=
  congrArg (V c (Pipeline.arrRef spec3 0)) (posAgg3 t p k)

/-- The input stage's block at point t is rows 5000 · t … of its array. -/
theorem readInit3 (c : Dev nD) (t : Fin cfg3.N) (p : Fin 5000) (k : Fin 64) :
    (iblk3 V c 1 t : Vec Ideal S5000x64 .f32) (ix2 p k)
      = (V c (Pipeline.arrRef spec3 1) : S100000x64.Idx → EReal) (ix2 (blockRow t.val (point_lt3 t) p) k) :=
  congrArg (V c (Pipeline.arrRef spec3 1)) (posInit3 t p k)

/-- The weights' block at every point is the whole weight array. -/
theorem readWeights3 (c : Dev nD) (t : Fin cfg3.N) (k q : Fin 64) :
    (iblk3 V c 2 t : Vec Ideal S64x64 .f32) (ix2 k q)
      = (V c (Pipeline.arrRef spec3 2) : S64x64.Idx → EReal) (ix2 k q) :=
  congrArg (V c (Pipeline.arrRef spec3 2)) (posWeights3 t k q)

/-- Entry (p, q) of what the body stores at point t is entry (5000 · t + p, q) of the layer function of the three
    arrays as the region finds them. -/
theorem entry3 (c : Dev nD) (t : Fin cfg3.N) (p : Fin 5000) (q : Fin 64) :
    layerPay 0x3F365A78#32 0x3E934B11#32 (iblk3 V c 0 t) (iblk3 V c 1 t) (iblk3 V c 2 t) (ix2 p q)
      = Cert.GCN.layer 0x3F365A78#32 0x3E934B11#32 (V c (Pipeline.arrRef spec3 0)) (V c (Pipeline.arrRef spec3 1))
          (V c (Pipeline.arrRef spec3 2)) (ix2 (blockRow t.val (point_lt3 t) p) q) :=
  layerPay_eq_layer 0x3F365A78#32 0x3E934B11#32 _ _ _ _ _ _ (blockRow t.val (point_lt3 t))
    (readAgg3 V c t) (readInit3 V c t) (readWeights3 V c t) p q

/-- Any contents of the output array, read through point t's block at (p, q), are read at (5000 · t + p, q). -/
theorem readOut3 (c : Dev nD) (t : Fin cfg3.N) (G : S100000x64.Idx → EReal) (p : Fin 5000) (q : Fin 64) :
    ((cfg3.win 3).blk t).view.read (Elt Ideal) G (ix2 p q) = G (ix2 (blockRow t.val (point_lt3 t) p) q) :=
  congrArg G (posOut3 t p q)

/-- What point t writes back is block t of the layer function of the three arrays as the region finds them. -/
theorem flushed3_eq (c : Dev nD) (t : Fin cfg3.N) :
    (dat3 (F := Ideal) V c).flushed 3 t = ((cfg3.win 3).blk t).view.read (Elt Ideal)
      (Cert.GCN.layer 0x3F365A78#32 0x3E934B11#32 (V c (Pipeline.arrRef spec3 0)) (V c (Pipeline.arrRef spec3 1))
        (V c (Pipeline.arrRef spec3 2))) := by
  show (cfg3.win 3).cut (grid3.coords t) ((dat3 (F := Ideal) V c).after 3 t) = _
  rw [after3_3, stored3_eq]
  funext j
  obtain ⟨p, q, rfl⟩ : ∃ (p : Fin 5000) (q : Fin 64), j = (ix2 p q : S5000x64.Idx) :=
    ⟨j 0, j 1, eq_ix2 (n0 := 5000) (n1 := 64) j⟩
  exact (entry3 V c t p q).trans (readOut3 c t _ p q).symm

/-- An index of the output array is in point t's block iff each coordinate is in the block's range on its axis. -/
theorem mem_block3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v81).slice (win3_3.rect t)).set ↔ _
  rw [View.set_slice_whole, Rect.mem_set_unit]
  exact Iff.rfl

/-- Row r of the output array is written back by point r / 5000. -/
theorem covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  let t : Fin cfg3.N := ⟨(i 0).val / 5000, by show (i 0).val / 5000 < grid3.N; rw [hN]; omega⟩
  have ht : t.val = (i 0).val / 5000 := rfl
  obtain ⟨-, -, -, -, -, -, e0, e1⟩ := blockIdx3 t
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- THE OUTPUT ARRAY of layer kernel 3 after its twenty write-backs: the layer function of the aggregate, the input
    stage's result and the weights as the region finds them. -/
theorem final3 (c : Dev nD) :
    (dat3 (F := Ideal) V c).arrAt 3 cfg3.N
      = Cert.GCN.layer 0x3F365A78#32 0x3E934B11#32 (V c (Pipeline.arrRef spec3 0)) (V c (Pipeline.arrRef spec3 1))
          (V c (Pipeline.arrRef spec3 2)) :=
  (dat3 (F := Ideal) V c).arrAt_eq_of_cover 3 _ (fun t _ => flushed3_eq V c t) (covered3)

end Cert.KernelIdeal.KVal

end
-- ==== Proof.KLayerFinal4.lean ====
/-
  Layer kernel 4, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 4 leaves in the output window's buffer is the layer body's term, at the region's two
    words, of the three loaded blocks: its one store covers the whole buffer and its loads read whole buffers. -/
theorem stored4_eq (a h : Vec Ideal S5000x64 .f32) (w : Vec Ideal S64x64 .f32) :
    out4_3 (F := Ideal) a h w = layerPay 0x3F46E010#32 0x3E647FBE#32 a h w := by
  unfold out4_3
  rw [View.canon_unit_zero zeroOffsets]
  simp only [View.ld_unit_zero (S := S5000x64) zeroOffsets, View.ld_unit_zero (S := S64x64) zeroOffsets]
  rfl

/-- The grid of region 4 has 20 points. -/
theorem point_lt4 (t : Fin cfg4.N) : t.val < 20 := by
  have h : t.val < grid4.N := t.isLt
  rw [N_4] at h
  exact h

/-- The printed index maps, decided over the grid: the three node-indexed windows sit at block (t, 0), the weights'
    window at block (0, 0). -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Element (p, k) of the aggregate's block at point t sits at row 5000 · t + p, column k of its array. -/
theorem posAgg4 (t : Fin cfg4.N) (p : Fin 5000) (k : Fin 64) :
    ((cfg4.win 0).blk t).view.emb (ix2 p k) = (ix2 (blockRow t.val (point_lt4 t) p) k : S100000x64.Idx) := by
  obtain ⟨e0, e1, -⟩ := blockIdx4 t
  funext a; apply Fin.ext
  match a with
  | ⟨0, _⟩ => show win4_0.index t (0 : Fin 2) * 5000 + 1 * p.val = 5000 * t.val + p.val; omega
  | ⟨1, _⟩ => show win4_0.index t (1 : Fin 2) * 64 + 1 * k.val = k.val; omega

/-- Element (p, k) of the input stage's block at point t sits at row 5000 · t + p, column k of its array. -/
theorem posInit4 (t : Fin cfg4.N) (p : Fin 5000) (k : Fin 64) :
    ((cfg4.win 1).blk t).view.emb (ix2 p k) = (ix2 (blockRow t.val (point_lt4 t) p) k : S100000x64.Idx) := by
  obtain ⟨-, -, e0, e1, -⟩ := blockIdx4 t
  funext a; apply Fin.ext
  match a with
  | ⟨0, _⟩ => show win4_1.index t (0 : Fin 2) * 5000 + 1 * p.val = 5000 * t.val + p.val; omega
  | ⟨1, _⟩ => show win4_1.index t (1 : Fin 2) * 64 + 1 * k.val = k.val; omega

/-- Element (k, q) of the weights' block at any point sits at (k, q) of the weight array. -/
theorem posWeights4 (t : Fin cfg4.N) (k q : Fin 64) :
    ((cfg4.win 2).blk t).view.emb (ix2 k q) = (ix2 k q : S64x64.Idx) := by
  obtain ⟨-, -, -, -, e0, e1, -⟩ := blockIdx4 t
  funext a; apply Fin.ext
  match a with
  | ⟨0, _⟩ => show win4_2.index t (0 : Fin 2) * 64 + 1 * k.val = k.val; omega
  | ⟨1, _⟩ => show win4_2.index t (1 : Fin 2) * 64 + 1 * q.val = q.val; omega

/-- Element (p, q) of the output's block at point t sits at row 5000 · t + p, column q of the output array. -/
theorem posOut4 (t : Fin cfg4.N) (p : Fin 5000) (q : Fin 64) :
    ((cfg4.win 3).blk t).view.emb (ix2 p q) = (ix2 (blockRow t.val (point_lt4 t) p) q : S100000x64.Idx) := by
  obtain ⟨-, -, -, -, -, -, e0, e1⟩ := blockIdx4 t
  funext a; apply Fin.ext
  match a with
  | ⟨0, _⟩ => show win4_3.index t (0 : Fin 2) * 5000 + 1 * p.val = 5000 * t.val + p.val; omega
  | ⟨1, _⟩ => show win4_3.index t (1 : Fin 2) * 64 + 1 * q.val = q.val; omega

/-- The aggregate's block at point t is rows 5000 · t … of its array. -/
theorem readAgg4 (c : Dev nD) (t : Fin cfg4.N) (p : Fin 5000) (k : Fin 64) :
    (iblk4 V c 0 t : Vec Ideal S5000x64 .f32) (ix2 p k)
      = (V c (Pipeline.arrRef spec4 0) : S100000x64.Idx → EReal) (ix2 (blockRow t.val (point_lt4 t) p) k) :=
  congrArg (V c (Pipeline.arrRef spec4 0)) (posAgg4 t p k)

/-- The input stage's block at point t is rows 5000 · t … of its array. -/
theorem readInit4 (c : Dev nD) (t : Fin cfg4.N) (p : Fin 5000) (k : Fin 64) :
    (iblk4 V c 1 t : Vec Ideal S5000x64 .f32) (ix2 p k)
      = (V c (Pipeline.arrRef spec4 1) : S100000x64.Idx → EReal) (ix2 (blockRow t.val (point_lt4 t) p) k) :=
  congrArg (V c (Pipeline.arrRef spec4 1)) (posInit4 t p k)

/-- The weights' block at every point is the whole weight array. -/
theorem readWeights4 (c : Dev nD) (t : Fin cfg4.N) (k q : Fin 64) :
    (iblk4 V c 2 t : Vec Ideal S64x64 .f32) (ix2 k q)
      = (V c (Pipeline.arrRef spec4 2) : S64x64.Idx → EReal) (ix2 k q) :=
  congrArg (V c (Pipeline.arrRef spec4 2)) (posWeights4 t k q)

/-- Entry (p, q) of what the body stores at point t is entry (5000 · t + p, q) of the layer function of the three
    arrays as the region finds them. -/
theorem entry4 (c : Dev nD) (t : Fin cfg4.N) (p : Fin 5000) (q : Fin 64) :
    layerPay 0x3F46E010#32 0x3E647FBE#32 (iblk4 V c 0 t) (iblk4 V c 1 t) (iblk4 V c 2 t) (ix2 p q)
      = Cert.GCN.layer 0x3F46E010#32 0x3E647FBE#32 (V c (Pipeline.arrRef spec4 0)) (V c (Pipeline.arrRef spec4 1))
          (V c (Pipeline.arrRef spec4 2)) (ix2 (blockRow t.val (point_lt4 t) p) q) :=
  layerPay_eq_layer 0x3F46E010#32 0x3E647FBE#32 _ _ _ _ _ _ (blockRow t.val (point_lt4 t))
    (readAgg4 V c t) (readInit4 V c t) (readWeights4 V c t) p q

/-- Any contents of the output array, read through point t's block at (p, q), are read at (5000 · t + p, q). -/
theorem readOut4 (c : Dev nD) (t : Fin cfg4.N) (G : S100000x64.Idx → EReal) (p : Fin 5000) (q : Fin 64) :
    ((cfg4.win 3).blk t).view.read (Elt Ideal) G (ix2 p q) = G (ix2 (blockRow t.val (point_lt4 t) p) q) :=
  congrArg G (posOut4 t p q)

/-- What point t writes back is block t of the layer function of the three arrays as the region finds them. -/
theorem flushed4_eq (c : Dev nD) (t : Fin cfg4.N) :
    (dat4 (F := Ideal) V c).flushed 3 t = ((cfg4.win 3).blk t).view.read (Elt Ideal)
      (Cert.GCN.layer 0x3F46E010#32 0x3E647FBE#32 (V c (Pipeline.arrRef spec4 0)) (V c (Pipeline.arrRef spec4 1))
        (V c (Pipeline.arrRef spec4 2))) := by
  show (cfg4.win 3).cut (grid4.coords t) ((dat4 (F := Ideal) V c).after 3 t) = _
  rw [after4_3, stored4_eq]
  funext j
  obtain ⟨p, q, rfl⟩ : ∃ (p : Fin 5000) (q : Fin 64), j = (ix2 p q : S5000x64.Idx) :=
    ⟨j 0, j 1, eq_ix2 (n0 := 5000) (n1 := 64) j⟩
  exact (entry4 V c t p q).trans (readOut4 c t _ p q).symm

/-- An index of the output array is in point t's block iff each coordinate is in the block's range on its axis. -/
theorem mem_block4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v97).slice (win4_3.rect t)).set ↔ _
  rw [View.set_slice_whole, Rect.mem_set_unit]
  exact Iff.rfl

/-- Row r of the output array is written back by point r / 5000. -/
theorem covered4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 20 := N_4
  let t : Fin cfg4.N := ⟨(i 0).val / 5000, by show (i 0).val / 5000 < grid4.N; rw [hN]; omega⟩
  have ht : t.val = (i 0).val / 5000 := rfl
  obtain ⟨-, -, -, -, -, -, e0, e1⟩ := blockIdx4 t
  refine ⟨t, flush4_3 t, ?_⟩
  rw [mem_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- THE OUTPUT ARRAY of layer kernel 4 after its twenty write-backs: the layer function of the aggregate, the input
    stage's result and the weights as the region finds them. -/
theorem final4 (c : Dev nD) :
    (dat4 (F := Ideal) V c).arrAt 3 cfg4.N
      = Cert.GCN.layer 0x3F46E010#32 0x3E647FBE#32 (V c (Pipeline.arrRef spec4 0)) (V c (Pipeline.arrRef spec4 1))
          (V c (Pipeline.arrRef spec4 2)) :=
  (dat4 (F := Ideal) V c).arrAt_eq_of_cover 3 _ (fun t _ => flushed4_eq V c t) (covered4)

end Cert.KernelIdeal.KVal

end
-- ==== Proof.KLayerFinal5.lean ====
/-
  Layer kernel 5, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 5 leaves in the output window's buffer is the layer body's term, at the region's two
    words, of the three loaded blocks: its one store covers the whole buffer and its loads read whole buffers. -/
theorem stored5_eq (a h : Vec Ideal S5000x64 .f32) (w : Vec Ideal S64x64 .f32) :
    out5_3 (F := Ideal) a h w = layerPay 0x3F515360#32 0x3E3AB281#32 a h w := by
  unfold out5_3
  rw [View.canon_unit_zero zeroOffsets]
  simp only [View.ld_unit_zero (S := S5000x64) zeroOffsets, View.ld_unit_zero (S := S64x64) zeroOffsets]
  rfl

/-- The grid of region 5 has 20 points. -/
theorem point_lt5 (t : Fin cfg5.N) : t.val < 20 := by
  have h : t.val < grid5.N := t.isLt
  rw [N_5] at h
  exact h

/-- The printed index maps, decided over the grid: the three node-indexed windows sit at block (t, 0), the weights'
    window at block (0, 0). -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Element (p, k) of the aggregate's block at point t sits at row 5000 · t + p, column k of its array. -/
theorem posAgg5 (t : Fin cfg5.N) (p : Fin 5000) (k : Fin 64) :
    ((cfg5.win 0).blk t).view.emb (ix2 p k) = (ix2 (blockRow t.val (point_lt5 t) p) k : S100000x64.Idx) := by
  obtain ⟨e0, e1, -⟩ := blockIdx5 t
  funext a; apply Fin.ext
  match a with
  | ⟨0, _⟩ => show win5_0.index t (0 : Fin 2) * 5000 + 1 * p.val = 5000 * t.val + p.val; omega
  | ⟨1, _⟩ => show win5_0.index t (1 : Fin 2) * 64 + 1 * k.val = k.val; omega

/-- Element (p, k) of the input stage's block at point t sits at row 5000 · t + p, column k of its array. -/
theorem posInit5 (t : Fin cfg5.N) (p : Fin 5000) (k : Fin 64) :
    ((cfg5.win 1).blk t).view.emb (ix2 p k) = (ix2 (blockRow t.val (point_lt5 t) p) k : S100000x64.Idx) := by
  obtain ⟨-, -, e0, e1, -⟩ := blockIdx5 t
  funext a; apply Fin.ext
  match a with
  | ⟨0, _⟩ => show win5_1.index t (0 : Fin 2) * 5000 + 1 * p.val = 5000 * t.val + p.val; omega
  | ⟨1, _⟩ => show win5_1.index t (1 : Fin 2) * 64 + 1 * k.val = k.val; omega

/-- Element (k, q) of the weights' block at any point sits at (k, q) of the weight array. -/
theorem posWeights5 (t : Fin cfg5.N) (k q : Fin 64) :
    ((cfg5.win 2).blk t).view.emb (ix2 k q) = (ix2 k q : S64x64.Idx) := by
  obtain ⟨-, -, -, -, e0, e1, -⟩ := blockIdx5 t
  funext a; apply Fin.ext
  match a with
  | ⟨0, _⟩ => show win5_2.index t (0 : Fin 2) * 64 + 1 * k.val = k.val; omega
  | ⟨1, _⟩ => show win5_2.index t (1 : Fin 2) * 64 + 1 * q.val = q.val; omega

/-- Element (p, q) of the output's block at point t sits at row 5000 · t + p, column q of the output array. -/
theorem posOut5 (t : Fin cfg5.N) (p : Fin 5000) (q : Fin 64) :
    ((cfg5.win 3).blk t).view.emb (ix2 p q) = (ix2 (blockRow t.val (point_lt5 t) p) q : S100000x64.Idx) := by
  obtain ⟨-, -, -, -, -, -, e0, e1⟩ := blockIdx5 t
  funext a; apply Fin.ext
  match a with
  | ⟨0, _⟩ => show win5_3.index t (0 : Fin 2) * 5000 + 1 * p.val = 5000 * t.val + p.val; omega
  | ⟨1, _⟩ => show win5_3.index t (1 : Fin 2) * 64 + 1 * q.val = q.val; omega

/-- The aggregate's block at point t is rows 5000 · t … of its array. -/
theorem readAgg5 (c : Dev nD) (t : Fin cfg5.N) (p : Fin 5000) (k : Fin 64) :
    (iblk5 V c 0 t : Vec Ideal S5000x64 .f32) (ix2 p k)
      = (V c (Pipeline.arrRef spec5 0) : S100000x64.Idx → EReal) (ix2 (blockRow t.val (point_lt5 t) p) k) :=
  congrArg (V c (Pipeline.arrRef spec5 0)) (posAgg5 t p k)

/-- The input stage's block at point t is rows 5000 · t … of its array. -/
theorem readInit5 (c : Dev nD) (t : Fin cfg5.N) (p : Fin 5000) (k : Fin 64) :
    (iblk5 V c 1 t : Vec Ideal S5000x64 .f32) (ix2 p k)
      = (V c (Pipeline.arrRef spec5 1) : S100000x64.Idx → EReal) (ix2 (blockRow t.val (point_lt5 t) p) k) :=
  congrArg (V c (Pipeline.arrRef spec5 1)) (posInit5 t p k)

/-- The weights' block at every point is the whole weight array. -/
theorem readWeights5 (c : Dev nD) (t : Fin cfg5.N) (k q : Fin 64) :
    (iblk5 V c 2 t : Vec Ideal S64x64 .f32) (ix2 k q)
      = (V c (Pipeline.arrRef spec5 2) : S64x64.Idx → EReal) (ix2 k q) :=
  congrArg (V c (Pipeline.arrRef spec5 2)) (posWeights5 t k q)

/-- Entry (p, q) of what the body stores at point t is entry (5000 · t + p, q) of the layer function of the three
    arrays as the region finds them. -/
theorem entry5 (c : Dev nD) (t : Fin cfg5.N) (p : Fin 5000) (q : Fin 64) :
    layerPay 0x3F515360#32 0x3E3AB281#32 (iblk5 V c 0 t) (iblk5 V c 1 t) (iblk5 V c 2 t) (ix2 p q)
      = Cert.GCN.layer 0x3F515360#32 0x3E3AB281#32 (V c (Pipeline.arrRef spec5 0)) (V c (Pipeline.arrRef spec5 1))
          (V c (Pipeline.arrRef spec5 2)) (ix2 (blockRow t.val (point_lt5 t) p) q) :=
  layerPay_eq_layer 0x3F515360#32 0x3E3AB281#32 _ _ _ _ _ _ (blockRow t.val (point_lt5 t))
    (readAgg5 V c t) (readInit5 V c t) (readWeights5 V c t) p q

/-- Any contents of the output array, read through point t's block at (p, q), are read at (5000 · t + p, q). -/
theorem readOut5 (c : Dev nD) (t : Fin cfg5.N) (G : S100000x64.Idx → EReal) (p : Fin 5000) (q : Fin 64) :
    ((cfg5.win 3).blk t).view.read (Elt Ideal) G (ix2 p q) = G (ix2 (blockRow t.val (point_lt5 t) p) q) :=
  congrArg G (posOut5 t p q)

/-- What point t writes back is block t of the layer function of the three arrays as the region finds them. -/
theorem flushed5_eq (c : Dev nD) (t : Fin cfg5.N) :
    (dat5 (F := Ideal) V c).flushed 3 t = ((cfg5.win 3).blk t).view.read (Elt Ideal)
      (Cert.GCN.layer 0x3F515360#32 0x3E3AB281#32 (V c (Pipeline.arrRef spec5 0)) (V c (Pipeline.arrRef spec5 1))
        (V c (Pipeline.arrRef spec5 2))) := by
  show (cfg5.win 3).cut (grid5.coords t) ((dat5 (F := Ideal) V c).after 3 t) = _
  rw [after5_3, stored5_eq]
  funext j
  obtain ⟨p, q, rfl⟩ : ∃ (p : Fin 5000) (q : Fin 64), j = (ix2 p q : S5000x64.Idx) :=
    ⟨j 0, j 1, eq_ix2 (n0 := 5000) (n1 := 64) j⟩
  exact (entry5 V c t p q).trans (readOut5 c t _ p q).symm

/-- An index of the output array is in point t's block iff each coordinate is in the block's range on its axis. -/
theorem mem_block5 (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v113).slice (win5_3.rect t)).set ↔ _
  rw [View.set_slice_whole, Rect.mem_set_unit]
  exact Iff.rfl

/-- Row r of the output array is written back by point r / 5000. -/
theorem covered5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 20 := N_5
  let t : Fin cfg5.N := ⟨(i 0).val / 5000, by show (i 0).val / 5000 < grid5.N; rw [hN]; omega⟩
  have ht : t.val = (i 0).val / 5000 := rfl
  obtain ⟨-, -, -, -, -, -, e0, e1⟩ := blockIdx5 t
  refine ⟨t, flush5_3 t, ?_⟩
  rw [mem_block5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- THE OUTPUT ARRAY of layer kernel 5 after its twenty write-backs: the layer function of the aggregate, the input
    stage's result and the weights as the region finds them. -/
theorem final5 (c : Dev nD) :
    (dat5 (F := Ideal) V c).arrAt 3 cfg5.N
      = Cert.GCN.layer 0x3F515360#32 0x3E3AB281#32 (V c (Pipeline.arrRef spec5 0)) (V c (Pipeline.arrRef spec5 1))
          (V c (Pipeline.arrRef spec5 2)) :=
  (dat5 (F := Ideal) V c).arrAt_eq_of_cover 3 _ (fun t _ => flushed5_eq V c t) (covered5)

end Cert.KernelIdeal.KVal

end
-- ==== Proof.KLayerFinal6.lean ====
/-
  Layer kernel 6, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 6 leaves in the output window's buffer is the layer body's term, at the region's two
    words, of the three loaded blocks: its one store covers the whole buffer and its loads read whole buffers. -/
theorem stored6_eq (a h : Vec Ideal S5000x64 .f32) (w : Vec Ideal S64x64 .f32) :
    out6_3 (F := Ideal) a h w = layerPay 0x3F588995#32 0x3E1DD9AD#32 a h w := by
  unfold out6_3
  rw [View.canon_unit_zero zeroOffsets]
  simp only [View.ld_unit_zero (S := S5000x64) zeroOffsets, View.ld_unit_zero (S := S64x64) zeroOffsets]
  rfl

/-- The grid of region 6 has 20 points. -/
theorem point_lt6 (t : Fin cfg6.N) : t.val < 20 := by
  have h : t.val < grid6.N := t.isLt
  rw [N_6] at h
  exact h

/-- The printed index maps, decided over the grid: the three node-indexed windows sit at block (t, 0), the weights'
    window at block (0, 0). -/
theorem blockIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Element (p, k) of the aggregate's block at point t sits at row 5000 · t + p, column k of its array. -/
theorem posAgg6 (t : Fin cfg6.N) (p : Fin 5000) (k : Fin 64) :
    ((cfg6.win 0).blk t).view.emb (ix2 p k) = (ix2 (blockRow t.val (point_lt6 t) p) k : S100000x64.Idx) := by
  obtain ⟨e0, e1, -⟩ := blockIdx6 t
  funext a; apply Fin.ext
  match a with
  | ⟨0, _⟩ => show win6_0.index t (0 : Fin 2) * 5000 + 1 * p.val = 5000 * t.val + p.val; omega
  | ⟨1, _⟩ => show win6_0.index t (1 : Fin 2) * 64 + 1 * k.val = k.val; omega

/-- Element (p, k) of the input stage's block at point t sits at row 5000 · t + p, column k of its array. -/
theorem posInit6 (t : Fin cfg6.N) (p : Fin 5000) (k : Fin 64) :
    ((cfg6.win 1).blk t).view.emb (ix2 p k) = (ix2 (blockRow t.val (point_lt6 t) p) k : S100000x64.Idx) := by
  obtain ⟨-, -, e0, e1, -⟩ := blockIdx6 t
  funext a; apply Fin.ext
  match a with
  | ⟨0, _⟩ => show win6_1.index t (0 : Fin 2) * 5000 + 1 * p.val = 5000 * t.val + p.val; omega
  | ⟨1, _⟩ => show win6_1.index t (1 : Fin 2) * 64 + 1 * k.val = k.val; omega

/-- Element (k, q) of the weights' block at any point sits at (k, q) of the weight array. -/
theorem posWeights6 (t : Fin cfg6.N) (k q : Fin 64) :
    ((cfg6.win 2).blk t).view.emb (ix2 k q) = (ix2 k q : S64x64.Idx) := by
  obtain ⟨-, -, -, -, e0, e1, -⟩ := blockIdx6 t
  funext a; apply Fin.ext
  match a with
  | ⟨0, _⟩ => show win6_2.index t (0 : Fin 2) * 64 + 1 * k.val = k.val; omega
  | ⟨1, _⟩ => show win6_2.index t (1 : Fin 2) * 64 + 1 * q.val = q.val; omega

/-- Element (p, q) of the output's block at point t sits at row 5000 · t + p, column q of the output array. -/
theorem posOut6 (t : Fin cfg6.N) (p : Fin 5000) (q : Fin 64) :
    ((cfg6.win 3).blk t).view.emb (ix2 p q) = (ix2 (blockRow t.val (point_lt6 t) p) q : S100000x64.Idx) := by
  obtain ⟨-, -, -, -, -, -, e0, e1⟩ := blockIdx6 t
  funext a; apply Fin.ext
  match a with
  | ⟨0, _⟩ => show win6_3.index t (0 : Fin 2) * 5000 + 1 * p.val = 5000 * t.val + p.val; omega
  | ⟨1, _⟩ => show win6_3.index t (1 : Fin 2) * 64 + 1 * q.val = q.val; omega

/-- The aggregate's block at point t is rows 5000 · t … of its array. -/
theorem readAgg6 (c : Dev nD) (t : Fin cfg6.N) (p : Fin 5000) (k : Fin 64) :
    (iblk6 V c 0 t : Vec Ideal S5000x64 .f32) (ix2 p k)
      = (V c (Pipeline.arrRef spec6 0) : S100000x64.Idx → EReal) (ix2 (blockRow t.val (point_lt6 t) p) k) :=
  congrArg (V c (Pipeline.arrRef spec6 0)) (posAgg6 t p k)

/-- The input stage's block at point t is rows 5000 · t … of its array. -/
theorem readInit6 (c : Dev nD) (t : Fin cfg6.N) (p : Fin 5000) (k : Fin 64) :
    (iblk6 V c 1 t : Vec Ideal S5000x64 .f32) (ix2 p k)
      = (V c (Pipeline.arrRef spec6 1) : S100000x64.Idx → EReal) (ix2 (blockRow t.val (point_lt6 t) p) k) :=
  congrArg (V c (Pipeline.arrRef spec6 1)) (posInit6 t p k)

/-- The weights' block at every point is the whole weight array. -/
theorem readWeights6 (c : Dev nD) (t : Fin cfg6.N) (k q : Fin 64) :
    (iblk6 V c 2 t : Vec Ideal S64x64 .f32) (ix2 k q)
      = (V c (Pipeline.arrRef spec6 2) : S64x64.Idx → EReal) (ix2 k q) :=
  congrArg (V c (Pipeline.arrRef spec6 2)) (posWeights6 t k q)

/-- Entry (p, q) of what the body stores at point t is entry (5000 · t + p, q) of the layer function of the three
    arrays as the region finds them. -/
theorem entry6 (c : Dev nD) (t : Fin cfg6.N) (p : Fin 5000) (q : Fin 64) :
    layerPay 0x3F588995#32 0x3E1DD9AD#32 (iblk6 V c 0 t) (iblk6 V c 1 t) (iblk6 V c 2 t) (ix2 p q)
      = Cert.GCN.layer 0x3F588995#32 0x3E1DD9AD#32 (V c (Pipeline.arrRef spec6 0)) (V c (Pipeline.arrRef spec6 1))
          (V c (Pipeline.arrRef spec6 2)) (ix2 (blockRow t.val (point_lt6 t) p) q) :=
  layerPay_eq_layer 0x3F588995#32 0x3E1DD9AD#32 _ _ _ _ _ _ (blockRow t.val (point_lt6 t))
    (readAgg6 V c t) (readInit6 V c t) (readWeights6 V c t) p q

/-- Any contents of the output array, read through point t's block at (p, q), are read at (5000 · t + p, q). -/
theorem readOut6 (c : Dev nD) (t : Fin cfg6.N) (G : S100000x64.Idx → EReal) (p : Fin 5000) (q : Fin 64) :
    ((cfg6.win 3).blk t).view.read (Elt Ideal) G (ix2 p q) = G (ix2 (blockRow t.val (point_lt6 t) p) q) :=
  congrArg G (posOut6 t p q)

/-- What point t writes back is block t of the layer function of the three arrays as the region finds them. -/
theorem flushed6_eq (c : Dev nD) (t : Fin cfg6.N) :
    (dat6 (F := Ideal) V c).flushed 3 t = ((cfg6.win 3).blk t).view.read (Elt Ideal)
      (Cert.GCN.layer 0x3F588995#32 0x3E1DD9AD#32 (V c (Pipeline.arrRef spec6 0)) (V c (Pipeline.arrRef spec6 1))
        (V c (Pipeline.arrRef spec6 2))) := by
  show (cfg6.win 3).cut (grid6.coords t) ((dat6 (F := Ideal) V c).after 3 t) = _
  rw [after6_3, stored6_eq]
  funext j
  obtain ⟨p, q, rfl⟩ : ∃ (p : Fin 5000) (q : Fin 64), j = (ix2 p q : S5000x64.Idx) :=
    ⟨j 0, j 1, eq_ix2 (n0 := 5000) (n1 := 64) j⟩
  exact (entry6 V c t p q).trans (readOut6 c t _ p q).symm

/-- An index of the output array is in point t's block iff each coordinate is in the block's range on its axis. -/
theorem mem_block6 (t : Fin cfg6.N) (i : S100000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v129).slice (win6_3.rect t)).set ↔ _
  rw [View.set_slice_whole, Rect.mem_set_unit]
  exact Iff.rfl

/-- Row r of the output array is written back by point r / 5000. -/
theorem covered6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : grid6.N = 20 := N_6
  let t : Fin cfg6.N := ⟨(i 0).val / 5000, by show (i 0).val / 5000 < grid6.N; rw [hN]; omega⟩
  have ht : t.val = (i 0).val / 5000 := rfl
  obtain ⟨-, -, -, -, -, -, e0, e1⟩ := blockIdx6 t
  refine ⟨t, flush6_3 t, ?_⟩
  rw [mem_block6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- THE OUTPUT ARRAY of layer kernel 6 after its twenty write-backs: the layer function of the aggregate, the input
    stage's result and the weights as the region finds them. -/
theorem final6 (c : Dev nD) :
    (dat6 (F := Ideal) V c).arrAt 3 cfg6.N
      = Cert.GCN.layer 0x3F588995#32 0x3E1DD9AD#32 (V c (Pipeline.arrRef spec6 0)) (V c (Pipeline.arrRef spec6 1))
          (V c (Pipeline.arrRef spec6 2)) :=
  (dat6 (F := Ideal) V c).arrAt_eq_of_cover 3 _ (fun t _ => flushed6_eq V c t) (covered6)

end Cert.KernelIdeal.KVal

end
-- ==== Proof.KLayerFinal7.lean ====
/-
  Layer kernel 7, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 7 leaves in the output window's buffer is the layer body's term, at the region's two
    words, of the three loaded blocks: its one store covers the whole buffer and its loads read whole buffers. -/
theorem stored7_eq (a h : Vec Ideal S5000x64 .f32) (w : Vec Ideal S64x64 .f32) :
    out7_3 (F := Ideal) a h w = layerPay 0x3F5DD0E3#32 0x3E08BC74#32 a h w := by
  unfold out7_3
  rw [View.canon_unit_zero zeroOffsets]
  simp only [View.ld_unit_zero (S := S5000x64) zeroOffsets, View.ld_unit_zero (S := S64x64) zeroOffsets]
  rfl

/-- The grid of region 7 has 20 points. -/
theorem point_lt7 (t : Fin cfg7.N) : t.val < 20 := by
  have h : t.val < grid7.N := t.isLt
  rw [N_7] at h
  exact h

/-- The printed index maps, decided over the grid: the three node-indexed windows sit at block (t, 0), the weights'
    window at block (0, 0). -/
theorem blockIdx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Element (p, k) of the aggregate's block at point t sits at row 5000 · t + p, column k of its array. -/
theorem posAgg7 (t : Fin cfg7.N) (p : Fin 5000) (k : Fin 64) :
    ((cfg7.win 0).blk t).view.emb (ix2 p k) = (ix2 (blockRow t.val (point_lt7 t) p) k : S100000x64.Idx) := by
  obtain ⟨e0, e1, -⟩ := blockIdx7 t
  funext a; apply Fin.ext
  match a with
  | ⟨0, _⟩ => show win7_0.index t (0 : Fin 2) * 5000 + 1 * p.val = 5000 * t.val + p.val; omega
  | ⟨1, _⟩ => show win7_0.index t (1 : Fin 2) * 64 + 1 * k.val = k.val; omega

/-- Element (p, k) of the input stage's block at point t sits at row 5000 · t + p, column k of its array. -/
theorem posInit7 (t : Fin cfg7.N) (p : Fin 5000) (k : Fin 64) :
    ((cfg7.win 1).blk t).view.emb (ix2 p k) = (ix2 (blockRow t.val (point_lt7 t) p) k : S100000x64.Idx) := by
  obtain ⟨-, -, e0, e1, -⟩ := blockIdx7 t
  funext a; apply Fin.ext
  match a with
  | ⟨0, _⟩ => show win7_1.index t (0 : Fin 2) * 5000 + 1 * p.val = 5000 * t.val + p.val; omega
  | ⟨1, _⟩ => show win7_1.index t (1 : Fin 2) * 64 + 1 * k.val = k.val; omega

/-- Element (k, q) of the weights' block at any point sits at (k, q) of the weight array. -/
theorem posWeights7 (t : Fin cfg7.N) (k q : Fin 64) :
    ((cfg7.win 2).blk t).view.emb (ix2 k q) = (ix2 k q : S64x64.Idx) := by
  obtain ⟨-, -, -, -, e0, e1, -⟩ := blockIdx7 t
  funext a; apply Fin.ext
  match a with
  | ⟨0, _⟩ => show win7_2.index t (0 : Fin 2) * 64 + 1 * k.val = k.val; omega
  | ⟨1, _⟩ => show win7_2.index t (1 : Fin 2) * 64 + 1 * q.val = q.val; omega

/-- Element (p, q) of the output's block at point t sits at row 5000 · t + p, column q of the output array. -/
theorem posOut7 (t : Fin cfg7.N) (p : Fin 5000) (q : Fin 64) :
    ((cfg7.win 3).blk t).view.emb (ix2 p q) = (ix2 (blockRow t.val (point_lt7 t) p) q : S100000x64.Idx) := by
  obtain ⟨-, -, -, -, -, -, e0, e1⟩ := blockIdx7 t
  funext a; apply Fin.ext
  match a with
  | ⟨0, _⟩ => show win7_3.index t (0 : Fin 2) * 5000 + 1 * p.val = 5000 * t.val + p.val; omega
  | ⟨1, _⟩ => show win7_3.index t (1 : Fin 2) * 64 + 1 * q.val = q.val; omega

/-- The aggregate's block at point t is rows 5000 · t … of its array. -/
theorem readAgg7 (c : Dev nD) (t : Fin cfg7.N) (p : Fin 5000) (k : Fin 64) :
    (iblk7 V c 0 t : Vec Ideal S5000x64 .f32) (ix2 p k)
      = (V c (Pipeline.arrRef spec7 0) : S100000x64.Idx → EReal) (ix2 (blockRow t.val (point_lt7 t) p) k) :=
  congrArg (V c (Pipeline.arrRef spec7 0)) (posAgg7 t p k)

/-- The input stage's block at point t is rows 5000 · t … of its array. -/
theorem readInit7 (c : Dev nD) (t : Fin cfg7.N) (p : Fin 5000) (k : Fin 64) :
    (iblk7 V c 1 t : Vec Ideal S5000x64 .f32) (ix2 p k)
      = (V c (Pipeline.arrRef spec7 1) : S100000x64.Idx → EReal) (ix2 (blockRow t.val (point_lt7 t) p) k) :=
  congrArg (V c (Pipeline.arrRef spec7 1)) (posInit7 t p k)

/-- The weights' block at every point is the whole weight array. -/
theorem readWeights7 (c : Dev nD) (t : Fin cfg7.N) (k q : Fin 64) :
    (iblk7 V c 2 t : Vec Ideal S64x64 .f32) (ix2 k q)
      = (V c (Pipeline.arrRef spec7 2) : S64x64.Idx → EReal) (ix2 k q) :=
  congrArg (V c (Pipeline.arrRef spec7 2)) (posWeights7 t k q)

/-- Entry (p, q) of what the body stores at point t is entry (5000 · t + p, q) of the layer function of the three
    arrays as the region finds them. -/
theorem entry7 (c : Dev nD) (t : Fin cfg7.N) (p : Fin 5000) (q : Fin 64) :
    layerPay 0x3F5DD0E3#32 0x3E08BC74#32 (iblk7 V c 0 t) (iblk7 V c 1 t) (iblk7 V c 2 t) (ix2 p q)
      = Cert.GCN.layer 0x3F5DD0E3#32 0x3E08BC74#32 (V c (Pipeline.arrRef spec7 0)) (V c (Pipeline.arrRef spec7 1))
          (V c (Pipeline.arrRef spec7 2)) (ix2 (blockRow t.val (point_lt7 t) p) q) :=
  layerPay_eq_layer 0x3F5DD0E3#32 0x3E08BC74#32 _ _ _ _ _ _ (blockRow t.val (point_lt7 t))
    (readAgg7 V c t) (readInit7 V c t) (readWeights7 V c t) p q

/-- Any contents of the output array, read through point t's block at (p, q), are read at (5000 · t + p, q). -/
theorem readOut7 (c : Dev nD) (t : Fin cfg7.N) (G : S100000x64.Idx → EReal) (p : Fin 5000) (q : Fin 64) :
    ((cfg7.win 3).blk t).view.read (Elt Ideal) G (ix2 p q) = G (ix2 (blockRow t.val (point_lt7 t) p) q) :=
  congrArg G (posOut7 t p q)

/-- What point t writes back is block t of the layer function of the three arrays as the region finds them. -/
theorem flushed7_eq (c : Dev nD) (t : Fin cfg7.N) :
    (dat7 (F := Ideal) V c).flushed 3 t = ((cfg7.win 3).blk t).view.read (Elt Ideal)
      (Cert.GCN.layer 0x3F5DD0E3#32 0x3E08BC74#32 (V c (Pipeline.arrRef spec7 0)) (V c (Pipeline.arrRef spec7 1))
        (V c (Pipeline.arrRef spec7 2))) := by
  show (cfg7.win 3).cut (grid7.coords t) ((dat7 (F := Ideal) V c).after 3 t) = _
  rw [after7_3, stored7_eq]
  funext j
  obtain ⟨p, q, rfl⟩ : ∃ (p : Fin 5000) (q : Fin 64), j = (ix2 p q : S5000x64.Idx) :=
    ⟨j 0, j 1, eq_ix2 (n0 := 5000) (n1 := 64) j⟩
  exact (entry7 V c t p q).trans (readOut7 c t _ p q).symm

/-- An index of the output array is in point t's block iff each coordinate is in the block's range on its axis. -/
theorem mem_block7 (t : Fin cfg7.N) (i : S100000x64.Idx) :
    i ∈ ((cfg7.win 3).blk t).view.set ↔ ∀ a : Fin 2, win7_3.index t a * S5000x64.size a ≤ (i a).val
      ∧ (i a).val < win7_3.index t a * S5000x64.size a + S5000x64.size a := by
  show i ∈ ((View.whole main_v145).slice (win7_3.rect t)).set ↔ _
  rw [View.set_slice_whole, Rect.mem_set_unit]
  exact Iff.rfl

/-- Row r of the output array is written back by point r / 5000. -/
theorem covered7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : grid7.N = 20 := N_7
  let t : Fin cfg7.N := ⟨(i 0).val / 5000, by show (i 0).val / 5000 < grid7.N; rw [hN]; omega⟩
  have ht : t.val = (i 0).val / 5000 := rfl
  obtain ⟨-, -, -, -, -, -, e0, e1⟩ := blockIdx7 t
  refine ⟨t, flush7_3 t, ?_⟩
  rw [mem_block7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- THE OUTPUT ARRAY of layer kernel 7 after its twenty write-backs: the layer function of the aggregate, the input
    stage's result and the weights as the region finds them. -/
theorem final7 (c : Dev nD) :
    (dat7 (F := Ideal) V c).arrAt 3 cfg7.N
      = Cert.GCN.layer 0x3F5DD0E3#32 0x3E08BC74#32 (V c (Pipeline.arrRef spec7 0)) (V c (Pipeline.arrRef spec7 1))
          (V c (Pipeline.arrRef spec7 2)) :=
  (dat7 (F := Ideal) V c).arrAt_eq_of_cover 3 _ (fun t _ => flushed7_eq V c t) (covered7)

end Cert.KernelIdeal.KVal

end
-- ==== Proof.KLayerFinal8.lean ====
/-
  Layer kernel 8, from blocks to the array.

  The region runs the layer body at 20 grid points.  At point t the aggregate's and the input stage's windows hold
  rows 5000 · t … 5000 · t + 4999 of their arrays, the weights' window holds the whole 64 by 64 array, and the body's
  one whole-block store is written back to the same rows of the output array.  Every row r of the output is therefore
  written by point r / 5000, and the output array ends at the layer function of the three input arrays, entry by entry.
-/
import proofs.«141911_j13975823581435_1_alg».proof.Proof.Gen.KernelIdeal.Frame
import proofs.«141911_j13975823581435_1_alg».proof.Proof.KLayerBlock
import Idealize.ShloMosaic.Lib.Pipeline.Value

set_option maxRecDepth 16384

noncomputable section

open scoped BigOperators

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body of region 8 leaves in the output window's buffer is the layer body's term, at the region's two
    words, of the three loaded blocks: its one store covers the whole buffer and its loads read whole buffers. -/
theorem stored8_eq (a h : Vec Ideal S5000x64 .f32) (w : Vec Ideal S64x64 .f32) :
    out8_3 (F := Ideal) a h w = layerPay 0x3F61D8F9#32 0x3DF1383B#32 a h w := by
  unfold out8_3
  rw [View.canon_unit_zero zeroOffsets]
  simp only [View.ld_unit_zero (S := S5000x64) zeroOffsets, View.ld_unit_zero (S := S64x64) zeroOffsets]
  rfl

/-- The grid of region 8 has 20 points. -/
theorem point_lt8 (t : Fin cfg8.N) : t.val < 20 := by
  have h : t.val < grid8.N := t.isLt
  rw [N_8] at h
  exact h

/-- The printed index maps, decided over the grid: the three node-indexed windows sit at block (t, 0), the weights'
    window at block (0, 0). -/
theorem blockIdx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Element (p, k) of the aggregate's block at point t sits at row 5000 · t + p, column k of its array. -/
theorem posAgg8 (t : Fin cfg8.N) (p : Fin 5000) (k : Fin 64) :
    ((cfg8.win 0).blk t).view.emb (ix2 p k) = (ix2 (blockRow t.val (point_lt8 t) p) k : S100000x64.Idx) := by
  obtain ⟨e0, e1, -⟩ := blockIdx8 t
  funext a; apply Fin.ext
  match a with
  | ⟨0, _⟩ => show win8_0.index t (0 : Fin 2) * 5000 + 1 * p.val = 5000 * t.val + p.val; omega
  | ⟨1, _⟩ => show win8_0.index t (1 : Fin 2) * 64 + 1 * k.val = k.val; omega

/-- Element (p, k) of the input stage's block at point t sits at row 5000 · t + p, column k of its array. -/
theorem posInit8 (t : Fin cfg8.N) (p : Fin 5000) (k : Fin 64) :
    ((cfg8.win 1).blk t).view.emb (ix2 p k) = (ix2 (blockRow t.val (point_lt8 t) p) k : S100000x64.Idx) := by
  obtain ⟨-, -, e0, e1, -⟩ := blockIdx8 t
  funext a; apply Fin.ext
  match a with
  | ⟨0, _⟩ => show win8_1.index t (0 : Fin 2) * 5000 + 1 * p.val = 5000 * t.val + p.val; omega
  | ⟨1, _⟩ => show win8_1.index t (1 : Fin 2) * 64 + 1 * k.val = k.val; omega

/-- Element (k, q) of the weights' block at any point sits at (k, q) of the weight array. -/
theorem posWeights8 (t : Fin cfg8.N) (k q : Fin 64) :
    ((cfg8.win 2).blk t).view.emb (ix2 k q) = (ix2 k q : S64x64.Idx) := by
  obtain ⟨-, -, -, -, e0, e1, -⟩ := blockIdx8 t
  funext a; apply Fin.ext
  match a with
  | ⟨0, _⟩ => show win8_2.index t (0 : Fin 2) * 64 + 1 * k.val = k.val; omega
  | ⟨1, _⟩ => show win8_2.index t (1 : Fin 2) * 64 + 1 * q.val = q.val; omega

/-- Element (p, q) of the output's block at point t sits at row 5000 · t + p, column q of the output array. -/
theorem posOut8 (t : Fin cfg8.N) (p : Fin 5000) (q : Fin 64) :
    ((cfg8.win 3).blk t).view.emb (ix2 p q) = (ix2 (blockRow t.val (point_lt8 t) p) q : S100000x64.Idx) := by
  obtain ⟨-, -, -, -, -, -, e0, e1⟩ := blockIdx8 t
  funext a; apply Fin.ext
  match a with
  | ⟨0, _⟩ => show win8_3.index t (0 : Fin 2) * 5000 + 1 * p.val = 5000 * t.val + p.val; omega
  | ⟨1, _⟩ => show win8_3.index t (1 : Fin 2) * 64 + 1 * q.val = q.val; omega

/-- The aggregate's block at point t is rows 5000 · t … of its array. -/
theorem readAgg8 (c : Dev nD) (t : Fin cfg8.N) (p : Fin 5000) (k : Fin 64) :
    (iblk8 V c 0 t : Vec Ideal S5000x64 .f32) (ix2 p k)
      = (V c (Pipeline.arrRef spec8 0) : S100000x64.Idx → EReal) (ix2 (blockRow t.val (point_lt8 t) p) k) :=
  congrArg (V c (Pipeline.arrRef spec8 0)) (posAgg8 t p k)

/-- The input stage's block at point t is rows 5000 · t … of its array. -/
theorem readInit8 (c : Dev nD) (t : Fin cfg8.N) (p : Fin 5000) (k : Fin 64) :
    (iblk8 V c 1 t : Vec Ideal S5000x64 .f32) (ix2 p k)
      = (V c (Pipeline.arrRef spec8 1) : S100000x64.Idx → EReal) (ix2 (blockRow t.val (point_lt8 t) p) k) :=
  congrArg (V c (Pipeline.arrRef spec8 1)) (posInit8 t p k)

/-- The weights' block at every point is the whole weight array. -/
theorem readWeights8 (c : Dev nD) (t : Fin cfg8.N) (k q : Fin 64) :
    (iblk8 V c 2 t : Vec Ideal S64x64 .f32) (ix2 k q)
      = (V c (Pipeline.arrRef spec8 2) : S64x64.Idx → EReal) (ix2 k q) :=
  congrArg (V c (Pipeline.arrRef spec8 2)) (posWeights8 t k q)

/-- Entry (p, q) of what the body stores at point t is entry (5000 · t + p, q) of the layer function of the three
    arrays as the region finds them. -/
theorem entry8 (c : Dev nD) (t : Fin cfg8.N) (p : Fin 5000) (q : Fin 64) :
    layerPay 0x3F61D8F9#32 0x3DF1383B#32 (iblk8 V c 0 t) (iblk8 V c 1 t) (iblk8 V c 2 t) (ix2 p q)
      = Cert.GCN.layer 0x3F61D8F9#32 0x3DF1383B#32 (V c (Pipeline.arrRef spec8 0)) (V c (Pipeline.arrRef spec8 1))
          (V c (Pipeline.arrRef spec8 2)) (ix2 (blockRow t.val (point_lt8 t) p) q) :=
  layerPay_eq_layer 0x3F61D8F9#32 0x3DF1383B#32 _ _ _ _ _ _ (blockRow t.val (point_lt8 t))
    (readAgg8 V c t) (readInit8 V c t) (readWeights8 V c t) p q

/-- Any contents of the output array, read through point t's block at (p, q), are read at (5000 · t + p, q). -/
theorem readOut8 (c : Dev nD) (t : Fin cfg8.N) (G : S100000x64.Idx → EReal) (p : Fin 5000) (q : Fin 64) :
    ((cfg8.win 3).blk t).view.read (Elt Ideal) G (ix2 p q) = G (ix2 (blockRow t.val (point_lt8 t) p) q) :=
  congrArg G (posOut8 t p q)

/-- What point t writes back is block t of the layer function of the three arrays as the region finds them. -/
theorem flushed8_eq (c : Dev nD) (t : Fin cfg8.N) :
    (dat8 (F := Ideal) V c).flushed 3 t = ((cfg8.win 3).blk t).view.read (Elt Ideal)
      (Cert.GCN.layer 0x3F61D8F9#32 0x3DF1383B#32 (V c (Pipeline.arrRef spec8 0)) (V c (Pipeline.arrRef spec8 1))
        (V c (Pipeline.arrRef spec8 2))) := by
  show (cfg8.win 3).cut (grid8.coords t) ((dat8 (F := Ideal) V c).after 3 t) = _
  rw [after8_3, stored8_eq]
  funext j
  obtain ⟨p, q, rfl⟩ : ∃ (p : Fin 5000) (q : Fin 64), j = (ix2 p q : S5000x64.Idx) :=
    ⟨j 0, j 1, eq_ix2 (n0 := 5000) (n1 := 64) j⟩
  exact (entry8 V c t p q).trans (readOut8 c t _ p q).symm

/-- An index of the output array is in point t's block iff each coordinate is in the block's range on its axis. -/
theorem mem_block8 (t : Fin cfg8.N) (i : S100000x64.Idx) :
    i ∈ ((cfg8.win 3).blk t).view.set ↔ ∀ a : Fin 2, win8_3.index t a * S5000x64.size a ≤ (i a).val
      ∧ (i a).val < win8_3.index t a * S5000x64.size a + S5000x64.size a := by
  show i ∈ ((View.whole main_v161).slice (win8_3.rect t)).set ↔ _
  rw [View.set_slice_whole, Rect.mem_set_unit]
  exact Iff.rfl

/-- Row r of the output array is written back by point r / 5000. -/
theorem covered8 (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  have hN : grid8.N = 20 := N_8
  let t : Fin cfg8.N := ⟨(i 0).val / 5000, by show (i 0).val / 5000 < grid8.N; rw [hN]; omega⟩
  have ht : t.val = (i 0).val / 5000 := rfl
  obtain ⟨-, -, -, -, -, -, e0, e1⟩ := blockIdx8 t
  refine ⟨t, flush8_3 t, ?_⟩
  rw [mem_block8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

/-- THE OUTPUT ARRAY of layer kernel 8 after its twenty write-backs: the layer function of the aggregate, the input
    stage's result and the weights as the region finds them. -/
theorem final8 (c : Dev nD) :
    (dat8 (F := Ideal) V c).arrAt 3 cfg8.N
      = Cert.GCN.layer 0x3F61D8F9#32 0x3DF1383B#32 (V c (Pipeline.arrRef spec8 0)) (V c (Pipeline.arrRef spec8 1))
          (V c (Pipeline.arrRef spec8 2)) :=
  (dat8 (F := Ideal) V c).arrAt_eq_of_cover 3 _ (fun t _ => flushed8_eq V c t) (covered8)

end Cert.KernelIdeal.KVal

end
-- ==== Proof.KChain.lean ====
/-
  The kernel program's fold from the launch memory to its result buffer, segment by segment.  The program is three
  host stretches, the input region, then eight times a host stretch (the neighbour aggregation and the layer's weights)
  and a layer region, then one more stretch (the output bias as a row) and the output region.  At each region's exit the
  buffers that later segments read are named: the edge rows and edge weights computed before the first region stay as
  they are (no later segment writes them), the input stage's result and the weight stacks likewise, and each region's
  output array is the whole-array function of the arrays it was entered with.  Chaining the segments gives the result
  buffer as the composition of the input stage, the eight layers and the output stage over the launch's arguments.
-/
import proofs.«141911_j13975823581435_1_alg».proof.Proof.KOut
import proofs.«141911_j13975823581435_1_alg».proof.Proof.KStretch
import proofs.«141911_j13975823581435_1_alg».proof.Proof.Gen.KernelIdeal.Frame
import Idealize.ShloMosaic.Lib.Pipeline.Value
import Idealize.ShloMosaic.Lib.ValueIdx
import proofs.«141911_j13975823581435_1_alg».proof.Proof.KDenseEluArray
import proofs.«141911_j13975823581435_1_alg».proof.Proof.KDenseProjArray
import proofs.«141911_j13975823581435_1_alg».proof.Proof.KLayerFinal1
import proofs.«141911_j13975823581435_1_alg».proof.Proof.KLayerFinal2
import proofs.«141911_j13975823581435_1_alg».proof.Proof.KLayerFinal3
import proofs.«141911_j13975823581435_1_alg».proof.Proof.KLayerFinal4
import proofs.«141911_j13975823581435_1_alg».proof.Proof.KLayerFinal5
import proofs.«141911_j13975823581435_1_alg».proof.Proof.KLayerFinal6
import proofs.«141911_j13975823581435_1_alg».proof.Proof.KLayerFinal7
import proofs.«141911_j13975823581435_1_alg».proof.Proof.KLayerFinal8

set_option maxRecDepth 16384

noncomputable section

namespace Cert.KernelIdeal.KChain

open Cert.KernelIdeal Cert.KernelIdeal.Gen Cert.KernelIdeal.KStages Cert.KernelIdeal.KOut Cert.KernelIdeal.KStretch
open Idealize.ShloMosaic Idealize.ShloMosaic.StableHlo Idealize.ShloMosaic.TcCoe Idealize.SL.Sem
open Cert.KernelIdeal.KVal

variable (m : (ℓ : Loc nD τ sig) → Buf (Elt Ideal) ℓ) (ρ : Dev nD → PrngReg) (c : Dev nD)

/-! ## The named arrays -/

/-- The source and destination index of every edge, and the edge weights, of the launch's edge list. -/
def SRC : IA Ideal S1700000 := srcK (m ((c.tc : Thread nD τ).loc main_arg1))
def DST : IA Ideal S1700000 := dstK (m ((c.tc : Thread nD τ).loc main_arg1))
def NRM : FA Ideal S1700000 := normK (SRC m c) (DST m c)
/-- The input stage's result, and the eight layers' results in order. -/
def HK0 : FA Ideal S100000x64 := Cert.GCN.dense0 (m ((c.tc : Thread nD τ).loc main_arg0)) (m ((c.tc : Thread nD τ).loc main_arg2)) (m ((c.tc : Thread nD τ).loc main_arg3))
def HK1 : FA Ideal S100000x64 :=
  stepK 0x3E9D1BD0#32 0x3F317218#32 ![0, 0, 0] slices_S8x64x64_S1x64x64_0_0_0 (NRM m c) (SRC m c) (DST m c) (HK0 m c) (m ((c.tc : Thread nD τ).loc main_arg4)) (HK0 m c)
def HK2 : FA Ideal S100000x64 :=
  stepK 0x3F183370#32 0x3ECF991F#32 ![1, 0, 0] slices_S8x64x64_S1x64x64_1_0_0 (NRM m c) (SRC m c) (DST m c) (HK0 m c) (m ((c.tc : Thread nD τ).loc main_arg4)) (HK1 m c)
def HK3 : FA Ideal S100000x64 :=
  stepK 0x3F365A78#32 0x3E934B11#32 ![2, 0, 0] slices_S8x64x64_S1x64x64_2_0_0 (NRM m c) (SRC m c) (DST m c) (HK0 m c) (m ((c.tc : Thread nD τ).loc main_arg4)) (HK2 m c)
def HK4 : FA Ideal S100000x64 :=
  stepK 0x3F46E010#32 0x3E647FBE#32 ![3, 0, 0] slices_S8x64x64_S1x64x64_3_0_0 (NRM m c) (SRC m c) (DST m c) (HK0 m c) (m ((c.tc : Thread nD τ).loc main_arg4)) (HK3 m c)
def HK5 : FA Ideal S100000x64 :=
  stepK 0x3F515360#32 0x3E3AB281#32 ![4, 0, 0] slices_S8x64x64_S1x64x64_4_0_0 (NRM m c) (SRC m c) (DST m c) (HK0 m c) (m ((c.tc : Thread nD τ).loc main_arg4)) (HK4 m c)
def HK6 : FA Ideal S100000x64 :=
  stepK 0x3F588995#32 0x3E1DD9AD#32 ![5, 0, 0] slices_S8x64x64_S1x64x64_5_0_0 (NRM m c) (SRC m c) (DST m c) (HK0 m c) (m ((c.tc : Thread nD τ).loc main_arg4)) (HK5 m c)
def HK7 : FA Ideal S100000x64 :=
  stepK 0x3F5DD0E3#32 0x3E08BC74#32 ![6, 0, 0] slices_S8x64x64_S1x64x64_6_0_0 (NRM m c) (SRC m c) (DST m c) (HK0 m c) (m ((c.tc : Thread nD τ).loc main_arg4)) (HK6 m c)
def HK8 : FA Ideal S100000x64 :=
  stepK 0x3F61D8F9#32 0x3DF1383B#32 ![7, 0, 0] slices_S8x64x64_S1x64x64_7_0_0 (NRM m c) (SRC m c) (DST m c) (HK0 m c) (m ((c.tc : Thread nD τ).loc main_arg4)) (HK7 m c)

/-- A length-64 vector laid out as a [1, 64] row and read back along that row is the vector. -/
theorem rowK_read (b : FA Ideal S64) : (fun j : S64.Idx => rowK b (ValueIdx.ix2 (0 : Fin 1) (j 0))) = b := by
  funext j
  obtain ⟨q, rfl⟩ : ∃ q : Fin 64, j = ValueIdx.ix1 q := ⟨j 0, ValueIdx.eq_ix1 j⟩
  exact shapeCast_apply b shapeCasts_S64_S1x64 _ _ (by
    rw [Shape.rowMajor_val_two, Shape.rowMajor_val_one]
    show q.val = 0 * 64 + q.val
    omega)

/-! ## At the first region's entry: the three stretches before it -/

theorem e0_src : W3 m ρ c (Proc.devRef .tc main_v3) = SRC m c := pre_src (W0 m ρ c)
theorem e0_dst : W3 m ρ c (Proc.devRef .tc main_v6) = DST m c := pre_dst (W0 m ρ c)
theorem e0_nrm : W3 m ρ c (Proc.devRef .tc main_v31) = NRM m c := pre_nrm (W0 m ρ c)
theorem e0_row : W3 m ρ c (Proc.devRef .tc main_v32) = rowK (m ((c.tc : Thread nD τ).loc main_arg3)) := pre_row (W0 m ρ c)
theorem e0_a0 : W3 m ρ c (Proc.devRef .tc main_arg0) = (m ((c.tc : Thread nD τ).loc main_arg0)) := pre_keep_a0 (W0 m ρ c)
theorem e0_a2 : W3 m ρ c (Proc.devRef .tc main_arg2) = (m ((c.tc : Thread nD τ).loc main_arg2)) := pre_keep_a2 (W0 m ρ c)
theorem e0_a4 : W3 m ρ c (Proc.devRef .tc main_arg4) = (m ((c.tc : Thread nD τ).loc main_arg4)) := pre_keep_a4 (W0 m ρ c)
theorem e0_a5 : W3 m ρ c (Proc.devRef .tc main_arg5) = (m ((c.tc : Thread nD τ).loc main_arg5)) := pre_keep_a5 (W0 m ρ c)
theorem e0_a6 : W3 m ρ c (Proc.devRef .tc main_arg6) = (m ((c.tc : Thread nD τ).loc main_arg6)) := pre_keep_a6 (W0 m ρ c)

/-! ## After the input region -/

theorem x4_v3 : W4 m ρ c (Proc.devRef .tc main_v3) = SRC m c := (W4_of_ne m ρ c main_v3 (by decide)).trans (e0_src m ρ c)
theorem x4_v6 : W4 m ρ c (Proc.devRef .tc main_v6) = DST m c := (W4_of_ne m ρ c main_v6 (by decide)).trans (e0_dst m ρ c)
theorem x4_v31 : W4 m ρ c (Proc.devRef .tc main_v31) = NRM m c := (W4_of_ne m ρ c main_v31 (by decide)).trans (e0_nrm m ρ c)
theorem x4_a4 : W4 m ρ c (Proc.devRef .tc main_arg4) = (m ((c.tc : Thread nD τ).loc main_arg4)) := (W4_of_ne m ρ c main_arg4 (by decide)).trans (e0_a4 m ρ c)
theorem x4_a5 : W4 m ρ c (Proc.devRef .tc main_arg5) = (m ((c.tc : Thread nD τ).loc main_arg5)) := (W4_of_ne m ρ c main_arg5 (by decide)).trans (e0_a5 m ρ c)
theorem x4_a6 : W4 m ρ c (Proc.devRef .tc main_arg6) = (m ((c.tc : Thread nD τ).loc main_arg6)) := (W4_of_ne m ρ c main_arg6 (by decide)).trans (e0_a6 m ρ c)
theorem x4_v33 : W4 m ρ c (Proc.devRef .tc main_v33) = HK0 m c := by
  refine (W4_arr m ρ c 3).trans ((final0 (V3 m ρ) c).trans ?_)
  show Cert.GCN.dense0 (W3 m ρ c (Proc.devRef .tc main_arg0)) (W3 m ρ c (Proc.devRef .tc main_arg2))
      (fun j => W3 m ρ c (Proc.devRef .tc main_v32) (ValueIdx.ix2 (0 : Fin 1) (j 0))) = _
  rw [e0_a0, e0_a2, e0_row, rowK_read]
  rfl

/-! ## After layer 1's region -/

theorem x6_v3 : W6 m ρ c (Proc.devRef .tc main_v3) = SRC m c :=
  (W6_of_ne m ρ c main_v3 (by decide)).trans ((host1_keep_v3 (W4 m ρ c)).trans (x4_v3 m ρ c))
theorem x6_v6 : W6 m ρ c (Proc.devRef .tc main_v6) = DST m c :=
  (W6_of_ne m ρ c main_v6 (by decide)).trans ((host1_keep_v6 (W4 m ρ c)).trans (x4_v6 m ρ c))
theorem x6_v31 : W6 m ρ c (Proc.devRef .tc main_v31) = NRM m c :=
  (W6_of_ne m ρ c main_v31 (by decide)).trans ((host1_keep_v31 (W4 m ρ c)).trans (x4_v31 m ρ c))
theorem x6_v33 : W6 m ρ c (Proc.devRef .tc main_v33) = HK0 m c :=
  ((W6_arr m ρ c 1).trans (((dat1 (V5 m ρ) c).arrAt_in 1 rfl _).trans (A_eq1 (V5 m ρ) c 1))).trans
    ((host1_keep_v33 (W4 m ρ c)).trans (x4_v33 m ρ c))
theorem x6_a4 : W6 m ρ c (Proc.devRef .tc main_arg4) = (m ((c.tc : Thread nD τ).loc main_arg4)) :=
  (W6_of_ne m ρ c main_arg4 (by decide)).trans ((host1_keep_a4 (W4 m ρ c)).trans (x4_a4 m ρ c))
theorem x6_a5 : W6 m ρ c (Proc.devRef .tc main_arg5) = (m ((c.tc : Thread nD τ).loc main_arg5)) :=
  (W6_of_ne m ρ c main_arg5 (by decide)).trans ((host1_keep_a5 (W4 m ρ c)).trans (x4_a5 m ρ c))
theorem x6_a6 : W6 m ρ c (Proc.devRef .tc main_arg6) = (m ((c.tc : Thread nD τ).loc main_arg6)) :=
  (W6_of_ne m ρ c main_arg6 (by decide)).trans ((host1_keep_a6 (W4 m ρ c)).trans (x4_a6 m ρ c))
theorem x6_out : W6 m ρ c (Proc.devRef .tc main_v49) = HK1 m c := by
  refine (W6_arr m ρ c 3).trans ((final1 (V5 m ρ) c).trans ?_)
  show Cert.GCN.layer 0x3E9D1BD0#32 0x3F317218#32 (after hostOps1 (W4 m ρ c) (Proc.devRef .tc main_v46))
      (after hostOps1 (W4 m ρ c) (Proc.devRef .tc main_v33)) (after hostOps1 (W4 m ρ c) (Proc.devRef .tc main_v48)) = _
  rw [host1_agg, host1_keep_v33, host1_w, x4_v31, x4_v3, x4_v6, x4_v33, x4_a4]
  rfl

/-! ## After layer 2's region -/

theorem x8_v3 : W8 m ρ c (Proc.devRef .tc main_v3) = SRC m c :=
  (W8_of_ne m ρ c main_v3 (by decide)).trans ((host2_keep_v3 (W6 m ρ c)).trans (x6_v3 m ρ c))
theorem x8_v6 : W8 m ρ c (Proc.devRef .tc main_v6) = DST m c :=
  (W8_of_ne m ρ c main_v6 (by decide)).trans ((host2_keep_v6 (W6 m ρ c)).trans (x6_v6 m ρ c))
theorem x8_v31 : W8 m ρ c (Proc.devRef .tc main_v31) = NRM m c :=
  (W8_of_ne m ρ c main_v31 (by decide)).trans ((host2_keep_v31 (W6 m ρ c)).trans (x6_v31 m ρ c))
theorem x8_v33 : W8 m ρ c (Proc.devRef .tc main_v33) = HK0 m c :=
  ((W8_arr m ρ c 1).trans (((dat2 (V7 m ρ) c).arrAt_in 1 rfl _).trans (A_eq2 (V7 m ρ) c 1))).trans
    ((host2_keep_v33 (W6 m ρ c)).trans (x6_v33 m ρ c))
theorem x8_a4 : W8 m ρ c (Proc.devRef .tc main_arg4) = (m ((c.tc : Thread nD τ).loc main_arg4)) :=
  (W8_of_ne m ρ c main_arg4 (by decide)).trans ((host2_keep_a4 (W6 m ρ c)).trans (x6_a4 m ρ c))
theorem x8_a5 : W8 m ρ c (Proc.devRef .tc main_arg5) = (m ((c.tc : Thread nD τ).loc main_arg5)) :=
  (W8_of_ne m ρ c main_arg5 (by decide)).trans ((host2_keep_a5 (W6 m ρ c)).trans (x6_a5 m ρ c))
theorem x8_a6 : W8 m ρ c (Proc.devRef .tc main_arg6) = (m ((c.tc : Thread nD τ).loc main_arg6)) :=
  (W8_of_ne m ρ c main_arg6 (by decide)).trans ((host2_keep_a6 (W6 m ρ c)).trans (x6_a6 m ρ c))
theorem x8_out : W8 m ρ c (Proc.devRef .tc main_v65) = HK2 m c := by
  refine (W8_arr m ρ c 3).trans ((final2 (V7 m ρ) c).trans ?_)
  show Cert.GCN.layer 0x3F183370#32 0x3ECF991F#32 (after hostOps2 (W6 m ρ c) (Proc.devRef .tc main_v62))
      (after hostOps2 (W6 m ρ c) (Proc.devRef .tc main_v33)) (after hostOps2 (W6 m ρ c) (Proc.devRef .tc main_v64)) = _
  rw [host2_agg, host2_keep_v33, host2_w, x6_v31, x6_v3, x6_v6, x6_v33, x6_a4, x6_out]
  rfl

/-! ## After layer 3's region -/

theorem x10_v3 : W10 m ρ c (Proc.devRef .tc main_v3) = SRC m c :=
  (W10_of_ne m ρ c main_v3 (by decide)).trans ((host3_keep_v3 (W8 m ρ c)).trans (x8_v3 m ρ c))
theorem x10_v6 : W10 m ρ c (Proc.devRef .tc main_v6) = DST m c :=
  (W10_of_ne m ρ c main_v6 (by decide)).trans ((host3_keep_v6 (W8 m ρ c)).trans (x8_v6 m ρ c))
theorem x10_v31 : W10 m ρ c (Proc.devRef .tc main_v31) = NRM m c :=
  (W10_of_ne m ρ c main_v31 (by decide)).trans ((host3_keep_v31 (W8 m ρ c)).trans (x8_v31 m ρ c))
theorem x10_v33 : W10 m ρ c (Proc.devRef .tc main_v33) = HK0 m c :=
  ((W10_arr m ρ c 1).trans (((dat3 (V9 m ρ) c).arrAt_in 1 rfl _).trans (A_eq3 (V9 m ρ) c 1))).trans
    ((host3_keep_v33 (W8 m ρ c)).trans (x8_v33 m ρ c))
theorem x10_a4 : W10 m ρ c (Proc.devRef .tc main_arg4) = (m ((c.tc : Thread nD τ).loc main_arg4)) :=
  (W10_of_ne m ρ c main_arg4 (by decide)).trans ((host3_keep_a4 (W8 m ρ c)).trans (x8_a4 m ρ c))
theorem x10_a5 : W10 m ρ c (Proc.devRef .tc main_arg5) = (m ((c.tc : Thread nD τ).loc main_arg5)) :=
  (W10_of_ne m ρ c main_arg5 (by decide)).trans ((host3_keep_a5 (W8 m ρ c)).trans (x8_a5 m ρ c))
theorem x10_a6 : W10 m ρ c (Proc.devRef .tc main_arg6) = (m ((c.tc : Thread nD τ).loc main_arg6)) :=
  (W10_of_ne m ρ c main_arg6 (by decide)).trans ((host3_keep_a6 (W8 m ρ c)).trans (x8_a6 m ρ c))
theorem x10_out : W10 m ρ c (Proc.devRef .tc main_v81) = HK3 m c := by
  refine (W10_arr m ρ c 3).trans ((final3 (V9 m ρ) c).trans ?_)
  show Cert.GCN.layer 0x3F365A78#32 0x3E934B11#32 (after hostOps3 (W8 m ρ c) (Proc.devRef .tc main_v78))
      (after hostOps3 (W8 m ρ c) (Proc.devRef .tc main_v33)) (after hostOps3 (W8 m ρ c) (Proc.devRef .tc main_v80)) = _
  rw [host3_agg, host3_keep_v33, host3_w, x8_v31, x8_v3, x8_v6, x8_v33, x8_a4, x8_out]
  rfl

/-! ## After layer 4's region -/

theorem x12_v3 : W12 m ρ c (Proc.devRef .tc main_v3) = SRC m c :=
  (W12_of_ne m ρ c main_v3 (by decide)).trans ((host4_keep_v3 (W10 m ρ c)).trans (x10_v3 m ρ c))
theorem x12_v6 : W12 m ρ c (Proc.devRef .tc main_v6) = DST m c :=
  (W12_of_ne m ρ c main_v6 (by decide)).trans ((host4_keep_v6 (W10 m ρ c)).trans (x10_v6 m ρ c))
theorem x12_v31 : W12 m ρ c (Proc.devRef .tc main_v31) = NRM m c :=
  (W12_of_ne m ρ c main_v31 (by decide)).trans ((host4_keep_v31 (W10 m ρ c)).trans (x10_v31 m ρ c))
theorem x12_v33 : W12 m ρ c (Proc.devRef .tc main_v33) = HK0 m c :=
  ((W12_arr m ρ c 1).trans (((dat4 (V11 m ρ) c).arrAt_in 1 rfl _).trans (A_eq4 (V11 m ρ) c 1))).trans
    ((host4_keep_v33 (W10 m ρ c)).trans (x10_v33 m ρ c))
theorem x12_a4 : W12 m ρ c (Proc.devRef .tc main_arg4) = (m ((c.tc : Thread nD τ).loc main_arg4)) :=
  (W12_of_ne m ρ c main_arg4 (by decide)).trans ((host4_keep_a4 (W10 m ρ c)).trans (x10_a4 m ρ c))
theorem x12_a5 : W12 m ρ c (Proc.devRef .tc main_arg5) = (m ((c.tc : Thread nD τ).loc main_arg5)) :=
  (W12_of_ne m ρ c main_arg5 (by decide)).trans ((host4_keep_a5 (W10 m ρ c)).trans (x10_a5 m ρ c))
theorem x12_a6 : W12 m ρ c (Proc.devRef .tc main_arg6) = (m ((c.tc : Thread nD τ).loc main_arg6)) :=
  (W12_of_ne m ρ c main_arg6 (by decide)).trans ((host4_keep_a6 (W10 m ρ c)).trans (x10_a6 m ρ c))
theorem x12_out : W12 m ρ c (Proc.devRef .tc main_v97) = HK4 m c := by
  refine (W12_arr m ρ c 3).trans ((final4 (V11 m ρ) c).trans ?_)
  show Cert.GCN.layer 0x3F46E010#32 0x3E647FBE#32 (after hostOps4 (W10 m ρ c) (Proc.devRef .tc main_v94))
      (after hostOps4 (W10 m ρ c) (Proc.devRef .tc main_v33)) (after hostOps4 (W10 m ρ c) (Proc.devRef .tc main_v96)) = _
  rw [host4_agg, host4_keep_v33, host4_w, x10_v31, x10_v3, x10_v6, x10_v33, x10_a4, x10_out]
  rfl

/-! ## After layer 5's region -/

theorem x14_v3 : W14 m ρ c (Proc.devRef .tc main_v3) = SRC m c :=
  (W14_of_ne m ρ c main_v3 (by decide)).trans ((host5_keep_v3 (W12 m ρ c)).trans (x12_v3 m ρ c))
theorem x14_v6 : W14 m ρ c (Proc.devRef .tc main_v6) = DST m c :=
  (W14_of_ne m ρ c main_v6 (by decide)).trans ((host5_keep_v6 (W12 m ρ c)).trans (x12_v6 m ρ c))
theorem x14_v31 : W14 m ρ c (Proc.devRef .tc main_v31) = NRM m c :=
  (W14_of_ne m ρ c main_v31 (by decide)).trans ((host5_keep_v31 (W12 m ρ c)).trans (x12_v31 m ρ c))
theorem x14_v33 : W14 m ρ c (Proc.devRef .tc main_v33) = HK0 m c :=
  ((W14_arr m ρ c 1).trans (((dat5 (V13 m ρ) c).arrAt_in 1 rfl _).trans (A_eq5 (V13 m ρ) c 1))).trans
    ((host5_keep_v33 (W12 m ρ c)).trans (x12_v33 m ρ c))
theorem x14_a4 : W14 m ρ c (Proc.devRef .tc main_arg4) = (m ((c.tc : Thread nD τ).loc main_arg4)) :=
  (W14_of_ne m ρ c main_arg4 (by decide)).trans ((host5_keep_a4 (W12 m ρ c)).trans (x12_a4 m ρ c))
theorem x14_a5 : W14 m ρ c (Proc.devRef .tc main_arg5) = (m ((c.tc : Thread nD τ).loc main_arg5)) :=
  (W14_of_ne m ρ c main_arg5 (by decide)).trans ((host5_keep_a5 (W12 m ρ c)).trans (x12_a5 m ρ c))
theorem x14_a6 : W14 m ρ c (Proc.devRef .tc main_arg6) = (m ((c.tc : Thread nD τ).loc main_arg6)) :=
  (W14_of_ne m ρ c main_arg6 (by decide)).trans ((host5_keep_a6 (W12 m ρ c)).trans (x12_a6 m ρ c))
theorem x14_out : W14 m ρ c (Proc.devRef .tc main_v113) = HK5 m c := by
  refine (W14_arr m ρ c 3).trans ((final5 (V13 m ρ) c).trans ?_)
  show Cert.GCN.layer 0x3F515360#32 0x3E3AB281#32 (after hostOps5 (W12 m ρ c) (Proc.devRef .tc main_v110))
      (after hostOps5 (W12 m ρ c) (Proc.devRef .tc main_v33)) (after hostOps5 (W12 m ρ c) (Proc.devRef .tc main_v112)) = _
  rw [host5_agg, host5_keep_v33, host5_w, x12_v31, x12_v3, x12_v6, x12_v33, x12_a4, x12_out]
  rfl

/-! ## After layer 6's region -/

theorem x16_v3 : W16 m ρ c (Proc.devRef .tc main_v3) = SRC m c :=
  (W16_of_ne m ρ c main_v3 (by decide)).trans ((host6_keep_v3 (W14 m ρ c)).trans (x14_v3 m ρ c))
theorem x16_v6 : W16 m ρ c (Proc.devRef .tc main_v6) = DST m c :=
  (W16_of_ne m ρ c main_v6 (by decide)).trans ((host6_keep_v6 (W14 m ρ c)).trans (x14_v6 m ρ c))
theorem x16_v31 : W16 m ρ c (Proc.devRef .tc main_v31) = NRM m c :=
  (W16_of_ne m ρ c main_v31 (by decide)).trans ((host6_keep_v31 (W14 m ρ c)).trans (x14_v31 m ρ c))
theorem x16_v33 : W16 m ρ c (Proc.devRef .tc main_v33) = HK0 m c :=
  ((W16_arr m ρ c 1).trans (((dat6 (V15 m ρ) c).arrAt_in 1 rfl _).trans (A_eq6 (V15 m ρ) c 1))).trans
    ((host6_keep_v33 (W14 m ρ c)).trans (x14_v33 m ρ c))
theorem x16_a4 : W16 m ρ c (Proc.devRef .tc main_arg4) = (m ((c.tc : Thread nD τ).loc main_arg4)) :=
  (W16_of_ne m ρ c main_arg4 (by decide)).trans ((host6_keep_a4 (W14 m ρ c)).trans (x14_a4 m ρ c))
theorem x16_a5 : W16 m ρ c (Proc.devRef .tc main_arg5) = (m ((c.tc : Thread nD τ).loc main_arg5)) :=
  (W16_of_ne m ρ c main_arg5 (by decide)).trans ((host6_keep_a5 (W14 m ρ c)).trans (x14_a5 m ρ c))
theorem x16_a6 : W16 m ρ c (Proc.devRef .tc main_arg6) = (m ((c.tc : Thread nD τ).loc main_arg6)) :=
  (W16_of_ne m ρ c main_arg6 (by decide)).trans ((host6_keep_a6 (W14 m ρ c)).trans (x14_a6 m ρ c))
theorem x16_out : W16 m ρ c (Proc.devRef .tc main_v129) = HK6 m c := by
  refine (W16_arr m ρ c 3).trans ((final6 (V15 m ρ) c).trans ?_)
  show Cert.GCN.layer 0x3F588995#32 0x3E1DD9AD#32 (after hostOps6 (W14 m ρ c) (Proc.devRef .tc main_v126))
      (after hostOps6 (W14 m ρ c) (Proc.devRef .tc main_v33)) (after hostOps6 (W14 m ρ c) (Proc.devRef .tc main_v128)) = _
  rw [host6_agg, host6_keep_v33, host6_w, x14_v31, x14_v3, x14_v6, x14_v33, x14_a4, x14_out]
  rfl

/-! ## After layer 7's region -/

theorem x18_v3 : W18 m ρ c (Proc.devRef .tc main_v3) = SRC m c :=
  (W18_of_ne m ρ c main_v3 (by decide)).trans ((host7_keep_v3 (W16 m ρ c)).trans (x16_v3 m ρ c))
theorem x18_v6 : W18 m ρ c (Proc.devRef .tc main_v6) = DST m c :=
  (W18_of_ne m ρ c main_v6 (by decide)).trans ((host7_keep_v6 (W16 m ρ c)).trans (x16_v6 m ρ c))
theorem x18_v31 : W18 m ρ c (Proc.devRef .tc main_v31) = NRM m c :=
  (W18_of_ne m ρ c main_v31 (by decide)).trans ((host7_keep_v31 (W16 m ρ c)).trans (x16_v31 m ρ c))
theorem x18_v33 : W18 m ρ c (Proc.devRef .tc main_v33) = HK0 m c :=
  ((W18_arr m ρ c 1).trans (((dat7 (V17 m ρ) c).arrAt_in 1 rfl _).trans (A_eq7 (V17 m ρ) c 1))).trans
    ((host7_keep_v33 (W16 m ρ c)).trans (x16_v33 m ρ c))
theorem x18_a4 : W18 m ρ c (Proc.devRef .tc main_arg4) = (m ((c.tc : Thread nD τ).loc main_arg4)) :=
  (W18_of_ne m ρ c main_arg4 (by decide)).trans ((host7_keep_a4 (W16 m ρ c)).trans (x16_a4 m ρ c))
theorem x18_a5 : W18 m ρ c (Proc.devRef .tc main_arg5) = (m ((c.tc : Thread nD τ).loc main_arg5)) :=
  (W18_of_ne m ρ c main_arg5 (by decide)).trans ((host7_keep_a5 (W16 m ρ c)).trans (x16_a5 m ρ c))
theorem x18_a6 : W18 m ρ c (Proc.devRef .tc main_arg6) = (m ((c.tc : Thread nD τ).loc main_arg6)) :=
  (W18_of_ne m ρ c main_arg6 (by decide)).trans ((host7_keep_a6 (W16 m ρ c)).trans (x16_a6 m ρ c))
theorem x18_out : W18 m ρ c (Proc.devRef .tc main_v145) = HK7 m c := by
  refine (W18_arr m ρ c 3).trans ((final7 (V17 m ρ) c).trans ?_)
  show Cert.GCN.layer 0x3F5DD0E3#32 0x3E08BC74#32 (after hostOps7 (W16 m ρ c) (Proc.devRef .tc main_v142))
      (after hostOps7 (W16 m ρ c) (Proc.devRef .tc main_v33)) (after hostOps7 (W16 m ρ c) (Proc.devRef .tc main_v144)) = _
  rw [host7_agg, host7_keep_v33, host7_w, x16_v31, x16_v3, x16_v6, x16_v33, x16_a4, x16_out]
  rfl

/-! ## After layer 8's region -/

theorem x20_v3 : W20 m ρ c (Proc.devRef .tc main_v3) = SRC m c :=
  (W20_of_ne m ρ c main_v3 (by decide)).trans ((host8_keep_v3 (W18 m ρ c)).trans (x18_v3 m ρ c))
theorem x20_v6 : W20 m ρ c (Proc.devRef .tc main_v6) = DST m c :=
  (W20_of_ne m ρ c main_v6 (by decide)).trans ((host8_keep_v6 (W18 m ρ c)).trans (x18_v6 m ρ c))
theorem x20_v31 : W20 m ρ c (Proc.devRef .tc main_v31) = NRM m c :=
  (W20_of_ne m ρ c main_v31 (by decide)).trans ((host8_keep_v31 (W18 m ρ c)).trans (x18_v31 m ρ c))
theorem x20_v33 : W20 m ρ c (Proc.devRef .tc main_v33) = HK0 m c :=
  ((W20_arr m ρ c 1).trans (((dat8 (V19 m ρ) c).arrAt_in 1 rfl _).trans (A_eq8 (V19 m ρ) c 1))).trans
    ((host8_keep_v33 (W18 m ρ c)).trans (x18_v33 m ρ c))
theorem x20_a4 : W20 m ρ c (Proc.devRef .tc main_arg4) = (m ((c.tc : Thread nD τ).loc main_arg4)) :=
  (W20_of_ne m ρ c main_arg4 (by decide)).trans ((host8_keep_a4 (W18 m ρ c)).trans (x18_a4 m ρ c))
theorem x20_a5 : W20 m ρ c (Proc.devRef .tc main_arg5) = (m ((c.tc : Thread nD τ).loc main_arg5)) :=
  (W20_of_ne m ρ c main_arg5 (by decide)).trans ((host8_keep_a5 (W18 m ρ c)).trans (x18_a5 m ρ c))
theorem x20_a6 : W20 m ρ c (Proc.devRef .tc main_arg6) = (m ((c.tc : Thread nD τ).loc main_arg6)) :=
  (W20_of_ne m ρ c main_arg6 (by decide)).trans ((host8_keep_a6 (W18 m ρ c)).trans (x18_a6 m ρ c))
theorem x20_out : W20 m ρ c (Proc.devRef .tc main_v161) = HK8 m c := by
  refine (W20_arr m ρ c 3).trans ((final8 (V19 m ρ) c).trans ?_)
  show Cert.GCN.layer 0x3F61D8F9#32 0x3DF1383B#32 (after hostOps8 (W18 m ρ c) (Proc.devRef .tc main_v158))
      (after hostOps8 (W18 m ρ c) (Proc.devRef .tc main_v33)) (after hostOps8 (W18 m ρ c) (Proc.devRef .tc main_v160)) = _
  rw [host8_agg, host8_keep_v33, host8_w, x18_v31, x18_v3, x18_v6, x18_v33, x18_a4, x18_out]
  rfl

/-! ## After the output region: the result -/

theorem result : W22 m ρ c (Proc.devRef .tc main_v163)
    = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W22_arr m ρ c 3).trans ((final9 (V21 m ρ) c).trans ?_)
  show Cert.GCN.proj (after hostOps9 (W20 m ρ c) (Proc.devRef .tc main_v161)) (after hostOps9 (W20 m ρ c) (Proc.devRef .tc main_arg5))
      (fun j => after hostOps9 (W20 m ρ c) (Proc.devRef .tc main_v162) (ValueIdx.ix2 (0 : Fin 1) (j 0))) = _
  rw [host9_keep_h, host9_keep_a5, host9_row, x20_out, x20_a5, x20_a6, rowK_read]
  rfl

end Cert.KernelIdeal.KChain

end
-- ==== Proof.lean ====
/- The proof of `Cert.Claim` for the eight-layer graph network: both idealized programs compute, from the same seven
   arrays, the input stage elu (x · w + b), eight layers (a neighbour aggregation over the normalised edges followed by
   elu (o) + o with o = c1 · s + c2 · (s · W), s the half-and-half mix with the input stage's result) and the output
   stage h · w + b.  The kernel program's run ends with its result buffer at that function of its arguments (the chain
   of its host stretches and its ten kernel regions), the reference's run likewise, and the two functions are equal:
   the dense stages are the same index-by-index functions, the graph parts are the same host operations, and the one
   difference — the order of a product inside the aggregation — is commutativity on the extended reals.  The three
   frames are the generated frame runs (for the reference, its value run with the result conjunct dropped); the
   idealization rewrote no operation, so nothing is owed for it. -/
import proofs.«141911_j13975823581435_1_alg».proof.Defs
import proofs.«141911_j13975823581435_1_alg».proof.Proof.Gen.Kernel
import proofs.«141911_j13975823581435_1_alg».proof.Proof.Gen.Kernel.Skeleton
import proofs.«141911_j13975823581435_1_alg».proof.Proof.Gen.Kernel.Launch
import proofs.«141911_j13975823581435_1_alg».proof.Proof.Gen.Kernel.Points
import proofs.«141911_j13975823581435_1_alg».proof.Proof.Gen.Kernel.Frame
import proofs.«141911_j13975823581435_1_alg».proof.Proof.Gen.KernelIdeal
import proofs.«141911_j13975823581435_1_alg».proof.Proof.Gen.KernelIdeal.Skeleton
import proofs.«141911_j13975823581435_1_alg».proof.Proof.Gen.KernelIdeal.Launch
import proofs.«141911_j13975823581435_1_alg».proof.Proof.Gen.KernelIdeal.Points
import proofs.«141911_j13975823581435_1_alg».proof.Proof.Gen.KernelIdeal.Frame
import proofs.«141911_j13975823581435_1_alg».proof.Proof.Gen.ReferenceIdeal
import proofs.«141911_j13975823581435_1_alg».proof.Proof.Gen.Pre_finite_inputs
import proofs.«141911_j13975823581435_1_alg».proof.Proof.KRun
import proofs.«141911_j13975823581435_1_alg».proof.Proof.KOut
import proofs.«141911_j13975823581435_1_alg».proof.Proof.RefRun
import proofs.«141911_j13975823581435_1_alg».proof.Proof.OutBridge
import proofs.«141911_j13975823581435_1_alg».proof.Proof.KChain
import Idealize.ShloMosaic.Adequacy
import Idealize.ShloMosaic.Init

noncomputable section

namespace Cert.Proof

open Idealize.ShloMosaic Idealize.SL.Sem

/-- From arrays that agree pairwise, the reference's result function and the kernel program's give the same array. -/
theorem out_of_agree
    (x' x : Cert.ReferenceIdeal.Stages.FA Ideal Cert.ReferenceIdeal.S100000x256)
    (e' e : Cert.ReferenceIdeal.Stages.IA Ideal Cert.ReferenceIdeal.S2x1600000)
    (w' w : Cert.ReferenceIdeal.Stages.FA Ideal Cert.ReferenceIdeal.S256x64)
    (b' b : Cert.ReferenceIdeal.Stages.FA Ideal Cert.ReferenceIdeal.S64)
    (w4' w4 : Cert.ReferenceIdeal.Stages.FA Ideal Cert.ReferenceIdeal.S8x64x64)
    (wo' wo : Cert.ReferenceIdeal.Stages.FA Ideal Cert.ReferenceIdeal.S64x64)
    (bo' bo : Cert.ReferenceIdeal.Stages.FA Ideal Cert.ReferenceIdeal.S64)
    (h0 : x' = x) (h1 : e' = e) (h2 : w' = w) (h3 : b' = b) (h4 : w4' = w4) (h5 : wo' = wo) (h6 : bo' = bo) :
    Cert.ReferenceIdeal.Stages.outR (F := Ideal) x' e' w' b' w4' wo' bo' = Cert.KernelIdeal.KOut.outK x e w b w4 wo bo := by
  subst h0 h1 h2 h3 h4 h5 h6
  exact Cert.OutBridge.out_eq x' e' w' b' w4' wo' bo'

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result buffer at the kernel program's result function of the kernel side's arguments. -/
theorem algebraic : Cert.algebraic_KernelIdeal_ReferenceIdeal := by
  intro m ρ m' ρ' _ hagree
  refine ⟨fun c => Cert.KernelIdeal.KOut.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KChain.result m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6⟩ := hagree c
    exact out_of_agree _ _ _ _ _ _ _ _ _ _ _ _ _ _ h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
